-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S1024x4x1024 : Shape := ⟨3, ![1024, 4, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x4x1024 : S_.BroadcastsInDim S1024x4x1024 (![] : Fin 0 → Fin S1024x4x1024.rank)
  reducesTo_S1024x4x1024_S_d0_1_2 : S1024x4x1024.ReducesTo [0, 1, 2] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024 .f32) (main_arg8 : FVec F S1024x4x1024 .f32) (main_arg9 : FVec F S1024 .f32) (main_arg10 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x4x1024 .f32 := Host.absf main_arg8
  let main_cst_14 : FVec F S_ .f32 := constant S_ .f32 0x7F800000#32
  let main_v40 : FVec F S1024x4x1024 .f32 := broadcastInDim S1024x4x1024 ![] bcast_S_S1024x4x1024 main_cst_14
  let main_v41 : IVec S1024x4x1024 1 := cmpf .olt main_v39 main_v40
  let main_c_15 : IVec S_ 1 := constantI S_ 1 1#1
  let main_v42 : IVec S_ 1 := (fun x v => Host.reduce IntOp.andi x v reducesTo_S1024x4x1024_S_d0_1_2 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024 .f32) (main_arg6 : FVec F S1024x1024 .f32) (main_arg7 : FVec F S1024 .f32) (main_arg8 : FVec F S1024x4x1024 .f32) (main_arg9 : FVec F S1024 .f32) (main_arg10 : FVec F S1024 .f32) (main_v13 : IVec S_ 1) (main_v16 : IVec S1024x4x1024 1) : IVec S_ 1 :=
  let main_c_5 : IVec S_ 1 := constantI S_ 1 1#1
  let main_v17 : IVec S_ 1 := (fun x v => Host.reduce IntOp.andi x v reducesTo_S1024x4x1024_S_d0_1_2 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S4096x1024 .f32) (main_arg1 : FVec F S1024x1024 .f32) (main_arg2 : FVec F S1024 .f32) (main_arg3 : FVec F S1024x4x1024 .f32) (main_arg4 : FVec F S1024 .f32) (main_arg5 : FVec F S1024 .f32) (main_arg6 : FVec F S1024x1024 .f32) (main_arg7 : FVec F S1024 .f32) (main_arg8 : FVec F S1024x4x1024 .f32) (main_arg9 : FVec F S1024 .f32) (main_arg10 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x4x1024 .f32 := Host.absf main_arg3
  let main_cst_4 : FVec F S_ .f32 := constant S_ .f32 0x7F800000#32
  let main_v15 : FVec F S1024x4x1024 .f32 := broadcastInDim S1024x4x1024 ![] bcast_S_S1024x4x1024 main_cst_4
  let main_v16 : IVec S1024x4x1024 1 := cmpf .olt main_v14 main_v15
  fn_part1 (F := F) main_arg4 main_arg5 main_arg6 main_arg7 main_arg8 main_arg9 main_arg10 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S1024x4x1024 : Shape := ⟨3, ![1024, 4, 1024]⟩
abbrev S_ : Shape := ⟨0, ![]⟩
abbrev S1024x1x1024 : Shape := ⟨3, ![1024, 1, 1024]⟩
abbrev S1024x4 : Shape := ⟨2, ![1024, 4]⟩
abbrev S4x1024 : Shape := ⟨2, ![4, 1024]⟩
abbrev S4x1024x1024 : Shape := ⟨3, ![4, 1024, 1024]⟩
abbrev S1x1024x1024 : Shape := ⟨3, ![1, 1024, 1024]⟩
abbrev S5x1024x1024 : Shape := ⟨3, ![5, 1024, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 103
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S1024x4x1024, .f32⟩
  | .hbm, ⟨4, _⟩ => ⟨S1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x4x1024, .f32⟩
  | .hbm, ⟨9, _⟩ => ⟨S1024, .f32⟩
  | .hbm, ⟨10, _⟩ => ⟨S1024, .f32⟩
  | .hbm, ⟨11, _⟩ => ⟨S1024x1024, .bf16⟩
  | .hbm, ⟨12, _⟩ => ⟨S1024x4x1024, .bf16⟩
  | .hbm, ⟨13, _⟩ => ⟨S1024x1024, .f32⟩
  | .hbm, ⟨14, _⟩ => ⟨S1024x4x1024, .f32⟩
  | .hbm, ⟨15, _⟩ => ⟨S1024x1024, .f32⟩
  | .hbm, ⟨16, _⟩ => ⟨S_, .f32⟩
  | .hbm, ⟨17, _⟩ => ⟨S1024, .f32⟩
  | .hbm, ⟨18, _⟩ => ⟨S1024x1x1024, .f32⟩
  | .hbm, ⟨19, _⟩ => ⟨S1024x4x1024, .f32⟩
  | .hbm, ⟨20, _⟩ => ⟨S1024x4x1024, .f32⟩
  | .hbm, ⟨21, _⟩ => ⟨S_, .f32⟩
  | .hbm, ⟨22, _⟩ => ⟨S1024x4, .f32⟩
  | .hbm, ⟨23, _⟩ => ⟨S4x1024, .f32⟩
  | .hbm, ⟨24, _⟩ => ⟨S1024x1024, .bf16⟩
  | .hbm, ⟨25, _⟩ => ⟨S4x1024x1024, .bf16⟩
  | .hbm, ⟨26, _⟩ => ⟨S1x1024x1024, .bf16⟩
  | .hbm, ⟨27, _⟩ => ⟨S5x1024x1024, .bf16⟩
  | .hbm, ⟨28, _⟩ => ⟨S_, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S_, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S1024, .f32⟩
  | .hbm, ⟨52, _⟩ => ⟨S1024, .f32⟩
  | .hbm, ⟨53, _⟩ => ⟨S1024, .f32⟩
  | .hbm, ⟨54, _⟩ => ⟨S1024x1024, .bf16⟩
  | .hbm, ⟨55, _⟩ => ⟨S1024x4x1024, .bf16⟩
  | .hbm, ⟨56, _⟩ => ⟨S1024x1024, .f32⟩
  | .hbm, ⟨57, _⟩ => ⟨S1024x4x1024, .f32⟩
  | .hbm, ⟨58, _⟩ => ⟨S1024x1024, .f32⟩
  | .hbm, ⟨59, _⟩ => ⟨S_, .f32⟩
  | .hbm, ⟨60, _⟩ => ⟨S1024, .f32⟩
  | .hbm, ⟨61, _⟩ => ⟨S1024x1x1024, .f32⟩
  | .hbm, ⟨62, _⟩ => ⟨S1024x4x1024, .f32⟩
  | .hbm, ⟨63, _⟩ => ⟨S1024x4x1024, .f32⟩
  | .hbm, ⟨64, _⟩ => ⟨S_, .f32⟩
  | .hbm, ⟨65, _⟩ => ⟨S1024x4, .f32⟩
  | .hbm, ⟨66, _⟩ => ⟨S4x1024, .f32⟩
  | .hbm, ⟨67, _⟩ => ⟨S1024x1024, .bf16⟩
  | .hbm, ⟨68, _⟩ => ⟨S4x1024x1024, .bf16⟩
  | .hbm, ⟨69, _⟩ => ⟨S1x1024x1024, .bf16⟩
  | .hbm, ⟨70, _⟩ => ⟨S5x1024x1024, .bf16⟩
  | .hbm, ⟨71, _⟩ => ⟨S4096x1024, .f32⟩
  | .hbm, ⟨72, _⟩ => ⟨S_, .f32⟩
  | .hbm, ⟨73, _⟩ => ⟨S1024, .f32⟩
  | .hbm, ⟨74, _⟩ => ⟨S_, .f32⟩
  | .hbm, ⟨75, _⟩ => ⟨S1024, .f32⟩
  | .hbm, ⟨76, _⟩ => ⟨S1024, .f32⟩
  | .hbm, ⟨77, _⟩ => ⟨S1x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S_, .f32⟩
  | .hbm, ⟨84, _⟩ => ⟨S1024, .f32⟩
  | .hbm, ⟨85, _⟩ => ⟨S1024, .f32⟩
  | .hbm, ⟨86, _⟩ => ⟨S1x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S1024, .f32⟩
  | .hbm, ⟨91, _⟩ => ⟨S1024, .f32⟩
  | .hbm, ⟨92, _⟩ => ⟨S1024, .f32⟩
  | .hbm, ⟨93, _⟩ => ⟨S1x1024, .f32⟩
  | .hbm, ⟨94, _⟩ => ⟨S4096x1024, .f32⟩
  | .hbm, ⟨95, _⟩ => ⟨S4096x1024, .f32⟩
  | .hbm, ⟨96, _⟩ => ⟨S1x1024, .f32⟩
  | .hbm, ⟨97, _⟩ => ⟨S4096x1024, .f32⟩
  | .hbm, ⟨98, _⟩ => ⟨S4096x1024, .f32⟩
  | .hbm, ⟨99, _⟩ => ⟨S1x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024, .f32⟩
  | .local _ .vmem, ⟨3, _⟩ => ⟨S1024, .f32⟩
  | .local _ .vmem, ⟨4, _⟩ => ⟨S5x1024x1024, .bf16⟩
  | .local _ .vmem, ⟨5, _⟩ => ⟨S1024, .f32⟩
  | .local _ .vmem, ⟨6, _⟩ => ⟨S1024, .f32⟩
  | .local _ .vmem, ⟨7, _⟩ => ⟨S4x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1024, .f32⟩
  | .local _ .vmem, ⟨13, _⟩ => ⟨S1024, .f32⟩
  | .local _ .vmem, ⟨14, _⟩ => ⟨S5x1024x1024, .bf16⟩
  | .local _ .vmem, ⟨15, _⟩ => ⟨S1024, .f32⟩
  | .local _ .vmem, ⟨16, _⟩ => ⟨S1024, .f32⟩
  | .local _ .vmem, ⟨17, _⟩ => ⟨S4x1024, .f32⟩
  | .local _ .vmem, ⟨18, _⟩ => ⟨S512x1024, .f32⟩
  | .local _ .vmem, ⟨19, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_5 : Ref sig .tc := ⟨.hbm, 42, rfl⟩
abbrev main_v25 : Ref sig .tc := ⟨.hbm, 43, rfl⟩
abbrev main_cst_6 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S5x1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bitsLt_bf16_f32 : FTy.bits .bf16 < FTy.bits .f32
  reducesTo_S1024x1024_S1024_d1 : S1024x1024.ReducesTo [1] S1024
  h_S_ : 0 < S_.numel
  bcast_S1024x1024_S1024x1x1024_0_2 : S1024x1024.BroadcastsInDim S1024x1x1024 (![0, 2] : Fin 2 → Fin S1024x1x1024.rank)
  bcast_S1024x1x1024_S1024x4x1024_0_1_2 : S1024x1x1024.BroadcastsInDim S1024x4x1024 (![0, 1, 2] : Fin 3 → Fin S1024x4x1024.rank)
  reducesTo_S1024x4x1024_S1024x4_d2 : S1024x4x1024.ReducesTo [2] S1024x4
  transposes_S1024x4_S4x1024_1_0 : S1024x4.Transposes [1, 0] S4x1024
  transposes_S1024x1024_S1024x1024_1_0 : S1024x1024.Transposes [1, 0] S1024x1024
  transposes_S1024x4x1024_S4x1024x1024_1_2_0 : S1024x4x1024.Transposes [1, 2, 0] S4x1024x1024
  bcast_S1024x1024_S1x1024x1024_1_2 : S1024x1024.BroadcastsInDim S1x1024x1024 (![1, 2] : Fin 2 → Fin S1x1024x1024.rank)
  concatenates_S1x1024x1024_S4x1024x1024_S5x1024x1024_d0 : Shape.Concatenates [S1x1024x1024, S4x1024x1024] S5x1024x1024 0
  bcast_S_S1024 : S_.BroadcastsInDim S1024 (![] : Fin 0 → Fin S1024.rank)
  inb_S512x1024_S512x1024_0_0 : ∀ a, (![0, 0] : Fin 2 → Nat) a + S512x1024.size a ≤ S512x1024.size a
  h_S512x1024 : 0 < S512x1024.numel
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  broadcasts_S1x1024_S512x1024 : S1x1024.Broadcasts S512x1024
  reduces_S512x1024_S512 : S512x1024.Reduces [1] S512
  shapeCasts_S512_S512x1 : S512.ShapeCasts S512x1
  inb_S5x1024x1024_S1x1024x1024_0_0_0 : ∀ a, (![0, 0, 0] : Fin 3 → Nat) a + S1x1024x1024.size a ≤ S5x1024x1024.size a
  h_S1x1024x1024 : 0 < S1x1024x1024.numel
  shapeCasts_S1x1024x1024_S1024x1024 : S1x1024x1024.ShapeCasts S1024x1024
  broadcasts_S512x1_S512x1024 : S512x1.Broadcasts S512x1024
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  inb_S5x1024x1024_S1x1024x1024_1_0_0 : ∀ a, (![1, 0, 0] : Fin 3 → Nat) a + S1x1024x1024.size a ≤ S5x1024x1024.size a
  slices_S4x1024_o0_0_S1x1024 : S4x1024.Slices ![0, 0] S1x1024
  shapeCasts_S1x1024_S1024 : S1x1024.ShapeCasts S1024
  inb_S5x1024x1024_S1x1024x1024_2_0_0 : ∀ a, (![2, 0, 0] : Fin 3 → Nat) a + S1x1024x1024.size a ≤ S5x1024x1024.size a
  slices_S4x1024_o1_0_S1x1024 : S4x1024.Slices ![1, 0] S1x1024
  inb_S5x1024x1024_S1x1024x1024_3_0_0 : ∀ a, (![3, 0, 0] : Fin 3 → Nat) a + S1x1024x1024.size a ≤ S5x1024x1024.size a
  slices_S4x1024_o2_0_S1x1024 : S4x1024.Slices ![2, 0] S1x1024
  inb_S5x1024x1024_S1x1024x1024_4_0_0 : ∀ a, (![4, 0, 0] : Fin 3 → Nat) a + S1x1024x1024.size a ≤ S5x1024x1024.size a
  slices_S4x1024_o3_0_S1x1024 : S4x1024.Slices ![3, 0] S1x1024
  reducesTo_S4096x1024_S1024_d0 : S4096x1024.ReducesTo [0] S1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  shapeCasts_S512x1024_S512x1024 : S512x1024.ShapeCasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1024.size a
  hwx0_1 : ∀ i : grid0.Coords, EltTy.bits .f32 = 32 ∨ (Rect.block (s := S1024) S1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x1024x1024.size a ≤ S5x1024x1024.size a
  hwx0_3 : ∀ i : grid0.Coords, EltTy.bits .bf16 = 32 ∨ (Rect.block (s := S5x1024x1024) S5x1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024.size a ≤ S4x1024.size a
  hwx0_6 : ∀ i : grid0.Coords, EltTy.bits .f32 = 32 ∨ (Rect.block (s := S4x1024) S4x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S4096x1024.size a
  hwx0_7 : ∀ i : grid0.Coords, EltTy.bits .f32 = 32 ∨ (Rect.block (s := S4096x1024) S512x1024.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024.size a ≤ S1024.size a
  hwx1_1 : ∀ i : grid1.Coords, EltTy.bits .f32 = 32 ∨ (Rect.block (s := S1024) S1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S5x1024x1024.size a ≤ S5x1024x1024.size a
  hwx1_3 : ∀ i : grid1.Coords, EltTy.bits .bf16 = 32 ∨ (Rect.block (s := S5x1024x1024) S5x1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S1024.size a
  hwx1_4 : ∀ i : grid1.Coords, EltTy.bits .f32 = 32 ∨ (Rect.block (s := S1024) S1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S1024.size a
  hwx1_5 : ∀ i : grid1.Coords, EltTy.bits .f32 = 32 ∨ (Rect.block (s := S1024) S1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4x1024.size a ≤ S4x1024.size a
  hwx1_6 : ∀ i : grid1.Coords, EltTy.bits .f32 = 32 ∨ (Rect.block (s := S4x1024) S4x1024.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1024.size a ≤ S4096x1024.size a
  hwx1_7 : ∀ i : grid1.Coords, EltTy.bits .f32 = 32 ∨ (Rect.block (s := S4096x1024) S512x1024.size (cc1_transform_7 i) (hinb1_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S5x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S4x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v17) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v33) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S5x1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v44) S4x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v49) S512x1024.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S1024x4x1024 : Shape := ⟨3, ![1024, 4, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x1x1024 : Shape := ⟨3, ![1024, 1, 1024]⟩
abbrev S1024x4 : Shape := ⟨2, ![1024, 4]⟩
abbrev S4096x1024x4 : Shape := ⟨3, ![4096, 1024, 4]⟩
abbrev S1x1024x4 : Shape := ⟨3, ![1, 1024, 4]⟩

abbrev nBuf : Space → Nat
  | .hbm => 148
  | .vmem => 0
  | .smem => 0
  | _ => 0

abbrev hbmTy0_0 (i : Nat) : BufTy := match i % 128 with
  | 0 => ⟨S4096x1024, .f32⟩
  | 1 => ⟨S1024x1024, .f32⟩
  | 2 => ⟨S1024, .f32⟩
  | 3 => ⟨S1024x4x1024, .f32⟩
  | 4 => ⟨S1024, .f32⟩
  | 5 => ⟨S1024, .f32⟩
  | 6 => ⟨S1024x1024, .f32⟩
  | 7 => ⟨S1024, .f32⟩
  | 8 => ⟨S1024x4x1024, .f32⟩
  | 9 => ⟨S1024, .f32⟩
  | 10 => ⟨S1024, .f32⟩
  | 11 => ⟨S4096x1024, .f32⟩
  | 12 => ⟨S_, .f32⟩
  | 13 => ⟨S4096, .f32⟩
  | 14 => ⟨S4096x1, .f32⟩
  | 15 => ⟨S1024x1024, .f32⟩
  | 16 => ⟨S4096x1024, .f32⟩
  | 17 => ⟨S_, .f32⟩
  | 18 => ⟨S4096x1024, .f32⟩
  | 19 => ⟨S4096x1024, .f32⟩
  | 20 => ⟨S4096x1024, .f32⟩
  | 21 => ⟨S4096x1024, .f32⟩
  | 22 => ⟨S1024x1024, .f32⟩
  | 23 => ⟨S_, .f32⟩
  | 24 => ⟨S1024, .f32⟩
  | 25 => ⟨S1x1024, .f32⟩
  | 26 => ⟨S4096x1024, .f32⟩
  | 27 => ⟨S4096x1024, .f32⟩
  | 28 => ⟨S1024x1x1024, .f32⟩
  | 29 => ⟨S1024x4x1024, .f32⟩
  | 30 => ⟨S1024x4x1024, .f32⟩
  | 31 => ⟨S_, .f32⟩
  | 32 => ⟨S1024x4, .f32⟩
  | 33 => ⟨S4096x1024x4, .f32⟩
  | 34 => ⟨S1x1024x4, .f32⟩
  | 35 => ⟨S4096x1024x4, .f32⟩
  | 36 => ⟨S4096x1024x4, .f32⟩
  | 37 => ⟨S1x1024, .f32⟩
  | 38 => ⟨S4096x1024, .f32⟩
  | 39 => ⟨S4096x1024, .f32⟩
  | 40 => ⟨S4096x1024x4, .f32⟩
  | 41 => ⟨S_, .f32⟩
  | 42 => ⟨S4096x1024, .f32⟩
  | 43 => ⟨S4096x1024, .f32⟩
  | 44 => ⟨S4096x1024, .f32⟩
  | 45 => ⟨S_, .f32⟩
  | 46 => ⟨S4096x1024, .f32⟩
  | 47 => ⟨S4096x1024, .f32⟩
  | 48 => ⟨S4096x1024, .f32⟩
  | 49 => ⟨S_, .f32⟩
  | 50 => ⟨S1024, .f32⟩
  | 51 => ⟨S_, .f32⟩
  | 52 => ⟨S1024, .f32⟩
  | 53 => ⟨S1024, .f32⟩
  | 54 => ⟨S1x1024, .f32⟩
  | 55 => ⟨S4096x1024, .f32⟩
  | 56 => ⟨S4096x1024, .f32⟩
  | 57 => ⟨S4096x1024, .f32⟩
  | 58 => ⟨S_, .f32⟩
  | 59 => ⟨S1024, .f32⟩
  | 60 => ⟨S_, .f32⟩
  | 61 => ⟨S1024, .f32⟩
  | 62 => ⟨S1024, .f32⟩
  | 63 => ⟨S1x1024, .f32⟩
  | 64 => ⟨S4096x1024, .f32⟩
  | 65 => ⟨S4096x1024, .f32⟩
  | 66 => ⟨S_, .f32⟩
  | 67 => ⟨S1024, .f32⟩
  | 68 => ⟨S1024, .f32⟩
  | 69 => ⟨S1024, .f32⟩
  | 70 => ⟨S1x1024, .f32⟩
  | 71 => ⟨S4096x1024, .f32⟩
  | 72 => ⟨S4096x1024, .f32⟩
  | 73 => ⟨S1x1024, .f32⟩
  | 74 => ⟨S4096x1024, .f32⟩
  | 75 => ⟨S4096x1024, .f32⟩
  | 76 => ⟨S1x1024, .f32⟩
  | 77 => ⟨S4096x1024, .f32⟩
  | 78 => ⟨S4096x1024, .f32⟩
  | 79 => ⟨S4096x1024, .f32⟩
  | 80 => ⟨S_, .f32⟩
  | 81 => ⟨S4096, .f32⟩
  | 82 => ⟨S4096x1, .f32⟩
  | 83 => ⟨S1024x1024, .f32⟩
  | 84 => ⟨S4096x1024, .f32⟩
  | 85 => ⟨S_, .f32⟩
  | 86 => ⟨S4096x1024, .f32⟩
  | 87 => ⟨S4096x1024, .f32⟩
  | 88 => ⟨S4096x1024, .f32⟩
  | 89 => ⟨S4096x1024, .f32⟩
  | 90 => ⟨S1024x1024, .f32⟩
  | 91 => ⟨S_, .f32⟩
  | 92 => ⟨S1024, .f32⟩
  | 93 => ⟨S1x1024, .f32⟩
  | 94 => ⟨S4096x1024, .f32⟩
  | 95 => ⟨S4096x1024, .f32⟩
  | 96 => ⟨S1024x1x1024, .f32⟩
  | 97 => ⟨S1024x4x1024, .f32⟩
  | 98 => ⟨S1024x4x1024, .f32⟩
  | 99 => ⟨S_, .f32⟩
  | 100 => ⟨S1024x4, .f32⟩
  | 101 => ⟨S4096x1024x4, .f32⟩
  | 102 => ⟨S1x1024x4, .f32⟩
  | 103 => ⟨S4096x1024x4, .f32⟩
  | 104 => ⟨S4096x1024x4, .f32⟩
  | 105 => ⟨S1x1024, .f32⟩
  | 106 => ⟨S4096x1024, .f32⟩
  | 107 => ⟨S4096x1024, .f32⟩
  | 108 => ⟨S4096x1024x4, .f32⟩
  | 109 => ⟨S_, .f32⟩
  | 110 => ⟨S4096x1024, .f32⟩
  | 111 => ⟨S4096x1024, .f32⟩
  | 112 => ⟨S4096x1024, .f32⟩
  | 113 => ⟨S_, .f32⟩
  | 114 => ⟨S4096x1024, .f32⟩
  | 115 => ⟨S4096x1024, .f32⟩
  | 116 => ⟨S4096x1024, .f32⟩
  | 117 => ⟨S_, .f32⟩
  | 118 => ⟨S1024, .f32⟩
  | 119 => ⟨S_, .f32⟩
  | 120 => ⟨S1024, .f32⟩
  | 121 => ⟨S1024, .f32⟩
  | 122 => ⟨S1x1024, .f32⟩
  | 123 => ⟨S4096x1024, .f32⟩
  | 124 => ⟨S4096x1024, .f32⟩
  | 125 => ⟨S4096x1024, .f32⟩
  | 126 => ⟨S_, .f32⟩
  | 127 => ⟨S1024, .f32⟩
  | _ => ⟨S4096x1024, .f32⟩

abbrev hbmTy0_1 (i : Nat) : BufTy := match i % 128 with
  | 0 => ⟨S_, .f32⟩
  | 1 => ⟨S1024, .f32⟩
  | 2 => ⟨S1024, .f32⟩
  | 3 => ⟨S1x1024, .f32⟩
  | 4 => ⟨S4096x1024, .f32⟩
  | 5 => ⟨S4096x1024, .f32⟩
  | 6 => ⟨S_, .f32⟩
  | 7 => ⟨S1024, .f32⟩
  | 8 => ⟨S1024, .f32⟩
  | 9 => ⟨S1024, .f32⟩
  | 10 => ⟨S1x1024, .f32⟩
  | 11 => ⟨S4096x1024, .f32⟩
  | 12 => ⟨S4096x1024, .f32⟩
  | 13 => ⟨S1x1024, .f32⟩
  | 14 => ⟨S4096x1024, .f32⟩
  | 15 => ⟨S4096x1024, .f32⟩
  | 16 => ⟨S1x1024, .f32⟩
  | 17 => ⟨S4096x1024, .f32⟩
  | 18 => ⟨S4096x1024, .f32⟩
  | 19 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_12 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_14 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_cst_15 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_16 : Ref sig .tc := ⟨.hbm, 117, rfl⟩
abbrev main_v89 : Ref sig .tc := ⟨.hbm, 118, rfl⟩
abbrev main_cst_17 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_18 : Ref sig .tc := ⟨.hbm, 126, rfl⟩
abbrev main_v96 : Ref sig .tc := ⟨.hbm, 127, rfl⟩
abbrev main_cst_19 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_cst_20 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S4096_S4096x1_0 : S4096.BroadcastsInDim S4096x1 (![0] : Fin 1 → Fin S4096x1.rank)
  transposes_S1024x1024_S1024x1024_1_0 : S1024x1024.Transposes [1, 0] S1024x1024
  bcast_S_S4096x1024 : S_.BroadcastsInDim S4096x1024 (![] : Fin 0 → Fin S4096x1024.rank)
  bcast_S4096x1_S4096x1024_0_1 : S4096x1.BroadcastsInDim S4096x1024 (![0, 1] : Fin 2 → Fin S4096x1024.rank)
  reducesTo_S1024x1024_S1024_d1 : S1024x1024.ReducesTo [1] S1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S1024x1024_S1024x1x1024_0_2 : S1024x1024.BroadcastsInDim S1024x1x1024 (![0, 2] : Fin 2 → Fin S1024x1x1024.rank)
  bcast_S1024x1x1024_S1024x4x1024_0_1_2 : S1024x1x1024.BroadcastsInDim S1024x4x1024 (![0, 1, 2] : Fin 3 → Fin S1024x4x1024.rank)
  reducesTo_S1024x4x1024_S1024x4_d2 : S1024x4x1024.ReducesTo [2] S1024x4
  bcast_S1024x4_S1x1024x4_1_2 : S1024x4.BroadcastsInDim S1x1024x4 (![1, 2] : Fin 2 → Fin S1x1024x4.rank)
  bcast_S1x1024x4_S4096x1024x4_0_1_2 : S1x1024x4.BroadcastsInDim S4096x1024x4 (![0, 1, 2] : Fin 3 → Fin S4096x1024x4.rank)
  reducesTo_S4096x1024x4_S4096x1024_d2 : S4096x1024x4.ReducesTo [2] S4096x1024
  reducesTo_S4096x1024_S1024_d0 : S4096x1024.ReducesTo [0] S1024
  bcast_S_S1024 : S_.BroadcastsInDim S1024 (![] : Fin 0 → Fin S1024.rank)
  dot_S4096x1024_S1024x1024_S4096x1024_1_0_0_1_n_n_wf : DotDims.WF S4096x1024 S1024x1024 S4096x1024 [1] [0] [0] [1] [] []
  dot_S4096x1024_S1024x4x1024_S4096x1024x4_1_2_0_01_n_n_wf : DotDims.WF S4096x1024 S1024x4x1024 S4096x1024x4 [1] [2] [0] [0, 1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4x1024_S4096x1024x4_1_2_0_01_n_n : DotDims S4096x1024 S1024x4x1024 S4096x1024x4 where
  lhsContracting := [1]
  rhsContracting := [2]
  lhsNonContracting := [0]
  rhsNonContracting := [0, 1]
  lhsBatch := []
  rhsBatch := []
  wf := dot_S4096x1024_S1024x4x1024_S4096x1024x4_1_2_0_01_n_n_wf

class Facts : Prop extends Facts₀ where

variable [Facts]
-- ==== Proof.KRun.lean ====
/-
  The program's run, with its result named.

  From any memory with zero counters, every weakly fair execution of the entry function on the TensorCores terminates
  without a fault, and in every final state the result buffer holds the contents of the last segment boundary (the fold
  of the host stretches and the regions' write-backs from the launch memory, `W5`) while the eleven argument buffers
  hold what they held at launch. The run goes over the segments, the launch and the last thread state that the imported
  frame module defines; that last thread state is "every unscoped buffer at the last boundary's contents",
  and the result buffer is unscoped, so the final state can be read at it as well as at the arguments.
-/
import proofs.«161757_j49520972923445_2_alg».proof.Proof.Gen.KernelIdeal.Frame
import proofs.«161757_j49520972923445_2_alg».proof.Proof.Gen.KernelIdeal.Launch
import proofs.«161757_j49520972923445_2_alg».proof.Proof.Gen.KernelIdeal.Skeleton
import proofs.«161757_j49520972923445_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RunValue

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run lemma's implicit arguments are found by unifying its conclusion with this one, which takes unfolding plain
-- definitions in a metavariable's type
set_option backward.isDefEq.respectTransparency.types false in
/-- Every weakly fair execution of the entry function ends with the result buffer at the last boundary's contents and
    the argument buffers as launched. -/
theorem run_result : θ_run defs (onTc (τ := τ) (main (F := F))) ⟨m, fun _ => 0, ρ⟩ (fun r => ∀ c : Dev nD,
      r.2.mem ((c.tc : Thread nD τ).loc main_v75) = W5 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v75 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.RunValue

end
-- ==== Proof.Spec.lean ====
/-
  The mathematics of the two programs, index by index, on the extended reals.

  A layer maps a batch `X : [4096, 1024]` to `exp (-(quad) / 1024)` where, at batch row `b` and unit `n`,
  `quad = lam n * (‖x_b‖² - 2 ⟨x_b, mu_n⟩ + ‖mu_n‖²) + ∑ k, (⟨x_b, v_{n,k}⟩ - ⟨v_{n,k}, mu_n⟩)²`.
  One program forms the four squared projections as a sum over `k : Fin 4`, negates, and divides by 1024; the other
  adds them one after another to the first summand, subtracts from zero and multiplies by 2⁻¹⁰. Between the layers a
  batch normalisation over the batch axis is applied either as `((y - mean) * istd) * g + beta` or, fused into the
  next layer, as `y * (istd * g) + (beta - mean * (istd * g))`.
  This module only states these functions over literal shapes; it imports no program.
-/
import Idealize.ShloMosaic.PureOps.Ideal
import Idealize.ShloMosaic.Lib.ValueIdx

noncomputable section

namespace Hmu

open Idealize.ShloMosaic Idealize.ShloMosaic.ValueIdx

/-- A batch of 4096 rows of 1024 features (also a layer's output: 4096 rows of 1024 units). -/
abbrev Sbd : Shape := ⟨2, ![4096, 1024]⟩
/-- The 1024 centres, one row of 1024 features each. -/
abbrev Snd : Shape := ⟨2, ![1024, 1024]⟩
/-- One number per unit (or per feature). -/
abbrev Sn : Shape := ⟨1, ![1024]⟩
/-- Four directions per unit, 1024 features each. -/
abbrev Snkd : Shape := ⟨3, ![1024, 4, 1024]⟩

/-- The words the programs spell, left as patterns: `2.0`, the variance floor `1e-5`, the batch size `4096.0`, the
    feature count `1024.0` and its reciprocal `2⁻¹⁰`, `1.0`. -/
def two : EReal := Ideal.ofBits .f32 0x40000000#32
def eps : EReal := Ideal.ofBits .f32 0x3727C5AC#32
def nB : EReal := Ideal.ofBits .f32 0x45800000#32
def nD : EReal := Ideal.ofBits .f32 0x44800000#32
def invD : EReal := Ideal.ofBits .f32 0x3A800000#32
def one : EReal := Ideal.ofBits .f32 0x3F800000#32

/-- `‖x_b‖²`. -/
def xsq (X : Sbd.Idx → EReal) (b : Fin 4096) : EReal := ∑ d : Fin 1024, X (ix2 b d) * X (ix2 b d)
/-- `⟨x_b, mu_n⟩`. -/
def xmu (X : Sbd.Idx → EReal) (MU : Snd.Idx → EReal) (b : Fin 4096) (n : Fin 1024) : EReal :=
  ∑ d : Fin 1024, X (ix2 b d) * MU (ix2 n d)
/-- `‖mu_n‖²`. -/
def musq (MU : Snd.Idx → EReal) (n : Fin 1024) : EReal := ∑ d : Fin 1024, MU (ix2 n d) * MU (ix2 n d)
/-- `⟨v_{n,k}, mu_n⟩`. -/
def vmu (MU : Snd.Idx → EReal) (V : Snkd.Idx → EReal) (n : Fin 1024) (k : Fin 4) : EReal :=
  ∑ d : Fin 1024, V (ix3 n k d) * MU (ix2 n d)
/-- `⟨x_b, v_{n,k}⟩`. -/
def xv (X : Sbd.Idx → EReal) (V : Snkd.Idx → EReal) (b : Fin 4096) (n : Fin 1024) (k : Fin 4) : EReal :=
  ∑ d : Fin 1024, X (ix2 b d) * V (ix3 n k d)

/-- The squared-distance term `‖x_b‖² - 2 ⟨x_b, mu_n⟩ + ‖mu_n‖²`, as both programs group it. -/
def sq (X : Sbd.Idx → EReal) (MU : Snd.Idx → EReal) (b : Fin 4096) (n : Fin 1024) : EReal :=
  (xsq X b - two * xmu X MU b n) + musq MU n
/-- The projection of `x_b - mu_n` on direction `k` of unit `n`. -/
def proj (X : Sbd.Idx → EReal) (MU : Snd.Idx → EReal) (V : Snkd.Idx → EReal) (b : Fin 4096) (n : Fin 1024) (k : Fin 4) : EReal :=
  xv X V b n k - vmu MU V n k

/-- The quadratic form with the squared projections summed over `k` first. -/
def quadSum (X : Sbd.Idx → EReal) (MU : Snd.Idx → EReal) (LAM : Sn.Idx → EReal) (V : Snkd.Idx → EReal)
    (b : Fin 4096) (n : Fin 1024) : EReal :=
  LAM (ix1 n) * sq X MU b n + ∑ k : Fin 4, proj X MU V b n k * proj X MU V b n k
/-- The quadratic form with the squared projections added one after another. -/
def quadChain (X : Sbd.Idx → EReal) (MU : Snd.Idx → EReal) (LAM : Sn.Idx → EReal) (V : Snkd.Idx → EReal)
    (b : Fin 4096) (n : Fin 1024) : EReal :=
  (((LAM (ix1 n) * sq X MU b n + proj X MU V b n 0 * proj X MU V b n 0) + proj X MU V b n 1 * proj X MU V b n 1)
    + proj X MU V b n 2 * proj X MU V b n 2) + proj X MU V b n 3 * proj X MU V b n 3

/-- A layer, as `exp (-(quad) / 1024)` over the summed form. -/
def layerDiv (X : Sbd.Idx → EReal) (MU : Snd.Idx → EReal) (LAM : Sn.Idx → EReal) (V : Snkd.Idx → EReal) : Sbd.Idx → EReal :=
  fun i => Ideal.exp (Ideal.div (-(quadSum X MU LAM V (i 0) (i 1))) nD)
/-- A layer, as `exp ((0 - quad) * 2⁻¹⁰)` over the chained form. -/
def layerMul (X : Sbd.Idx → EReal) (MU : Snd.Idx → EReal) (LAM : Sn.Idx → EReal) (V : Snkd.Idx → EReal) : Sbd.Idx → EReal :=
  fun i => Ideal.exp ((0 - quadChain X MU LAM V (i 0) (i 1)) * invD)

/-- The affine map a layer applies to its input tile: `x * s + t`, `s` and `t` per feature. -/
def affine (X : Sbd.Idx → EReal) (S T : Sn.Idx → EReal) : Sbd.Idx → EReal :=
  fun i => X i * S (ix1 (i 1)) + T (ix1 (i 1))

/-- The mean of column `n` over the batch. -/
def colMean (Y : Sbd.Idx → EReal) (n : Fin 1024) : EReal := Ideal.div (∑ b : Fin 4096, Y (ix2 b n)) nB
/-- The (biased) variance of column `n` over the batch. -/
def colVar (Y : Sbd.Idx → EReal) (n : Fin 1024) : EReal :=
  Ideal.div (∑ b : Fin 4096, (Y (ix2 b n) - colMean Y n) * (Y (ix2 b n) - colMean Y n)) nB
/-- The reciprocal standard deviation of column `n`, floored. -/
def istd (Y : Sbd.Idx → EReal) (n : Fin 1024) : EReal := Ideal.rsqrt (colVar Y n + eps)

/-- Batch normalisation applied directly. -/
def bn (Y : Sbd.Idx → EReal) (G B : Sn.Idx → EReal) : Sbd.Idx → EReal :=
  fun i => ((Y i - colMean Y (i 1)) * istd Y (i 1)) * G (ix1 (i 1)) + B (ix1 (i 1))
/-- The scale of the fused form: `istd * g`. -/
def fusedScale (Y : Sbd.Idx → EReal) (G : Sn.Idx → EReal) : Sn.Idx → EReal := fun j => istd Y (j 0) * G j
/-- The shift of the fused form: `beta - mean * (istd * g)`. -/
def fusedShift (Y : Sbd.Idx → EReal) (G B : Sn.Idx → EReal) : Sn.Idx → EReal :=
  fun j => B j - colMean Y (j 0) * fusedScale Y G j

/-- The whole network with every normalisation applied directly and every layer in the summed form. -/
def netDirect (X : Sbd.Idx → EReal) (MU1 : Snd.Idx → EReal) (L1 : Sn.Idx → EReal) (V1 : Snkd.Idx → EReal) (G1 B1 : Sn.Idx → EReal)
    (MU2 : Snd.Idx → EReal) (L2 : Sn.Idx → EReal) (V2 : Snkd.Idx → EReal) (G2 B2 : Sn.Idx → EReal) : Sbd.Idx → EReal :=
  fun i => bn (layerDiv (bn (layerDiv X MU1 L1 V1) G1 B1) MU2 L2 V2) G2 B2 i + X i

/-- The whole network with the first normalisation fused into the second layer's input map, the first layer's input map
    the identity spelt `x * 1 + 0`, and every layer in the chained form. -/
def netFused (X : Sbd.Idx → EReal) (MU1 : Snd.Idx → EReal) (L1 : Sn.Idx → EReal) (V1 : Snkd.Idx → EReal) (G1 B1 : Sn.Idx → EReal)
    (MU2 : Snd.Idx → EReal) (L2 : Sn.Idx → EReal) (V2 : Snkd.Idx → EReal) (G2 B2 : Sn.Idx → EReal) : Sbd.Idx → EReal :=
  let Y1 := layerMul (affine X (fun _ => one) (fun _ => 0)) MU1 L1 V1
  let Y2 := layerMul (affine Y1 (fusedScale Y1 G1) (fusedShift Y1 G1 B1)) MU2 L2 V2
  fun i => bn Y2 G2 B2 i + X i

/-- Every entry is a real number. -/
def IsReal {s : Shape} (f : s.Idx → EReal) : Prop := ∀ i, ∃ r : ℝ, f i = (r : EReal)

end Hmu

end
-- ==== Proof.BlockSpec.lean ====
/-
  What one grid point computes: a tile of 512 batch rows against all 1024 units.

  A point receives a tile `x : [512, 1024]` of its input, the per-feature scale and shift `s, t : [1024]`, a stack
  `w : [5, 1024, 1024]` (slab 0 the transposed centres, slabs 1..4 the transposed directions), and per unit the rate
  `lam`, the squared norm `msq` of the centre, and the four numbers `vm (k, n) = ⟨v_{n,k}, mu_n⟩`. It forms
  `u = x * s + t` and stores `exp ((0 - quad) * 2⁻¹⁰)` with the squared projections added to the first summand one after
  another. The last lemma says that when the tile is rows of a batch `X` and the parameters are those of a layer,
  this is the layer in its chained form at the corresponding entry.
-/
import proofs.«161757_j49520972923445_2_alg».proof.Proof.Spec

noncomputable section

namespace Hmu

open Idealize.ShloMosaic Idealize.ShloMosaic.ValueIdx

/-- A tile: 512 rows of 1024 features (or 1024 units). -/
abbrev Stile : Shape := ⟨2, ![512, 1024]⟩
/-- The stack of five `[1024, 1024]` slabs. -/
abbrev Sw : Shape := ⟨3, ![5, 1024, 1024]⟩
/-- Four numbers per unit. -/
abbrev Skn : Shape := ⟨2, ![4, 1024]⟩

/-- The tile after the per-feature affine map. -/
def tileIn (x : Stile.Idx → EReal) (s t : Sn.Idx → EReal) : Stile.Idx → EReal :=
  fun i => x i * s (ix1 (i 1)) + t (ix1 (i 1))
/-- Row `r` of the mapped tile against column `n` of slab `j`. -/
def tileDot (u : Stile.Idx → EReal) (w : Sw.Idx → EReal) (j : Fin 5) (r : Fin 512) (n : Fin 1024) : EReal :=
  ∑ d : Fin 1024, u (ix2 r d) * w (ix3 j d n)
/-- The squared norm of row `r` of the mapped tile. -/
def tileSq (u : Stile.Idx → EReal) (r : Fin 512) : EReal := ∑ d : Fin 1024, u (ix2 r d) * u (ix2 r d)
/-- The first summand: the rate times the squared distance to the centre. -/
def tileBase (u : Stile.Idx → EReal) (w : Sw.Idx → EReal) (lam msq : Sn.Idx → EReal) (r : Fin 512) (n : Fin 1024) : EReal :=
  lam (ix1 n) * ((tileSq u r - two * tileDot u w 0 r n) + msq (ix1 n))
/-- Projection `k`, read from slab `j`. -/
def tileProj (u : Stile.Idx → EReal) (w : Sw.Idx → EReal) (vm : Skn.Idx → EReal) (j : Fin 5) (k : Fin 4) (r : Fin 512) (n : Fin 1024) : EReal :=
  tileDot u w j r n - vm (ix2 k n)
/-- The quadratic form, the squared projections added one after another. -/
def tileQuad (u : Stile.Idx → EReal) (w : Sw.Idx → EReal) (lam msq : Sn.Idx → EReal) (vm : Skn.Idx → EReal) (r : Fin 512) (n : Fin 1024) : EReal :=
  (((tileBase u w lam msq r n + tileProj u w vm 1 0 r n * tileProj u w vm 1 0 r n) + tileProj u w vm 2 1 r n * tileProj u w vm 2 1 r n)
    + tileProj u w vm 3 2 r n * tileProj u w vm 3 2 r n) + tileProj u w vm 4 3 r n * tileProj u w vm 4 3 r n
/-- What the point stores. -/
def tileOut (x : Stile.Idx → EReal) (s t : Sn.Idx → EReal) (w : Sw.Idx → EReal) (lam msq : Sn.Idx → EReal) (vm : Skn.Idx → EReal) : Stile.Idx → EReal :=
  fun i => Ideal.exp ((0 - tileQuad (tileIn x s t) w lam msq vm (i 0) (i 1)) * invD)

/-- A tile whose row `r` is row `g` of the batch `X`, with a layer's parameters laid out as the stack and the per-unit
    numbers, stores at `(r, n)` the layer's chained form of the mapped batch at `(g, n)`. -/
theorem tileOut_eq_layerMul (X : Sbd.Idx → EReal) (S T : Sn.Idx → EReal) (MU : Snd.Idx → EReal) (LAM : Sn.Idx → EReal)
    (V : Snkd.Idx → EReal) (x : Stile.Idx → EReal) (w : Sw.Idx → EReal) (msq : Sn.Idx → EReal) (vm : Skn.Idx → EReal)
    (r : Fin 512) (n : Fin 1024) (g : Fin 4096)
    (hx : ∀ d, x (ix2 r d) = X (ix2 g d))
    (hw0 : ∀ d, w (ix3 0 d n) = MU (ix2 n d))
    (hw1 : ∀ d, w (ix3 1 d n) = V (ix3 n 0 d)) (hw2 : ∀ d, w (ix3 2 d n) = V (ix3 n 1 d))
    (hw3 : ∀ d, w (ix3 3 d n) = V (ix3 n 2 d)) (hw4 : ∀ d, w (ix3 4 d n) = V (ix3 n 3 d))
    (hmsq : msq (ix1 n) = musq MU n) (hvm : ∀ k, vm (ix2 k n) = vmu MU V n k) :
    tileOut x S T w LAM msq vm (ix2 r n) = layerMul (affine X S T) MU LAM V (ix2 g n) := by
  have hu : ∀ d, tileIn x S T (ix2 r d) = affine X S T (ix2 g d) := fun d => by
    show x (ix2 r d) * S (ix1 d) + T (ix1 d) = X (ix2 g d) * S (ix1 d) + T (ix1 d)
    rw [hx]
  have hsq : tileSq (tileIn x S T) r = xsq (affine X S T) g :=
    Finset.sum_congr rfl fun d _ => by rw [hu]
  have hd0 : tileDot (tileIn x S T) w 0 r n = xmu (affine X S T) MU g n :=
    Finset.sum_congr rfl fun d _ => by rw [hu, hw0]
  have hd1 : tileDot (tileIn x S T) w 1 r n = xv (affine X S T) V g n 0 :=
    Finset.sum_congr rfl fun d _ => by rw [hu, hw1]
  have hd2 : tileDot (tileIn x S T) w 2 r n = xv (affine X S T) V g n 1 :=
    Finset.sum_congr rfl fun d _ => by rw [hu, hw2]
  have hd3 : tileDot (tileIn x S T) w 3 r n = xv (affine X S T) V g n 2 :=
    Finset.sum_congr rfl fun d _ => by rw [hu, hw3]
  have hd4 : tileDot (tileIn x S T) w 4 r n = xv (affine X S T) V g n 3 :=
    Finset.sum_congr rfl fun d _ => by rw [hu, hw4]
  show Ideal.exp ((0 - tileQuad (tileIn x S T) w LAM msq vm r n) * invD)
    = Ideal.exp ((0 - quadChain (affine X S T) MU LAM V g n) * invD)
  have hq : tileQuad (tileIn x S T) w LAM msq vm r n = quadChain (affine X S T) MU LAM V g n := by
    unfold tileQuad quadChain tileBase tileProj sq proj
    rw [hsq, hd0, hd1, hd2, hd3, hd4, hmsq, hvm 0, hvm 1, hvm 2, hvm 3]
  rw [hq]

end Hmu

end
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileOps.lean ====
/-
  The layout chains of a tile body, read at an entry.

  A body that works on an `[a, b]` tile against per-column parameters meets a handful of chains of layout
  operations again and again: a `[b]` vector recast to the row `[1, b]` and broadcast down the tile's rows; one row of a
  `[m, b]` block sliced out, flattened, recast and broadcast the same way; one `[1, a, b]` slab of an `[m, a, b]` stack
  loaded through its rectangle and recast to the matrix `[a, b]`; a row sum recast to a column and broadcast across the
  tile's columns. Each lemma reads one chain at the entry `(p, c)` as the operand at the evident index.
-/
import Idealize.ShloMosaic.PureOps.Ideal.Laws
import Idealize.ShloMosaic.Lib.ValueIdx
import Idealize.ShloMosaic.Lib.ValueLayout
import Idealize.ShloMosaic.Lib.Pipeline.Value
import proofs.«161757_j49520972923445_2_alg».proof.Proof.LibRowOps

namespace Hmu.Lib

open Idealize.ShloMosaic Idealize.ShloMosaic.ValueIdx

variable {a b m : ℕ} {α : Type}

/-- A `[b]` vector recast to the row `[1, b]` and broadcast over `[a, b]` reads, at `(p, c)`, the vector at `c`. -/
theorem rowVec_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The same with a cast of the vector to its own shape first. -/
theorem rowVec_self_apply (v : (⟨1, ![b]⟩ : Shape).Idx → α) (h0 : (⟨1, ![b]⟩ : Shape).ShapeCasts ⟨1, ![b]⟩)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [shapeCast_self]; exact rowVec_apply v h1 h2 p c

/-- Row `k` of an `[m, b]` block, sliced out as `[1, b]` at the literal offset `o = k`, flattened to `[b]`, recast to `[1, b]` and
    broadcast over `[a, b]`, reads at `(p, c)` the block at `(k, c)`. -/
theorem blockRow_apply (v : (⟨2, ![m, b]⟩ : Shape).Idx → α) (o : ℕ) (k : Fin m) (hk : k.val = o)
    (hs : (⟨2, ![m, b]⟩ : Shape).Slices ![o, 0] ⟨2, ![1, b]⟩)
    (h0 : (⟨2, ![1, b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![o, 0] v hs) h0) h1) h2 (ix2 p c)
      = v (ix2 k c) :=
  (rowVec_apply _ h1 h2 p c).trans <| (shapeCast_1a_a_apply _ h0 c).trans <|
    slice2_axis0_apply o v hs (0 : Fin 1) c k (by simp [hk])

/-- A row sum of an `[a, b]` tile, recast to the column `[a, 1]` and broadcast over `[a, b]`, reads at `(p, c)` the sum of
    row `p`. -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ v 0x00000000#32 h hφ hacc) h1) h2 (ix2 p c)
      = ∑ k : Fin b, v (ix2 p k) :=
  (Gcn.Lib.broadcastTo_a1_ab_apply _ h2 p c).trans <| (Gcn.Lib.shapeCast_a_a1_apply _ h1 p 0).trans <|
    Gcn.Lib.rowSum_apply v h hφ hacc p

/-- Slab `k` of an `[m, a, b]` stack, loaded through the rectangle of extents `[1, a, b]` at the literal offsets `[o, 0, 0]`,
    `o = k`, reads at `(0, i, j)` the stack at `(k, i, j)`. -/
theorem ld_slab {Val : EltTy → Type} {e : EltTy} (x : (⟨3, ![m, a, b]⟩ : Shape).Idx → Val e) (o : ℕ) (k : Fin m) (hk : k.val = o)
    (inb : ∀ ax, (![o, 0, 0] : Fin 3 → ℕ) ax + (⟨3, ![1, a, b]⟩ : Shape).size ax ≤ (⟨3, ![m, a, b]⟩ : Shape).size ax)
    (i : Fin a) (j : Fin b) :
    View.ld (Val := Val) x (Rect.unit (s := ⟨3, ![m, a, b]⟩) ![o, 0, 0] (⟨3, ![1, a, b]⟩ : Shape).size inb) (ix3 (0 : Fin 1) i j)
      = x (ix3 k i j) := by
  show x ((Rect.unit (s := ⟨3, ![m, a, b]⟩) ![o, 0, 0] (⟨3, ![1, a, b]⟩ : Shape).size inb).idx (ix3 (0 : Fin 1) i j)) = _
  refine congrArg x (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

end Hmu.Lib
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.Body1.lean ====
/-
  What the body of the second launch leaves in its output tile, read entry by entry.

  The body maps its input tile by `x * s + t`, takes the row sums of the squares, multiplies the mapped tile with slab 0
  of the stack (the centres) and with slabs 1 to 4 (the directions), subtracts from each of the four products the
  matching row of the `[4, 1024]` block, squares, adds the four squares one after another to `lam * (‖u‖² - 2 u·mu + ‖mu‖²)`,
  subtracts the total from zero, multiplies by `2⁻¹⁰` and exponentiates. Every reduction is an exact sum here and every
  change of format the identity, so the stored tile is the function `Hmu.tileOut` of the loaded blocks.
-/
import proofs.«161757_j49520972923445_2_alg».proof.Proof.Gen.KernelIdeal.Frame
import proofs.«161757_j49520972923445_2_alg».proof.Proof.BlockSpec
import proofs.«161757_j49520972923445_2_alg».proof.Proof.LibTileOps
import proofs.«161757_j49520972923445_2_alg».proof.Proof.LibPlainDot

noncomputable section

namespace Cert.KernelIdeal.Body1

open Idealize.ShloMosaic Idealize.ShloMosaic.ValueIdx Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a; rfl

/-- The mapped tile against one loaded slab: row `r` against column `n`. -/
def slabSum (u : Hmu.Stile.Idx → EReal) (v : S1x1024x1024.Idx → EReal) (r : Fin 512) (n : Fin 1024) : EReal :=
  ∑ d : Fin 1024, u (ix2 r d) * v (ix3 (0 : Fin 1) d n)

/-- The matrix unit, accumulating into zero, of a tile with a loaded slab recast to a matrix. -/
theorem slabDot_apply (u : FVec Ideal S512x1024 .bf16) (v : FVec Ideal S1x1024x1024 .bf16) (r : Fin 512) (n : Fin 1024) :
    matmul dot_S512x1024_S1024x1024_S512x1024_1_0_0_1_n_n none u (shapeCast S1024x1024 v shapeCasts_S1x1024x1024_S1024x1024)
        (constant S512x1024 .f32 0x00000000#32) (ix2 r n)
      = slabSum u v r n := by
  refine (Gcn.Lib.plain_matmul_zero_apply (M := 512) (K := 1024) (N := 1024) u
    (shapeCast S1024x1024 v shapeCasts_S1x1024x1024_S1024x1024) none r n).trans ?_
  exact Finset.sum_congr rfl fun d _ =>
    congrArg (u (ix2 r d) * ·) (shapeCast_1ab_ab_apply v shapeCasts_S1x1024x1024_S1024x1024 d n)

/-- The mapped tile: `x * s + t`, `s` and `t` broadcast down the rows. -/
theorem pay2_eq (v0 : Vec Ideal S512x1024 .f32) (v1 v4 : Vec Ideal S1024 .f32) :
    (k1_pay2 (F := Ideal) v0 v1 v4 : Hmu.Stile.Idx → EReal) = Hmu.tileIn v0 v1 v4 := by
  funext i
  obtain ⟨r, d, rfl⟩ : ∃ (r : Fin 512) (d : Fin 1024), i = ix2 r d := ⟨i 0, i 1, eq_ix2 i⟩
  show (shapeCast S512x1024 v0 shapeCasts_S512x1024_S512x1024) (ix2 r d) * (broadcastTo S512x1024 (shapeCast S1x1024 (shapeCast S1024 v1 shapeCasts_S1024_S1024) shapeCasts_S1024_S1x1024) broadcasts_S1x1024_S512x1024 (ix2 r d))
     + (broadcastTo S512x1024 (shapeCast S1x1024 (shapeCast S1024 v4 shapeCasts_S1024_S1024) shapeCasts_S1024_S1x1024) broadcasts_S1x1024_S512x1024 (ix2 r d))
     = v0 (ix2 r d) * v1 (ix1 d) + v4 (ix1 d)
  rw [Hmu.Lib.rowVec_self_apply, Hmu.Lib.rowVec_self_apply, shapeCast_self]

/-- The narrowed copy the matrix unit reads is the same tile. -/
theorem pay3_eq (v0 : Vec Ideal S512x1024 .f32) (v1 v4 : Vec Ideal S1024 .f32) :
    (k1_pay3 (F := Ideal) v0 v1 v4 : Hmu.Stile.Idx → EReal) = Hmu.tileIn v0 v1 v4 :=
  pay2_eq v0 v1 v4

/-- The first summand: `lam * ((‖u_r‖² - 2 * (u_r · slab)) + msq)`. -/
theorem pay4_apply (v0 : Vec Ideal S512x1024 .f32) (v1 v4 : Vec Ideal S1024 .f32) (v15 : FVec Ideal S1x1024x1024 .bf16)
    (v18 v21 : Vec Ideal S1024 .f32) (r : Fin 512) (n : Fin 1024) :
    k1_pay4 (F := Ideal) v0 v1 v4 v15 v18 v21 (ix2 r n)
      = v21 (ix1 n) * ((Hmu.tileSq (Hmu.tileIn v0 v1 v4) r - Hmu.two * slabSum (Hmu.tileIn v0 v1 v4) v15 r n) + v18 (ix1 n)) := by
  show (broadcastTo S512x1024 (shapeCast S1x1024 v21 shapeCasts_S1024_S1x1024) broadcasts_S1x1024_S512x1024 (ix2 r n))
      * (((broadcastTo S512x1024 (shapeCast S512x1 (multiReduction .add [1] S512 (mulf (k1_pay2 (F := Ideal) v0 v1 v4) (k1_pay2 (F := Ideal) v0 v1 v4)) 0x00000000#32 reduces_S512x1024_S512 (.inl rfl) rfl) shapeCasts_S512_S512x1) broadcasts_S512x1_S512x1024 (ix2 r n))
          - Ideal.ofBits .f32 0x40000000#32 * (matmul dot_S512x1024_S1024x1024_S512x1024_1_0_0_1_n_n none (k1_pay3 (F := Ideal) v0 v1 v4) (shapeCast S1024x1024 v15 shapeCasts_S1x1024x1024_S1024x1024) (constant S512x1024 .f32 0x00000000#32) (ix2 r n)))
         + (broadcastTo S512x1024 (shapeCast S1x1024 (shapeCast S1024 v18 shapeCasts_S1024_S1024) shapeCasts_S1024_S1x1024) broadcasts_S1x1024_S512x1024 (ix2 r n)))
      = _
  rw [Hmu.Lib.rowVec_apply, Hmu.Lib.rowVec_self_apply, slabDot_apply]
  rw [Hmu.Lib.rowSumCol_apply (mulf (k1_pay2 (F := Ideal) v0 v1 v4) (k1_pay2 (F := Ideal) v0 v1 v4)) reduces_S512x1024_S512 (.inl rfl) rfl shapeCasts_S512_S512x1 broadcasts_S512x1_S512x1024 r n]
  rw [pay3_eq]
  have e : (∑ k : Fin 1024, mulf (k1_pay2 (F := Ideal) v0 v1 v4) (k1_pay2 (F := Ideal) v0 v1 v4) (ix2 r k)) = Hmu.tileSq (Hmu.tileIn v0 v1 v4) r := by
    rw [← pay2_eq]; rfl
  rw [e]; rfl

/-- The block of four rows is loaded whole. -/
theorem pay5_eq (v31 : Vec Ideal S4x1024 .f32) : k1_pay5 (F := Ideal) v31 = v31 :=
  shapeCast_self v31 shapeCasts_S4x1024_S4x1024

/-- The first projection's product: the tile against its slab. -/
theorem pay6_apply (v0 : Vec Ideal S512x1024 .f32) (v1 v4 : Vec Ideal S1024 .f32)
    (v33 : FVec Ideal S1x1024x1024 .bf16) (r : Fin 512) (n : Fin 1024) :
    k1_pay6 (F := Ideal) v0 v1 v4 v33 (ix2 r n) = slabSum (Hmu.tileIn v0 v1 v4) v33 r n := by
  show (matmul dot_S512x1024_S1024x1024_S512x1024_1_0_0_1_n_n none (k1_pay3 (F := Ideal) v0 v1 v4) (shapeCast S1024x1024 v33 shapeCasts_S1x1024x1024_S1024x1024) (constant S512x1024 .f32 0x00000000#32) (ix2 r n))
      = _
  rw [slabDot_apply, pay3_eq]

/-- Row 0 of the block, broadcast down the tile. -/
theorem pay7_apply (v31 : Vec Ideal S4x1024 .f32) (r : Fin 512) (n : Fin 1024) :
    k1_pay7 (F := Ideal) v31 (ix2 r n) = v31 (ix2 (0 : Fin 4) n) := by
  show (broadcastTo S512x1024 (shapeCast S1x1024 (shapeCast S1024 (extractStridedSlice S1x1024 ![0, 0] (k1_pay5 (F := Ideal) v31) slices_S4x1024_o0_0_S1x1024) shapeCasts_S1x1024_S1024) shapeCasts_S1024_S1x1024) broadcasts_S1x1024_S512x1024 (ix2 r n))
      = _
  rw [pay5_eq]
  rw [Hmu.Lib.blockRow_apply v31 0 (0 : Fin 4) rfl slices_S4x1024_o0_0_S1x1024 shapeCasts_S1x1024_S1024 shapeCasts_S1024_S1x1024 broadcasts_S1x1024_S512x1024 r n]

/-- One later projection as the body spells it: the tile against a slab, less a row of the block sliced at offset `o`. -/
def projTerm (v11 : FVec Ideal S512x1024 .bf16) (v32 : FVec Ideal S4x1024 .f32) (v : FVec Ideal S1x1024x1024 .bf16) (o : ℕ)
    (hs : S4x1024.Slices ![o, 0] S1x1024) : FVec Ideal S512x1024 .f32 :=
  subf (matmul dot_S512x1024_S1024x1024_S512x1024_1_0_0_1_n_n none v11 (shapeCast S1024x1024 v shapeCasts_S1x1024x1024_S1024x1024) (constant S512x1024 .f32 0x00000000#32))
    (broadcastTo S512x1024 (shapeCast S1x1024 (shapeCast S1024 (extractStridedSlice S1x1024 ![o, 0] v32 hs) shapeCasts_S1x1024_S1024) shapeCasts_S1024_S1x1024) broadcasts_S1x1024_S512x1024)

theorem projTerm_apply (v11 : FVec Ideal S512x1024 .bf16) (v32 : FVec Ideal S4x1024 .f32) (v : FVec Ideal S1x1024x1024 .bf16) (o : ℕ)
    (hs : S4x1024.Slices ![o, 0] S1x1024) (k : Fin 4) (hk : k.val = o) (r : Fin 512) (n : Fin 1024) :
    projTerm v11 v32 v o hs (ix2 r n) = slabSum v11 v r n - v32 (ix2 k n) := by
  show matmul dot_S512x1024_S1024x1024_S512x1024_1_0_0_1_n_n none v11 (shapeCast S1024x1024 v shapeCasts_S1x1024x1024_S1024x1024) (constant S512x1024 .f32 0x00000000#32) (ix2 r n)
      - broadcastTo S512x1024 (shapeCast S1x1024 (shapeCast S1024 (extractStridedSlice S1x1024 ![o, 0] v32 hs) shapeCasts_S1x1024_S1024) shapeCasts_S1024_S1x1024) broadcasts_S1x1024_S512x1024 (ix2 r n)
      = _
  rw [slabDot_apply, Hmu.Lib.blockRow_apply v32 o k hk hs shapeCasts_S1x1024_S1024 shapeCasts_S1024_S1x1024 broadcasts_S1x1024_S512x1024 r n]

/-- The stored value as the body spells it: the three remaining squared projections added in turn, the total subtracted
    from zero, scaled, exponentiated. -/
theorem pay1_eq (v11 : FVec Ideal S512x1024 .bf16) (v30 : FVec Ideal S512x1024 .f32) (v32 : FVec Ideal S4x1024 .f32)
    (v36 v40 : FVec Ideal S512x1024 .f32) (v43 v53 v63 : FVec Ideal S1x1024x1024 .bf16) :
    k1_pay1 (F := Ideal) v11 v30 v32 v36 v40 v43 v53 v63
      = exp (mulf (subf (broadcast S512x1024 (Scalar.ofBits (F := Ideal) .f32 0x00000000#32))
          (addf (addf (addf (addf v30 (mulf (subf v36 v40) (subf v36 v40)))
            (mulf (projTerm v11 v32 v43 1 slices_S4x1024_o1_0_S1x1024) (projTerm v11 v32 v43 1 slices_S4x1024_o1_0_S1x1024)))
            (mulf (projTerm v11 v32 v53 2 slices_S4x1024_o2_0_S1x1024) (projTerm v11 v32 v53 2 slices_S4x1024_o2_0_S1x1024)))
            (mulf (projTerm v11 v32 v63 3 slices_S4x1024_o3_0_S1x1024) (projTerm v11 v32 v63 3 slices_S4x1024_o3_0_S1x1024))))
          (broadcast S512x1024 (Scalar.ofBits (F := Ideal) .f32 0x3A800000#32))) := rfl

/-- The stored value at an entry. -/
theorem pay1_apply (v11 : FVec Ideal S512x1024 .bf16) (v30 : FVec Ideal S512x1024 .f32) (v32 : FVec Ideal S4x1024 .f32)
    (v36 v40 : FVec Ideal S512x1024 .f32) (v43 v53 v63 : FVec Ideal S1x1024x1024 .bf16) (r : Fin 512) (n : Fin 1024) :
    k1_pay1 (F := Ideal) v11 v30 v32 v36 v40 v43 v53 v63 (ix2 r n)
      = Ideal.exp ((0 - ((((v30 (ix2 r n) + (v36 (ix2 r n) - v40 (ix2 r n)) * (v36 (ix2 r n) - v40 (ix2 r n)))
          + (slabSum v11 v43 r n - v32 (ix2 (1 : Fin 4) n)) * (slabSum v11 v43 r n - v32 (ix2 (1 : Fin 4) n)))
          + (slabSum v11 v53 r n - v32 (ix2 (2 : Fin 4) n)) * (slabSum v11 v53 r n - v32 (ix2 (2 : Fin 4) n)))
          + (slabSum v11 v63 r n - v32 (ix2 (3 : Fin 4) n)) * (slabSum v11 v63 r n - v32 (ix2 (3 : Fin 4) n)))) * Hmu.invD) := by
  rw [pay1_eq]
  show Ideal.exp ((Ideal.ofBits .f32 0x00000000#32 - ((((v30 (ix2 r n) + (v36 (ix2 r n) - v40 (ix2 r n)) * (v36 (ix2 r n) - v40 (ix2 r n)))
      + projTerm v11 v32 v43 1 slices_S4x1024_o1_0_S1x1024 (ix2 r n) * projTerm v11 v32 v43 1 slices_S4x1024_o1_0_S1x1024 (ix2 r n))
      + projTerm v11 v32 v53 2 slices_S4x1024_o2_0_S1x1024 (ix2 r n) * projTerm v11 v32 v53 2 slices_S4x1024_o2_0_S1x1024 (ix2 r n))
      + projTerm v11 v32 v63 3 slices_S4x1024_o3_0_S1x1024 (ix2 r n) * projTerm v11 v32 v63 3 slices_S4x1024_o3_0_S1x1024 (ix2 r n)))
      * Ideal.ofBits .f32 0x3A800000#32) = _
  rw [projTerm_apply v11 v32 v43 1 _ (1 : Fin 4) rfl, projTerm_apply v11 v32 v53 2 _ (2 : Fin 4) rfl,
    projTerm_apply v11 v32 v63 3 _ (3 : Fin 4) rfl, Ideal.ofBits_zero_f32]
  rfl

/-- A loaded slab of the stack against the mapped tile is the stack's slab read in place. -/
theorem slabSum_ld (u : Hmu.Stile.Idx → EReal) (x3 : Vec Ideal S5x1024x1024 .bf16) (o : ℕ) (k : Fin 5) (hk : k.val = o)
    (inb : ∀ ax, (![o, 0, 0] : Fin 3 → ℕ) ax + S1x1024x1024.size ax ≤ S5x1024x1024.size ax) (r : Fin 512) (n : Fin 1024) :
    slabSum u (View.ld x3 (Rect.unit (s := S5x1024x1024) ![o, 0, 0] S1x1024x1024.size inb)) r n = Hmu.tileDot u x3 k r n :=
  Finset.sum_congr rfl fun d _ => congrArg (u (ix2 r d) * ·) (Hmu.Lib.ld_slab x3 o k hk inb d n)

/-- THE TILE A POINT STORES is `Hmu.tileOut` of the blocks it loaded. -/
theorem out_eq (x0 : Vec Ideal S512x1024 .f32) (x1 x2 : Vec Ideal S1024 .f32) (x3 : Vec Ideal S5x1024x1024 .bf16)
    (x4 x5 : Vec Ideal S1024 .f32) (x6 : Vec Ideal S4x1024 .f32) :
    (out1_7 (F := Ideal) x0 x1 x2 x3 x4 x5 x6 : Hmu.Stile.Idx → EReal) = Hmu.tileOut x0 x1 x2 x3 x4 x5 x6 := by
  unfold out1_7
  rw [View.canon_unit_zero hz2]
  simp only [View.ld_unit_zero (S := S512x1024) hz2, View.ld_unit_zero (S := S1024) hz1, View.ld_unit_zero (S := S4x1024) hz2]
  funext i
  obtain ⟨r, n, rfl⟩ : ∃ (r : Fin 512) (n : Fin 1024), i = ix2 r n := ⟨i 0, i 1, eq_ix2 i⟩
  rw [pay1_apply, pay4_apply, pay6_apply, pay7_apply, pay3_eq, pay5_eq]
  rw [slabSum_ld _ x3 0 (0 : Fin 5) rfl, slabSum_ld _ x3 1 (1 : Fin 5) rfl, slabSum_ld _ x3 2 (2 : Fin 5) rfl,
    slabSum_ld _ x3 3 (3 : Fin 5) rfl, slabSum_ld _ x3 4 (4 : Fin 5) rfl]
  rfl

end Cert.KernelIdeal.Body1

end
-- ==== Proof.TilePoint.lean ====
/-
  One grid point against a layer: the tile a point stores, when its blocks are the rows of a batch and a layer's
  parameters laid out for it, is the layer's chained form of the mapped batch on those rows. (A restatement of
  `Hmu.tileOut_eq_layerMul` whose whole-block hypotheses are equalities of functions.)
-/
import proofs.«161757_j49520972923445_2_alg».proof.Proof.BlockSpec

noncomputable section

namespace Hmu

open Idealize.ShloMosaic Idealize.ShloMosaic.ValueIdx

theorem tileOut_point (X : Sbd.Idx → EReal) (S T : Sn.Idx → EReal) (MU : Snd.Idx → EReal) (LAM : Sn.Idx → EReal)
    (V : Snkd.Idx → EReal) (x0 : Stile.Idx → EReal) (x1 x2 : Sn.Idx → EReal) (x3 : Sw.Idx → EReal) (x4 x5 : Sn.Idx → EReal)
    (x6 : Skn.Idx → EReal) (r : Fin 512) (n : Fin 1024) (g : Fin 4096)
    (h0 : ∀ d, x0 (ix2 r d) = X (ix2 g d)) (h1 : x1 = S) (h2 : x2 = T)
    (hw0 : ∀ d, x3 (ix3 0 d n) = MU (ix2 n d))
    (hw1 : ∀ d, x3 (ix3 1 d n) = V (ix3 n 0 d)) (hw2 : ∀ d, x3 (ix3 2 d n) = V (ix3 n 1 d))
    (hw3 : ∀ d, x3 (ix3 3 d n) = V (ix3 n 2 d)) (hw4 : ∀ d, x3 (ix3 4 d n) = V (ix3 n 3 d))
    (h4 : x4 = LAM) (h5 : x5 (ix1 n) = musq MU n) (h6 : ∀ k, x6 (ix2 k n) = vmu MU V n k) :
    tileOut x0 x1 x2 x3 x4 x5 x6 (ix2 r n) = layerMul (affine X S T) MU LAM V (ix2 g n) := by
  subst h1 h2 h4
  exact tileOut_eq_layerMul X x1 x2 MU x4 V x0 x3 x5 x6 r n g h0 hw0 hw1 hw2 hw3 hw4 h5 h6

end Hmu

end
-- ==== Proof.Cover1.lean ====
/-
  The array the second launch leaves behind, as one function of the arrays it found.

  The launch runs eight grid points. Point `t` reads rows `512 t … 512 t + 511` of its input array, the whole of every
  parameter array, and writes the same rows of its output array; the eight row bands fill the output. So when the
  parameter arrays are a layer's parameters laid out for the body, the output array is the layer's chained form of
  the mapped input, entry by entry.
-/
import proofs.«161757_j49520972923445_2_alg».proof.Proof.Body1
import proofs.«161757_j49520972923445_2_alg».proof.Proof.TilePoint
import Idealize.ShloMosaic.Lib.Pipeline.Value

set_option maxRecDepth 16384

noncomputable section

namespace Cert.KernelIdeal.Cover1

open Idealize.ShloMosaic Idealize.ShloMosaic.ValueIdx Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- The printed index maps, decided over the grid: the input and output tiles move down one band per point, every
    parameter window stays at its array's origin. -/
theorem idx_facts : ∀ t : Fin cfg1.N, win1_0.index t (0 : Fin 2) = t.val ∧ win1_0.index t (1 : Fin 2) = 0
    ∧ win1_7.index t (0 : Fin 2) = t.val ∧ win1_7.index t (1 : Fin 2) = 0
    ∧ win1_1.index t (0 : Fin 1) = 0 ∧ win1_2.index t (0 : Fin 1) = 0
    ∧ win1_3.index t (0 : Fin 3) = 0 ∧ win1_3.index t (1 : Fin 3) = 0 ∧ win1_3.index t (2 : Fin 3) = 0
    ∧ win1_4.index t (0 : Fin 1) = 0 ∧ win1_5.index t (0 : Fin 1) = 0
    ∧ win1_6.index t (0 : Fin 2) = 0 ∧ win1_6.index t (1 : Fin 2) = 0 ∧ t.val < 8 :=
  (by decide +kernel : ∀ t : Fin grid1.N, _)

/-- Every band is some point's. -/
theorem idx_onto : ∀ q : Fin 8, ∃ t : Fin cfg1.N, win1_7.index t = ![q.val, 0] :=
  (by decide +kernel : ∀ q : Fin 8, ∃ t : Fin grid1.N, win1_7.index t = ![q.val, 0])

/-- WHAT POINT `t` WRITES BACK is its band of the layer. -/
theorem flushed_eq (c : Dev nD) (t : Fin cfg1.N) (X : Hmu.Sbd.Idx → EReal) (S T : Hmu.Sn.Idx → EReal)
    (MU : Hmu.Snd.Idx → EReal) (LAM : Hmu.Sn.Idx → EReal) (Vv : Hmu.Snkd.Idx → EReal)
    (hX : ∀ i : Hmu.Sbd.Idx, V c main_v17 i = X i) (hS : ∀ i : Hmu.Sn.Idx, V c main_v31 i = S i) (hT : ∀ i : Hmu.Sn.Idx, V c main_v33 i = T i)
    (hL : ∀ i : Hmu.Sn.Idx, V c main_arg7 i = LAM i)
    (hW0 : ∀ d n, V c main_v48 (ix3 (0 : Fin 5) d n) = MU (ix2 n d))
    (hW1 : ∀ d n, V c main_v48 (ix3 (1 : Fin 5) d n) = Vv (ix3 n (0 : Fin 4) d))
    (hW2 : ∀ d n, V c main_v48 (ix3 (2 : Fin 5) d n) = Vv (ix3 n (1 : Fin 4) d))
    (hW3 : ∀ d n, V c main_v48 (ix3 (3 : Fin 5) d n) = Vv (ix3 n (2 : Fin 4) d))
    (hW4 : ∀ d n, V c main_v48 (ix3 (4 : Fin 5) d n) = Vv (ix3 n (3 : Fin 4) d))
    (hM : ∀ n, V c main_v39 (ix1 n) = Hmu.musq MU n) (hVm : ∀ k n, V c main_v44 (ix2 k n) = Hmu.vmu MU Vv n k) :
    (dat1 V c).flushed 7 t
      = ((cfg1.win 7).blk t).view.read (Elt Ideal) (Hmu.layerMul (Hmu.affine X S T) MU LAM Vv) := by
  show (cfg1.win 7).cut (grid1.coords t) ((dat1 V c).after 7 t) = _
  rw [after1_7]
  obtain ⟨e00, e01, e70, e71, e1, e2, e30, e31, e32, e4, e5, e60, e61, ht⟩ := idx_facts t
  refine funext fun (y : S512x1024.Idx) => ?_
  obtain ⟨r, n, rfl⟩ : ∃ (r : Fin 512) (n : Fin 1024), y = ix2 r n := ⟨y 0, y 1, eq_ix2 y⟩
  have hr : r.val < 512 := r.isLt
  have hemb : (((cfg1.win 7).blk t).view.emb (ix2 r n) : S4096x1024.Idx) = ix2 (⟨t.val * 512 + r.val, by omega⟩ : Fin 4096) n := by
    funext a; apply Fin.ext
    match a with
    | ⟨0, _⟩ => show win1_7.index t (0 : Fin 2) * 512 + 1 * r.val = t.val * 512 + r.val; omega
    | ⟨1, _⟩ => show win1_7.index t (1 : Fin 2) * 1024 + 1 * n.val = n.val; omega
  show out1_7 (iblk1 V c 0 t) (iblk1 V c 1 t) (iblk1 V c 2 t) (iblk1 V c 3 t) (iblk1 V c 4 t) (iblk1 V c 5 t) (iblk1 V c 6 t) (ix2 r n)
    = Hmu.layerMul (Hmu.affine X S T) MU LAM Vv (((cfg1.win 7).blk t).view.emb (ix2 r n))
  rw [hemb]
  refine (congrFun (Body1.out_eq (iblk1 V c 0 t) (iblk1 V c 1 t) (iblk1 V c 2 t) (iblk1 V c 3 t) (iblk1 V c 4 t) (iblk1 V c 5 t) (iblk1 V c 6 t)) (ix2 r n)).trans ?_
  have emb0 : ∀ d : Fin 1024, (((cfg1.win 0).blk t).view.emb (ix2 r d) : S4096x1024.Idx) = ix2 (⟨t.val * 512 + r.val, by omega⟩ : Fin 4096) d := fun d => by
    funext a; apply Fin.ext
    match a with
    | ⟨0, _⟩ => show win1_0.index t (0 : Fin 2) * 512 + 1 * r.val = t.val * 512 + r.val; omega
    | ⟨1, _⟩ => show win1_0.index t (1 : Fin 2) * 1024 + 1 * d.val = d.val; omega
  have emb1 : ∀ j : S1024.Idx, (((cfg1.win 1).blk t).view.emb j : S1024.Idx) = j := fun j => by
    funext a; apply Fin.ext
    match a with
    | ⟨0, _⟩ => show win1_1.index t (0 : Fin 1) * 1024 + 1 * (j 0).val = (j 0).val; omega
  have emb2 : ∀ j : S1024.Idx, (((cfg1.win 2).blk t).view.emb j : S1024.Idx) = j := fun j => by
    funext a; apply Fin.ext
    match a with
    | ⟨0, _⟩ => show win1_2.index t (0 : Fin 1) * 1024 + 1 * (j 0).val = (j 0).val; omega
  have emb3 : ∀ j : S5x1024x1024.Idx, (((cfg1.win 3).blk t).view.emb j : S5x1024x1024.Idx) = j := fun j => by
    funext a; apply Fin.ext
    match a with
    | ⟨0, _⟩ => show win1_3.index t (0 : Fin 3) * 5 + 1 * (j 0).val = (j 0).val; omega
    | ⟨1, _⟩ => show win1_3.index t (1 : Fin 3) * 1024 + 1 * (j 1).val = (j 1).val; omega
    | ⟨2, _⟩ => show win1_3.index t (2 : Fin 3) * 1024 + 1 * (j 2).val = (j 2).val; omega
  have emb4 : ∀ j : S1024.Idx, (((cfg1.win 4).blk t).view.emb j : S1024.Idx) = j := fun j => by
    funext a; apply Fin.ext
    match a with
    | ⟨0, _⟩ => show win1_4.index t (0 : Fin 1) * 1024 + 1 * (j 0).val = (j 0).val; omega
  have emb5 : ∀ j : S1024.Idx, (((cfg1.win 5).blk t).view.emb j : S1024.Idx) = j := fun j => by
    funext a; apply Fin.ext
    match a with
    | ⟨0, _⟩ => show win1_5.index t (0 : Fin 1) * 1024 + 1 * (j 0).val = (j 0).val; omega
  have emb6 : ∀ j : S4x1024.Idx, (((cfg1.win 6).blk t).view.emb j : S4x1024.Idx) = j := fun j => by
    funext a; apply Fin.ext
    match a with
    | ⟨0, _⟩ => show win1_6.index t (0 : Fin 2) * 4 + 1 * (j 0).val = (j 0).val; omega
    | ⟨1, _⟩ => show win1_6.index t (1 : Fin 2) * 1024 + 1 * (j 1).val = (j 1).val; omega
  refine Hmu.tileOut_point X S T MU LAM Vv (iblk1 V c 0 t) (iblk1 V c 1 t) (iblk1 V c 2 t) (iblk1 V c 3 t) (iblk1 V c 4 t) (iblk1 V c 5 t) (iblk1 V c 6 t) r n ⟨t.val * 512 + r.val, by omega⟩ ?_ ?_ ?_ ?_ ?_ ?_ ?_ ?_ ?_ ?_ ?_
  · intro d
    show V c main_v17 (((cfg1.win 0).blk t).view.emb (ix2 r d)) = _
    rw [emb0 d]; exact hX _
  · funext j
    show V c main_v31 (((cfg1.win 1).blk t).view.emb j) = _
    rw [emb1 j]; exact hS j
  · funext j
    show V c main_v33 (((cfg1.win 2).blk t).view.emb j) = _
    rw [emb2 j]; exact hT j
  · intro d
    show V c main_v48 (((cfg1.win 3).blk t).view.emb (ix3 (0 : Fin 5) d n)) = _
    rw [emb3]; exact hW0 d n
  · intro d
    show V c main_v48 (((cfg1.win 3).blk t).view.emb (ix3 (1 : Fin 5) d n)) = _
    rw [emb3]; exact hW1 d n
  · intro d
    show V c main_v48 (((cfg1.win 3).blk t).view.emb (ix3 (2 : Fin 5) d n)) = _
    rw [emb3]; exact hW2 d n
  · intro d
    show V c main_v48 (((cfg1.win 3).blk t).view.emb (ix3 (3 : Fin 5) d n)) = _
    rw [emb3]; exact hW3 d n
  · intro d
    show V c main_v48 (((cfg1.win 3).blk t).view.emb (ix3 (4 : Fin 5) d n)) = _
    rw [emb3]; exact hW4 d n
  · funext j
    show V c main_arg7 (((cfg1.win 4).blk t).view.emb j) = _
    rw [emb4 j]; exact hL j
  · show V c main_v39 (((cfg1.win 5).blk t).view.emb (ix1 n)) = _
    rw [emb5]; exact hM n
  · intro k
    show V c main_v44 (((cfg1.win 6).blk t).view.emb (ix2 k n)) = _
    rw [emb6]; exact hVm k n

/-- An entry of the output array is in point `t`'s band iff its row is. -/
theorem mem_blk (t : Fin cfg1.N) (i : S4096x1024.Idx) :
    i ∈ ((cfg1.win 7).blk t).view.set ↔ ∀ a : Fin 2, win1_7.index t a * S512x1024.size a ≤ (i a).val ∧ (i a).val < win1_7.index t a * S512x1024.size a + S512x1024.size a := by
  show i ∈ ((View.whole main_v49).slice (win1_7.rect t)).set ↔ _
  rw [View.set_slice_whole, Rect.mem_set_unit]
  exact Iff.rfl

/-- The eight bands fill the output array. -/
theorem cover (i : S4096x1024.Idx) : ∃ t : Fin cfg1.N, (cfg1.win 7).flush t = true ∧ i ∈ ((cfg1.win 7).blk t).view.set := by
  have hi0 : (i 0).val < 4096 := (i 0).isLt
  have hi1 : (i 1).val < 1024 := (i 1).isLt
  obtain ⟨t, ht⟩ := idx_onto ⟨(i 0).val / 512, by omega⟩
  have q0 : win1_7.index t (0 : Fin 2) = (i 0).val / 512 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 512 ≤ (i 0).val ∧ (i 0).val < win1_7.index t (0 : Fin 2) * 512 + 512; omega
  | ⟨1, _⟩ => show win1_7.index t (1 : Fin 2) * 1024 ≤ (i 1).val ∧ (i 1).val < win1_7.index t (1 : Fin 2) * 1024 + 1024; omega

/-- THE OUTPUT ARRAY after the launch is the layer's chained form of the mapped input. -/
theorem final (c : Dev nD) (X : Hmu.Sbd.Idx → EReal) (S T : Hmu.Sn.Idx → EReal)
    (MU : Hmu.Snd.Idx → EReal) (LAM : Hmu.Sn.Idx → EReal) (Vv : Hmu.Snkd.Idx → EReal)
    (hX : ∀ i : Hmu.Sbd.Idx, V c main_v17 i = X i) (hS : ∀ i : Hmu.Sn.Idx, V c main_v31 i = S i) (hT : ∀ i : Hmu.Sn.Idx, V c main_v33 i = T i)
    (hL : ∀ i : Hmu.Sn.Idx, V c main_arg7 i = LAM i)
    (hW0 : ∀ d n, V c main_v48 (ix3 (0 : Fin 5) d n) = MU (ix2 n d))
    (hW1 : ∀ d n, V c main_v48 (ix3 (1 : Fin 5) d n) = Vv (ix3 n (0 : Fin 4) d))
    (hW2 : ∀ d n, V c main_v48 (ix3 (2 : Fin 5) d n) = Vv (ix3 n (1 : Fin 4) d))
    (hW3 : ∀ d n, V c main_v48 (ix3 (3 : Fin 5) d n) = Vv (ix3 n (2 : Fin 4) d))
    (hW4 : ∀ d n, V c main_v48 (ix3 (4 : Fin 5) d n) = Vv (ix3 n (3 : Fin 4) d))
    (hM : ∀ n, V c main_v39 (ix1 n) = Hmu.musq MU n) (hVm : ∀ k n, V c main_v44 (ix2 k n) = Hmu.vmu MU Vv n k) :
    (dat1 V c).arrAt 7 cfg1.N = Hmu.layerMul (Hmu.affine X S T) MU LAM Vv :=
  (dat1 V c).arrAt_eq_of_cover 7 (Hmu.layerMul (Hmu.affine X S T) MU LAM Vv)
    (fun t _ => flushed_eq V c t X S T MU LAM Vv hX hS hT hL hW0 hW1 hW2 hW3 hW4 hM hVm) cover

end Cert.KernelIdeal.Cover1

end
-- ==== Proof.LibHostRead.lean ====
/-
  A reference program's host operations read at an index, on the extended reals, over literal-shape patterns.

  A reference that normalises over a batch, takes squared distances to a family of centres and projects on a family
  of directions is spelt, on the host, with five kinds of operation besides the elementwise ones:
    • a one-axis sum (`reduce` with an `add` body from a zero word): along the columns or the rows of an `[a, b]`
      array, or along the last axis of an `[a, b, c]` array — at a result index it is the sum of the operand over the
      dropped coordinate;
    • `broadcast_in_dim`: a vector turned into a one-row or one-column matrix and that matrix repeated over the other
      axis, a matrix given a unit middle or leading axis and repeated along it, a literal scalar repeated everywhere —
      at a result index each reads the operand at the coordinates it keeps;
    • a matrix transpose, a rotation of three axes, and two arrays stacked along the leading axis;
    • `dot_general` contracting the columns of an `[B, D]` matrix with the last axis of an `[N, K, D]` array into
      `[B, N, K]` — at `(p, q, j)` the sum over `d` of `l (p, d) * r (q, j, d)`;
    • the host's negation, exponential and reciprocal square root, elementwise.
  Every extent is generic and every shape fact is a hypothesis, so the lemmas apply to any program's records.
-/
import Idealize.ShloMosaic.PureOps.Ideal.Laws
import Idealize.ShloMosaic.Lib.ValueIdx
import Idealize.ShloMosaic.Lib.Pipeline.Value
import Idealize.ShloMosaic.Lib.ValueLayout
import Idealize.ShloMosaic.Lib.IdealHost

namespace Hmu.Lib

open Idealize.ShloMosaic Idealize.ShloMosaic.ValueIdx

variable {a b c k : ℕ}

/-! ## The host's elementwise operations at an index -/

/-- The host's negation at an index negates the element. -/
theorem hostNegf_apply {s : Shape} {φ : FTy} (x : FVec Ideal s φ) (i : s.Idx) : Host.negf x i = -(x i) := rfl
/-- The host's exponential at an index is the extended exponential of the element. -/
theorem hostExp_apply {s : Shape} {φ : FTy} (x : FVec Ideal s φ) (i : s.Idx) : Host.exp x i = Ideal.exp (x i) := rfl
/-- The host's reciprocal square root at an index is the extended one of the element. -/
theorem hostRsqrt_apply {s : Shape} {φ : FTy} (x : FVec Ideal s φ) (i : s.Idx) : Host.rsqrt x i = Ideal.rsqrt (x i) := rfl

/-! ## The index a one-axis reduction reads: the result index with the dropped coordinate put back -/

/-- Over the columns of an `[a, b]` array: row `r` with the column `j` put back is `(r, j)`. -/
theorem lift_ab_axis1 (h : Shape.Reduces ⟨2, ![a, b]⟩ [1] ⟨1, ![a]⟩) (r : Fin a) (j : Fin b) :
    h.lift (ix1 r) j = ix2 r j := by
  funext d
  apply Fin.ext
  match d with
  | ⟨0, _⟩ => rfl
  | ⟨1, _⟩ => rfl

/-- Over the rows of an `[a, b]` array: column `j` with the row `r` put back is `(r, j)`. -/
theorem lift_ab_axis0 (h : Shape.Reduces ⟨2, ![a, b]⟩ [0] ⟨1, ![b]⟩) (j : Fin b) (r : Fin a) :
    h.lift (ix1 j) r = ix2 r j := by
  funext d
  apply Fin.ext
  match d with
  | ⟨0, _⟩ => rfl
  | ⟨1, _⟩ => rfl

/-- Over the last axis of an `[a, b, c]` array: `(p, q)` with the last coordinate `j` put back is `(p, q, j)`. -/
theorem lift_abc_axis2 (h : Shape.Reduces ⟨3, ![a, b, c]⟩ [2] ⟨2, ![a, b]⟩) (p : Fin a) (q : Fin b) (j : Fin c) :
    h.lift (ix2 p q) j = ix3 p q j := by
  funext d
  apply Fin.ext
  match d with
  | ⟨0, _⟩ => rfl
  | ⟨1, _⟩ => rfl
  | ⟨2, _⟩ => rfl

/-! ## The host's sum along one axis from the zero word -/

/-- The host's sum of an `[a, b]` array along its columns, from the zero word: at row `r` the row's sum. -/
theorem hostReduceAdd_ab_axis1_apply {u : Shape} (x : FVec Ideal ⟨2, ![a, b]⟩ .f32)
    (h' : Shape.ReducesTo ⟨2, ![a, b]⟩ [1] ⟨1, ![a]⟩) (hu : 0 < u.numel) (r : Fin a) :
    Host.reduceAdd x (constant u .f32 0x00000000#32) h' hu (ix1 r) = ∑ j : Fin b, x (ix2 r j) := by
  have h : Shape.Reduces ⟨2, ![a, b]⟩ [1] ⟨1, ![a]⟩ := ⟨h'.1, Nat.one_pos, h'.2⟩
  refine (hostReduceAdd_apply x _ h' hu (ix1 r)).trans ?_
  refine (Ideal.hostReduceAdd_single h' h x _ (ix1 r)).trans ?_
  show Ideal.ofBits .f32 0x00000000#32 + _ = _
  rw [Ideal.ofBits_zero_f32, zero_add]
  exact Finset.sum_congr rfl fun j _ => congrArg x (lift_ab_axis1 h r j)

/-- The host's sum of an `[a, b]` array along its rows, from the zero word: at column `j` the column's sum. -/
theorem hostReduceAdd_ab_axis0_apply {u : Shape} (x : FVec Ideal ⟨2, ![a, b]⟩ .f32)
    (h' : Shape.ReducesTo ⟨2, ![a, b]⟩ [0] ⟨1, ![b]⟩) (hu : 0 < u.numel) (j : Fin b) :
    Host.reduceAdd x (constant u .f32 0x00000000#32) h' hu (ix1 j) = ∑ r : Fin a, x (ix2 r j) := by
  have h : Shape.Reduces ⟨2, ![a, b]⟩ [0] ⟨1, ![b]⟩ := ⟨h'.1, Nat.one_pos, h'.2⟩
  refine (hostReduceAdd_apply x _ h' hu (ix1 j)).trans ?_
  refine (Ideal.hostReduceAdd_single h' h x _ (ix1 j)).trans ?_
  show Ideal.ofBits .f32 0x00000000#32 + _ = _
  rw [Ideal.ofBits_zero_f32, zero_add]
  exact Finset.sum_congr rfl fun r _ => congrArg x (lift_ab_axis0 h j r)

/-- The host's sum of an `[a, b, c]` array along its last axis, from the zero word: at `(p, q)` the sum over the last
    coordinate. -/
theorem hostReduceAdd_abc_axis2_apply {u : Shape} (x : FVec Ideal ⟨3, ![a, b, c]⟩ .f32)
    (h' : Shape.ReducesTo ⟨3, ![a, b, c]⟩ [2] ⟨2, ![a, b]⟩) (hu : 0 < u.numel) (p : Fin a) (q : Fin b) :
    Host.reduceAdd x (constant u .f32 0x00000000#32) h' hu (ix2 p q) = ∑ j : Fin c, x (ix3 p q j) := by
  have h : Shape.Reduces ⟨3, ![a, b, c]⟩ [2] ⟨2, ![a, b]⟩ := ⟨h'.1, Nat.two_pos, h'.2⟩
  refine (hostReduceAdd_apply x _ h' hu (ix2 p q)).trans ?_
  refine (Ideal.hostReduceAdd_single h' h x _ (ix2 p q)).trans ?_
  show Ideal.ofBits .f32 0x00000000#32 + _ = _
  rw [Ideal.ofBits_zero_f32, zero_add]
  exact Finset.sum_congr rfl fun j _ => congrArg x (lift_abc_axis2 h p q j)

/-! ## `broadcast_in_dim` at an index -/

section Broadcast
variable {α : Type}

/-- A literal scalar repeated over any shape reads the literal's value everywhere. -/
theorem bcast_const_apply {T : Shape} (w : BitVec 32) (h : (⟨0, ![]⟩ : Shape).BroadcastsInDim T ![]) (j : T.Idx) :
    broadcastInDim T ![] h (constant (F := Ideal) ⟨0, ![]⟩ .f32 w) j = Ideal.ofBits .f32 w :=
  broadcastInDim_scalar_apply h _ j

/-- A vector `[a]` as the column `[a, 1]`: "(r, u) ↦ r". -/
theorem bcast_a_a1_apply (x : (⟨1, ![a]⟩ : Shape).Idx → α)
    (h : (⟨1, ![a]⟩ : Shape).BroadcastsInDim ⟨2, ![a, 1]⟩ (![0] : Fin 1 → Fin 2)) (r : Fin a) (u : Fin 1) :
    broadcastInDim ⟨2, ![a, 1]⟩ ![0] h x (ix2 r u) = x (ix1 r) := by
  refine broadcastInDim_apply _ h x _ (ix1 r) fun ax => ?_
  match ax with
  | ⟨0, _⟩ =>
    show r.val = if a = 1 then 0 else r.val
    split
    · have := r.isLt; omega
    · rfl

/-- A column `[a, 1]` repeated over `[a, b]`: `(r, j) ↦ (r, 0)`. -/
theorem bcast_a1_ab_apply (x : (⟨2, ![a, 1]⟩ : Shape).Idx → α)
    (h : (⟨2, ![a, 1]⟩ : Shape).BroadcastsInDim ⟨2, ![a, b]⟩ (![0, 1] : Fin 2 → Fin 2)) (r : Fin a) (j : Fin b) :
    broadcastInDim ⟨2, ![a, b]⟩ ![0, 1] h x (ix2 r j) = x (ix2 r (0 : Fin 1)) := by
  refine broadcastInDim_apply _ h x _ (ix2 r (0 : Fin 1)) fun ax => ?_
  match ax with
  | ⟨0, _⟩ =>
    show r.val = if a = 1 then 0 else r.val
    split
    · have := r.isLt; omega
    · rfl
  | ⟨1, _⟩ => rfl

/-- A vector `[b]` as the row `[1, b]`: "(u, j) ↦ j". -/
theorem bcast_b_1b_apply (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x _ (ix1 j) fun ax => ?_
  match ax with
  | ⟨0, _⟩ =>
    show j.val = if b = 1 then 0 else j.val
    split
    · have := j.isLt; omega
    · rfl

/-- A row `[1, b]` repeated over `[a, b]`: `(r, j) ↦ (0, j)`. -/
theorem bcast_1b_ab_apply (x : (⟨2, ![1, b]⟩ : Shape).Idx → α)
    (h : (⟨2, ![1, b]⟩ : Shape).BroadcastsInDim ⟨2, ![a, b]⟩ (![0, 1] : Fin 2 → Fin 2)) (r : Fin a) (j : Fin b) :
    broadcastInDim ⟨2, ![a, b]⟩ ![0, 1] h x (ix2 r j) = x (ix2 (0 : Fin 1) j) := by
  refine broadcastInDim_apply _ h x _ (ix2 (0 : Fin 1) j) fun ax => ?_
  match ax with
  | ⟨0, _⟩ => rfl
  | ⟨1, _⟩ =>
    show j.val = if b = 1 then 0 else j.val
    split
    · have := j.isLt; omega
    · rfl

/-- A matrix `[a, c]` given a unit middle axis `[a, 1, c]`: `(p, u, q) ↦ (p, q)`. -/
theorem bcast_ac_a1c_apply (x : (⟨2, ![a, c]⟩ : Shape).Idx → α)
    (h : (⟨2, ![a, c]⟩ : Shape).BroadcastsInDim ⟨3, ![a, 1, c]⟩ (![0, 2] : Fin 2 → Fin 3)) (p : Fin a) (u : Fin 1)
    (q : Fin c) : broadcastInDim ⟨3, ![a, 1, c]⟩ ![0, 2] h x (ix3 p u q) = x (ix2 p q) := by
  refine broadcastInDim_apply _ h x _ (ix2 p q) fun ax => ?_
  match ax with
  | ⟨0, _⟩ =>
    show p.val = if a = 1 then 0 else p.val
    split
    · have := p.isLt; omega
    · rfl
  | ⟨1, _⟩ =>
    show q.val = if c = 1 then 0 else q.val
    split
    · have := q.isLt; omega
    · rfl

/-- An `[a, 1, c]` array repeated along its middle axis over `[a, k, c]`: `(p, j, q) ↦ (p, 0, q)`. -/
theorem bcast_a1c_akc_apply (x : (⟨3, ![a, 1, c]⟩ : Shape).Idx → α)
    (h : (⟨3, ![a, 1, c]⟩ : Shape).BroadcastsInDim ⟨3, ![a, k, c]⟩ (![0, 1, 2] : Fin 3 → Fin 3)) (p : Fin a) (j : Fin k)
    (q : Fin c) : broadcastInDim ⟨3, ![a, k, c]⟩ ![0, 1, 2] h x (ix3 p j q) = x (ix3 p (0 : Fin 1) q) := by
  refine broadcastInDim_apply _ h x _ (ix3 p (0 : Fin 1) q) fun ax => ?_
  match ax with
  | ⟨0, _⟩ =>
    show p.val = if a = 1 then 0 else p.val
    split
    · have := p.isLt; omega
    · rfl
  | ⟨1, _⟩ => rfl
  | ⟨2, _⟩ =>
    show q.val = if c = 1 then 0 else q.val
    split
    · have := q.isLt; omega
    · rfl

/-- A matrix `[b, k]` given a unit leading axis `[1, b, k]`: `(u, q, j) ↦ (q, j)`. -/
theorem bcast_bk_1bk_apply (x : (⟨2, ![b, k]⟩ : Shape).Idx → α)
    (h : (⟨2, ![b, k]⟩ : Shape).BroadcastsInDim ⟨3, ![1, b, k]⟩ (![1, 2] : Fin 2 → Fin 3)) (u : Fin 1) (q : Fin b)
    (j : Fin k) : broadcastInDim ⟨3, ![1, b, k]⟩ ![1, 2] h x (ix3 u q j) = x (ix2 q j) := by
  refine broadcastInDim_apply _ h x _ (ix2 q j) fun ax => ?_
  match ax with
  | ⟨0, _⟩ =>
    show q.val = if b = 1 then 0 else q.val
    split
    · have := q.isLt; omega
    · rfl
  | ⟨1, _⟩ =>
    show j.val = if k = 1 then 0 else j.val
    split
    · have := j.isLt; omega
    · rfl

/-- A `[1, b, k]` array repeated along its leading axis over `[a, b, k]`: `(p, q, j) ↦ (0, q, j)`. -/
theorem bcast_1bk_abk_apply (x : (⟨3, ![1, b, k]⟩ : Shape).Idx → α)
    (h : (⟨3, ![1, b, k]⟩ : Shape).BroadcastsInDim ⟨3, ![a, b, k]⟩ (![0, 1, 2] : Fin 3 → Fin 3)) (p : Fin a) (q : Fin b)
    (j : Fin k) : broadcastInDim ⟨3, ![a, b, k]⟩ ![0, 1, 2] h x (ix3 p q j) = x (ix3 (0 : Fin 1) q j) := by
  refine broadcastInDim_apply _ h x _ (ix3 (0 : Fin 1) q j) fun ax => ?_
  match ax with
  | ⟨0, _⟩ => rfl
  | ⟨1, _⟩ =>
    show q.val = if b = 1 then 0 else q.val
    split
    · have := q.isLt; omega
    · rfl
  | ⟨2, _⟩ =>
    show j.val = if k = 1 then 0 else j.val
    split
    · have := j.isLt; omega
    · rfl

/-- A per-row vector `[a]` spread over `[a, b]` through the column `[a, 1]`: "(r, j) ↦ r". -/
theorem bcastRows_apply (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![a, 1]⟩ ![0] h1 x) (ix2 r j) = x (ix1 r) :=
  (bcast_a1_ab_apply _ h2 r j).trans (bcast_a_a1_apply x h1 r 0)

/-- A per-column vector `[b]` spread over `[a, b]` through the row `[1, b]`: "(r, j) ↦ j". -/
theorem bcastCols_apply (x : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2)) (r : Fin a) (j : Fin b) :
    broadcastInDim ⟨2, ![a, b]⟩ ![0, 1] h2 (broadcastInDim ⟨2, ![1, b]⟩ ![1] h1 x) (ix2 r j) = x (ix1 j) :=
  (bcast_1b_ab_apply _ h2 r j).trans (bcast_b_1b_apply x h1 0 j)

/-- A matrix `[a, c]` repeated `k` times along a new middle axis, through `[a, 1, c]`: `(p, j, q) ↦ (p, q)`. -/
theorem bcastMiddle_apply (x : (⟨2, ![a, c]⟩ : Shape).Idx → α)
    (h1 : (⟨2, ![a, c]⟩ : Shape).BroadcastsInDim ⟨3, ![a, 1, c]⟩ (![0, 2] : Fin 2 → Fin 3))
    (h2 : (⟨3, ![a, 1, c]⟩ : Shape).BroadcastsInDim ⟨3, ![a, k, c]⟩ (![0, 1, 2] : Fin 3 → Fin 3)) (p : Fin a) (j : Fin k)
    (q : Fin c) :
    broadcastInDim ⟨3, ![a, k, c]⟩ ![0, 1, 2] h2 (broadcastInDim ⟨3, ![a, 1, c]⟩ ![0, 2] h1 x) (ix3 p j q) = x (ix2 p q) :=
  (bcast_a1c_akc_apply _ h2 p j q).trans (bcast_ac_a1c_apply x h1 p 0 q)

/-- A matrix `[b, k]` repeated `a` times along a new leading axis, through `[1, b, k]`: `(p, q, j) ↦ (q, j)`. -/
theorem bcastLeading_apply (x : (⟨2, ![b, k]⟩ : Shape).Idx → α)
    (h1 : (⟨2, ![b, k]⟩ : Shape).BroadcastsInDim ⟨3, ![1, b, k]⟩ (![1, 2] : Fin 2 → Fin 3))
    (h2 : (⟨3, ![1, b, k]⟩ : Shape).BroadcastsInDim ⟨3, ![a, b, k]⟩ (![0, 1, 2] : Fin 3 → Fin 3)) (p : Fin a) (q : Fin b)
    (j : Fin k) :
    broadcastInDim ⟨3, ![a, b, k]⟩ ![0, 1, 2] h2 (broadcastInDim ⟨3, ![1, b, k]⟩ ![1, 2] h1 x) (ix3 p q j) = x (ix2 q j) :=
  (bcast_1bk_abk_apply _ h2 p q j).trans (bcast_bk_1bk_apply x h1 0 q j)

end Broadcast

/-! ## A transpose that rotates the axes, and two pieces stacked along the leading axis -/

section Layout
variable {α : Type} {m mt : ℕ}

/-- An `[a, b, c]` array with its axes rotated to `[b, c, a]` (permutation `[1, 2, 0]`) reads, at `(j, q, p)`, the
    operand at `(p, j, q)`. -/
theorem transpose_ix3_120_apply (x : (⟨3, ![a, b, c]⟩ : Shape).Idx → α)
    (h : (⟨3, ![a, b, c]⟩ : Shape).Transposes [1, 2, 0] ⟨3, ![b, c, a]⟩) (j : Fin b) (q : Fin c) (p : Fin a) :
    transpose ⟨3, ![b, c, a]⟩ [1, 2, 0] x h (ix3 j q p) = x (ix3 p j q) :=
  transpose_apply _ x h _ _ fun e => match e with | ⟨0, _⟩ => rfl | ⟨1, _⟩ => rfl | ⟨2, _⟩ => rfl

/-- One slab `[1, a, b]` stacked on `m` slabs `[m, a, b]` along the leading axis: slab `0` of the stack is the
    first piece. -/
theorem concat_1ab_mab_head_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (hs : s.val = 0)
    (p : Fin a) (q : Fin b) :
    concatenate ⟨3, ![mt, a, b]⟩ 0 [⟨⟨3, ![1, a, b]⟩, x₁⟩, ⟨⟨3, ![m, a, b]⟩, x₂⟩] h (ix3 s p q) = x₁ (ix3 (0 : Fin 1) p q) :=
  concatenate_pair_apply_left (0 : Fin 3) x₁ x₂ h (ix3 s p q) rfl (ix3 (0 : Fin 1) p q) fun e =>
    match e with | ⟨0, _⟩ => hs.symm | ⟨1, _⟩ => rfl | ⟨2, _⟩ => rfl

/-- … and slab `j + 1` of the stack is slab `j` of the second piece. -/
theorem concat_1ab_mab_tail_apply (x₁ : (⟨3, ![1, a, b]⟩ : Shape).Idx → α) (x₂ : (⟨3, ![m, a, b]⟩ : Shape).Idx → α)
    (h : Shape.Concatenates [⟨3, ![1, a, b]⟩, ⟨3, ![m, a, b]⟩] ⟨3, ![mt, a, b]⟩ 0) (s : Fin mt) (j : Fin m)
    (hs : s.val = j.val + 1) (p : Fin a) (q : Fin b) :
    concatenate ⟨3, ![mt, a, b]⟩ 0 [⟨⟨3, ![1, a, b]⟩, x₁⟩, ⟨⟨3, ![m, a, b]⟩, x₂⟩] h (ix3 s p q) = x₂ (ix3 j p q) :=
  concatenate_pair_apply_right (0 : Fin 3) x₁ x₂ h (ix3 s p q) rfl rfl (ix3 j p q)
    (fun e he => match e, he with | ⟨0, _⟩, he => absurd rfl he | ⟨1, _⟩, _ => rfl | ⟨2, _⟩, _ => rfl)
    hs.symm

end Layout

/-! ## A matrix against a stack of direction families: `[B, D] × [N, K, D] → [B, N, K]` -/

section Dot
variable {B D N K : ℕ}

/-- The dimension numbers "contract the left operand's columns with the right operand's last axis, no batch axis",
    over any extents; the shape conditions are the caller's fact. -/
def dotBDxNKD (B D N K : ℕ)
    (wf : DotDims.WF ⟨2, ![B, D]⟩ ⟨3, ![N, K, D]⟩ ⟨3, ![B, N, K]⟩ [1] [2] [0] [0, 1] [] []) :
    DotDims ⟨2, ![B, D]⟩ ⟨3, ![N, K, D]⟩ ⟨3, ![B, N, K]⟩ where
  lhsContracting := [1]
  rhsContracting := [2]
  lhsNonContracting := [0]
  rhsNonContracting := [0, 1]
  lhsBatch := []
  rhsBatch := []
  wf := wf

variable (wf : DotDims.WF ⟨2, ![B, D]⟩ ⟨3, ![N, K, D]⟩ ⟨3, ![B, N, K]⟩ [1] [2] [0] [0, 1] [] [])

/-- The left operand's index at output entry `(p, q, j)` and contracted coordinate `d` is `(p, d)`. -/
theorem dotBDxNKD_lhsIdx (p : Fin B) (q : Fin N) (j : Fin K) (d : Fin D) :
    (dotBDxNKD B D N K wf).lhsIdx (ix3 p q j) ((contrEquiv1 (dotBDxNKD B D N K wf) D rfl rfl).symm d) = ix2 p d := by
  have hk := contrEquiv1_symm_val (dotBDxNKD B D N K wf) D rfl rfl d
  funext ax
  apply Fin.ext
  match ax with
  | ⟨0, _⟩ => rfl
  | ⟨1, _⟩ => exact ((dotBDxNKD B D N K wf).lhsIdx_val_of_single (cl := 1) rfl _ _).trans hk

/-- The right operand's index at output entry `(p, q, j)` and contracted coordinate `d` is `(q, j, d)`. -/
theorem dotBDxNKD_rhsIdx (p : Fin B) (q : Fin N) (j : Fin K) (d : Fin D) :
    (dotBDxNKD B D N K wf).rhsIdx (ix3 p q j) ((contrEquiv1 (dotBDxNKD B D N K wf) D rfl rfl).symm d) = ix3 q j d := by
  have hk := contrEquiv1_symm_val (dotBDxNKD B D N K wf) D rfl rfl d
  funext ax
  apply Fin.ext
  match ax with
  | ⟨0, _⟩ => rfl
  | ⟨1, _⟩ => rfl
  | ⟨2, _⟩ => exact ((dotBDxNKD B D N K wf).rhsIdx_val_of_single (cr := 2) rfl _ _).trans hk

/-- The host's `dot_general` with these dimension numbers, read at `(p, q, j)`: the sum over the contracted coordinate
    of the left operand's row `p` against the right operand's fibre `(q, j)`. -/
theorem dotBDxNKD_apply {φ₁ φ₂ : FTy} (l : FVec Ideal ⟨2, ![B, D]⟩ φ₁) (r : FVec Ideal ⟨3, ![N, K, D]⟩ φ₂)
    (prec : Option ContractPrecision) (sched : HostSchedule) (p : Fin B) (q : Fin N) (j : Fin K) :
    FloatOps.dotGeneral (dotBDxNKD B D N K wf) prec sched l r (ix3 p q j) = ∑ d : Fin D, l (ix2 p d) * r (ix3 q j d) := by
  refine (Ideal.dotGeneral_apply (dotBDxNKD B D N K wf) prec sched l r (ix3 p q j)).trans ?_
  rw [← Equiv.sum_comp (contrEquiv1 (dotBDxNKD B D N K wf) D rfl rfl).symm]
  refine Finset.sum_congr rfl fun d _ => ?_
  rw [dotBDxNKD_lhsIdx, dotBDxNKD_rhsIdx]

end Dot

end Hmu.Lib
-- ==== Proof.KHost0.lean ====
/-
  The kernel program's host operations before its first launch, read at an index.

  Before the first launch the host prepares, from the centres `MU : [1024, 1024]` and the directions
  `V : [1024, 4, 1024]` (each first rounded to the narrow format and widened back, which on the extended reals changes
  nothing): the stack `[5, 1024, 1024]` whose slab 0 is the transposed centres and whose slabs 1 to 4 are the four
  direction families with the unit axis moved last; each centre's squared norm; each direction against its unit's
  centre, transposed to `[4, 1024]`; a vector of ones and a vector of zeros (the first layer's input map is the
  identity). This module names those terms as functions of the two arrays, reads each at an index, and shows that
  they are what the buffers hold when the first launch starts.
-/
import proofs.«161757_j49520972923445_2_alg».proof.Proof.Gen.KernelIdeal.Frame
import proofs.«161757_j49520972923445_2_alg».proof.Proof.Spec
import proofs.«161757_j49520972923445_2_alg».proof.Proof.BlockSpec
import proofs.«161757_j49520972923445_2_alg».proof.Proof.LibHostRead

noncomputable section

namespace Cert.KernelIdeal.HostRead

open Cert.KernelIdeal Cert.KernelIdeal.Gen Idealize.ShloMosaic Idealize.ShloMosaic.ValueIdx Idealize.ShloMosaic.TcCoe
  Idealize.SL.Sem Hmu.Lib

/-! ## The prepared terms -/

/-- The parameter stack: the transposed centres on top of the four direction families, unit axis last. -/
def prepW (MU : FVec Ideal S1024x1024 .f32) (V : FVec Ideal S1024x4x1024 .f32) : FVec Ideal S5x1024x1024 .bf16 :=
  concatenate S5x1024x1024 0
    [⟨S1x1024x1024, broadcastInDim S1x1024x1024 ![1, 2] bcast_S1024x1024_S1x1024x1024_1_2
        (transpose S1024x1024 [1, 0] (truncf .bf16 MU bitsLt_bf16_f32) transposes_S1024x1024_S1024x1024_1_0)⟩,
     ⟨S4x1024x1024, transpose S4x1024x1024 [1, 2, 0] (truncf .bf16 V bitsLt_bf16_f32)
        transposes_S1024x4x1024_S4x1024x1024_1_2_0⟩]
    concatenates_S1x1024x1024_S4x1024x1024_S5x1024x1024_d0

/-- Each centre's squared norm. -/
def prepMusq (MU : FVec Ideal S1024x1024 .f32) : FVec Ideal S1024 .f32 :=
  Host.reduceAdd (mulf (extf .f32 (truncf .bf16 MU bitsLt_bf16_f32) bitsLt_bf16_f32)
      (extf .f32 (truncf .bf16 MU bitsLt_bf16_f32) bitsLt_bf16_f32))
    (constant S_ .f32 0x00000000#32) reducesTo_S1024x1024_S1024_d1 h_S_

/-- Each direction against its unit's centre, laid out direction first. -/
def prepVmu (MU : FVec Ideal S1024x1024 .f32) (V : FVec Ideal S1024x4x1024 .f32) : FVec Ideal S4x1024 .f32 :=
  transpose S4x1024 [1, 0]
    (Host.reduceAdd (mulf (extf .f32 (truncf .bf16 V bitsLt_bf16_f32) bitsLt_bf16_f32)
        (broadcastInDim S1024x4x1024 ![0, 1, 2] bcast_S1024x1x1024_S1024x4x1024_0_1_2
          (broadcastInDim S1024x1x1024 ![0, 2] bcast_S1024x1024_S1024x1x1024_0_2
            (extf .f32 (truncf .bf16 MU bitsLt_bf16_f32) bitsLt_bf16_f32))))
      (constant S_ .f32 0x00000000#32) reducesTo_S1024x4x1024_S1024x4_d2 h_S_)
    transposes_S1024x4_S4x1024_1_0

/-! ## The prepared terms at an index -/

section Read
variable (MU : FVec Ideal S1024x1024 .f32) (V : FVec Ideal S1024x4x1024 .f32)

/-- Slab 0 of the stack is the transposed centres. -/
theorem prepW_head (d n : Fin 1024) : prepW MU V (ix3 (0 : Fin 5) d n) = MU (ix2 n d) := by
  refine (concat_1ab_mab_head_apply _ _ concatenates_S1x1024x1024_S4x1024x1024_S5x1024x1024_d0 (0 : Fin 5) rfl d n).trans ?_
  refine (bcast_bk_1bk_apply _ bcast_S1024x1024_S1x1024x1024_1_2 (0 : Fin 1) d n).trans ?_
  exact transpose_ix2_apply (truncf .bf16 MU bitsLt_bf16_f32) transposes_S1024x1024_S1024x1024_1_0 d n

/-- Slab `j + 1` of the stack is direction family `j` with the unit axis last. -/
theorem prepW_tail (j : Fin 4) (s : Fin 5) (hs : s.val = j.val + 1) (d n : Fin 1024) :
    prepW MU V (ix3 s d n) = V (ix3 n j d) := by
  refine (concat_1ab_mab_tail_apply _ _ concatenates_S1x1024x1024_S4x1024x1024_S5x1024x1024_d0 s j hs d n).trans ?_
  exact transpose_ix3_120_apply (truncf .bf16 V bitsLt_bf16_f32) transposes_S1024x4x1024_S4x1024x1024_1_2_0 j d n

/-- Slab 1 is direction family 0. -/
theorem prepW_1 (d n : Fin 1024) : prepW MU V (ix3 (1 : Fin 5) d n) = V (ix3 n (0 : Fin 4) d) := prepW_tail MU V 0 1 rfl d n
/-- Slab 2 is direction family 1. -/
theorem prepW_2 (d n : Fin 1024) : prepW MU V (ix3 (2 : Fin 5) d n) = V (ix3 n (1 : Fin 4) d) := prepW_tail MU V 1 2 rfl d n
/-- Slab 3 is direction family 2. -/
theorem prepW_3 (d n : Fin 1024) : prepW MU V (ix3 (3 : Fin 5) d n) = V (ix3 n (2 : Fin 4) d) := prepW_tail MU V 2 3 rfl d n
/-- Slab 4 is direction family 3. -/
theorem prepW_4 (d n : Fin 1024) : prepW MU V (ix3 (4 : Fin 5) d n) = V (ix3 n (3 : Fin 4) d) := prepW_tail MU V 3 4 rfl d n

/-- A centre's squared norm is the sum of its squared entries. -/
theorem prepMusq_apply (n : Fin 1024) : prepMusq MU (ix1 n) = Hmu.musq MU n :=
  hostReduceAdd_ab_axis1_apply _ reducesTo_S1024x1024_S1024_d1 h_S_ n

/-- A direction against its unit's centre. -/
theorem prepVmu_apply (j : Fin 4) (n : Fin 1024) : prepVmu MU V (ix2 j n) = Hmu.vmu MU V n j := by
  refine (transpose_ix2_apply _ transposes_S1024x4_S4x1024_1_0 j n).trans ?_
  refine (hostReduceAdd_abc_axis2_apply _ reducesTo_S1024x4x1024_S1024x4_d2 h_S_ n j).trans ?_
  refine Finset.sum_congr rfl fun d _ => ?_
  show V (ix3 n j d) * _ = V (ix3 n j d) * MU (ix2 n d)
  exact congrArg (V (ix3 n j d) * ·)
    (bcastMiddle_apply _ bcast_S1024x1024_S1024x1x1024_0_2 bcast_S1024x1x1024_S1024x4x1024_0_1_2 n j d)

end Read

/-! ## What the buffers hold when the first launch starts -/

section Entry
variable (m : (ℓ : Loc nD τ sig) → Buf (Elt Ideal) ℓ) (ρ : Dev nD → PrngReg) (c : Dev nD)

/-- The stack buffer holds the stack of the launch's centres and directions. -/
theorem V1_main_v14 : (V1 m ρ c main_v14 : S5x1024x1024.Idx → EReal)
    = prepW (m ((c : Thread nD τ).loc main_arg1)) (m ((c : Thread nD τ).loc main_arg3)) := by
  show StableHlo.after (hostOps0 (F := Ideal)) (W0 m ρ c) (Proc.devRef .tc main_v14) = _
  dsimp only [hostOps0]
  after_results
  rfl

/-- The squared norms' buffer. -/
theorem V1_main_v5 : (V1 m ρ c main_v5 : S1024.Idx → EReal) = prepMusq (m ((c : Thread nD τ).loc main_arg1)) := by
  show StableHlo.after (hostOps0 (F := Ideal)) (W0 m ρ c) (Proc.devRef .tc main_v5) = _
  dsimp only [hostOps0]
  after_results
  rfl

/-- The directions-against-centres buffer. -/
theorem V1_main_v10 : (V1 m ρ c main_v10 : S4x1024.Idx → EReal)
    = prepVmu (m ((c : Thread nD τ).loc main_arg1)) (m ((c : Thread nD τ).loc main_arg3)) := by
  show StableHlo.after (hostOps0 (F := Ideal)) (W0 m ρ c) (Proc.devRef .tc main_v10) = _
  dsimp only [hostOps0]
  after_results
  rfl

/-- The first layer's scale is one everywhere. -/
theorem V1_main_v15 : (V1 m ρ c main_v15 : S1024.Idx → EReal) = fun _ => Hmu.one := by
  show StableHlo.after (hostOps0 (F := Ideal)) (W0 m ρ c) (Proc.devRef .tc main_v15) = _
  dsimp only [hostOps0]
  after_results
  exact funext fun j => bcast_const_apply 0x3F800000#32 bcast_S_S1024 j

/-- The first layer's shift is zero everywhere. -/
theorem V1_main_v16 : (V1 m ρ c main_v16 : S1024.Idx → EReal) = fun _ => (0 : EReal) := by
  show StableHlo.after (hostOps0 (F := Ideal)) (W0 m ρ c) (Proc.devRef .tc main_v16) = _
  dsimp only [hostOps0]
  after_results
  exact funext fun j => (bcast_const_apply 0x00000000#32 bcast_S_S1024 j).trans Ideal.ofBits_zero_f32

/-- The batch is as launched. -/
theorem V1_main_arg0 : V1 m ρ c main_arg0 = m ((c : Thread nD τ).loc main_arg0) := by
  show StableHlo.after (hostOps0 (F := Ideal)) (W0 m ρ c) (Proc.devRef .tc main_arg0) = _
  dsimp only [hostOps0]
  after_results

/-- The first layer's rates are as launched. -/
theorem V1_main_arg2 : V1 m ρ c main_arg2 = m ((c : Thread nD τ).loc main_arg2) := by
  show StableHlo.after (hostOps0 (F := Ideal)) (W0 m ρ c) (Proc.devRef .tc main_arg2) = _
  dsimp only [hostOps0]
  after_results

end Entry

end Cert.KernelIdeal.HostRead

end
-- ==== Proof.KHost1.lean ====
/-
  The kernel program's host operations between its two launches, read at an index.

  Between the launches the host takes the first launch's output `Y : [4096, 1024]` and forms, per column, the mean,
  the floored variance's reciprocal square root, the scale `istd * g` and the shift `beta - mean * (istd * g)` that
  the second launch applies to its input tile; and from the second layer's centres and directions it prepares the same
  stack, squared norms and directions-against-centres as before the first launch. This module names the scale and
  shift as functions of `Y` and the two parameter vectors, identifies them with the specification's fused scale and
  shift, and shows what the buffers hold when the second launch starts.
-/
import proofs.«161757_j49520972923445_2_alg».proof.Proof.KHost0

noncomputable section

namespace Cert.KernelIdeal.HostRead

open Cert.KernelIdeal Cert.KernelIdeal.Gen Idealize.ShloMosaic Idealize.ShloMosaic.ValueIdx Idealize.ShloMosaic.TcCoe
  Idealize.SL.Sem Hmu.Lib

/-! ## The batch statistics' text -/

/-- Each column's mean over the batch. -/
def meanK (Y : FVec Ideal S4096x1024 .f32) : FVec Ideal S1024 .f32 :=
  Host.divf (Host.reduceAdd Y (constant S_ .f32 0x00000000#32) reducesTo_S4096x1024_S1024_d0 h_S_)
    (broadcastInDim S1024 ![] bcast_S_S1024 (constant S_ .f32 0x45800000#32))

/-- The output less its column's mean. -/
def centK (Y : FVec Ideal S4096x1024 .f32) : FVec Ideal S4096x1024 .f32 :=
  subf Y (broadcastInDim S4096x1024 ![0, 1] bcast_S1x1024_S4096x1024_0_1
    (broadcastInDim S1x1024 ![1] bcast_S1024_S1x1024_1 (meanK Y)))

/-- Each column's reciprocal standard deviation, the variance floored. -/
def istdK (Y : FVec Ideal S4096x1024 .f32) : FVec Ideal S1024 .f32 :=
  Host.rsqrt (addf
    (Host.divf (Host.reduceAdd (mulf (centK Y) (centK Y)) (constant S_ .f32 0x00000000#32) reducesTo_S4096x1024_S1024_d0 h_S_)
      (broadcastInDim S1024 ![] bcast_S_S1024 (constant S_ .f32 0x45800000#32)))
    (broadcastInDim S1024 ![] bcast_S_S1024 (constant S_ .f32 0x3727C5AC#32)))

/-- The scale the second launch applies: the reciprocal deviation times the gain. -/
def scaleK (Y : FVec Ideal S4096x1024 .f32) (G : FVec Ideal S1024 .f32) : FVec Ideal S1024 .f32 := mulf (istdK Y) G

/-- The shift the second launch applies: the offset less the mean times the scale. -/
def shiftK (Y : FVec Ideal S4096x1024 .f32) (G B : FVec Ideal S1024 .f32) : FVec Ideal S1024 .f32 :=
  subf B (mulf (meanK Y) (scaleK Y G))

section Stats
variable (Y : FVec Ideal S4096x1024 .f32) (G B : FVec Ideal S1024 .f32)

/-- A column's mean is its sum over the batch size. -/
theorem meanK_apply (n : Fin 1024) : meanK Y (ix1 n) = Hmu.colMean Y n := by
  show Ideal.div (Host.reduceAdd Y (constant S_ .f32 0x00000000#32) reducesTo_S4096x1024_S1024_d0 h_S_ (ix1 n))
    (broadcastInDim S1024 ![] bcast_S_S1024 (constant (F := Ideal) S_ .f32 0x45800000#32) (ix1 n)) = _
  rw [hostReduceAdd_ab_axis0_apply, bcast_const_apply]
  rfl

/-- The centred output at an entry. -/
theorem centK_apply (p : Fin 4096) (n : Fin 1024) : centK Y (ix2 p n) = Y (ix2 p n) - Hmu.colMean Y n := by
  show Y (ix2 p n) - broadcastInDim S4096x1024 ![0, 1] bcast_S1x1024_S4096x1024_0_1
    (broadcastInDim S1x1024 ![1] bcast_S1024_S1x1024_1 (meanK Y)) (ix2 p n) = _
  rw [bcastCols_apply, meanK_apply]

/-- A column's reciprocal standard deviation. -/
theorem istdK_apply (n : Fin 1024) : istdK Y (ix1 n) = Hmu.istd Y n := by
  show Ideal.rsqrt (Ideal.div
      (Host.reduceAdd (mulf (centK Y) (centK Y)) (constant S_ .f32 0x00000000#32) reducesTo_S4096x1024_S1024_d0 h_S_ (ix1 n))
      (broadcastInDim S1024 ![] bcast_S_S1024 (constant (F := Ideal) S_ .f32 0x45800000#32) (ix1 n))
    + broadcastInDim S1024 ![] bcast_S_S1024 (constant (F := Ideal) S_ .f32 0x3727C5AC#32) (ix1 n)) = _
  rw [hostReduceAdd_ab_axis0_apply, bcast_const_apply, bcast_const_apply]
  have hs : ∑ r : Fin 4096, mulf (centK Y) (centK Y) (ix2 r n)
      = ∑ r : Fin 4096, (Y (ix2 r n) - Hmu.colMean Y n) * (Y (ix2 r n) - Hmu.colMean Y n) :=
    Finset.sum_congr rfl fun r _ => by rw [mulf_apply, centK_apply]
  rw [hs]
  rfl

/-- The scale's text is the specification's fused scale. -/
theorem scaleK_eq : scaleK Y G = Hmu.fusedScale Y G := by
  funext j
  obtain ⟨n, rfl⟩ : ∃ n, j = ix1 n := ⟨j 0, eq_ix1 j⟩
  show istdK Y (ix1 n) * G (ix1 n) = Hmu.istd Y n * G (ix1 n)
  rw [istdK_apply]

/-- The shift's text is the specification's fused shift. -/
theorem shiftK_eq : shiftK Y G B = Hmu.fusedShift Y G B := by
  funext j
  obtain ⟨n, rfl⟩ : ∃ n, j = ix1 n := ⟨j 0, eq_ix1 j⟩
  show B (ix1 n) - meanK Y (ix1 n) * scaleK Y G (ix1 n) = B (ix1 n) - Hmu.colMean Y n * Hmu.fusedScale Y G (ix1 n)
  rw [meanK_apply, scaleK_eq]

end Stats

/-! ## The launch's arrays, unchanged up to the second launch -/

section Entry
variable (m : (ℓ : Loc nD τ sig) → Buf (Elt Ideal) ℓ) (ρ : Dev nD → PrngReg) (c : Dev nD)

/-- The gain is as launched when the first launch ends. -/
theorem W2_main_arg4 : W2 m ρ c (Proc.devRef .tc main_arg4) = m ((c : Thread nD τ).loc main_arg4) := by
  refine (W2_of_ne m ρ c main_arg4 (by decide)).trans ?_
  show StableHlo.after (hostOps0 (F := Ideal)) (W0 m ρ c) (Proc.devRef .tc main_arg4) = _
  dsimp only [hostOps0]
  after_results

/-- The offset likewise. -/
theorem W2_main_arg5 : W2 m ρ c (Proc.devRef .tc main_arg5) = m ((c : Thread nD τ).loc main_arg5) := by
  refine (W2_of_ne m ρ c main_arg5 (by decide)).trans ?_
  show StableHlo.after (hostOps0 (F := Ideal)) (W0 m ρ c) (Proc.devRef .tc main_arg5) = _
  dsimp only [hostOps0]
  after_results

/-- The second layer's centres likewise. -/
theorem W2_main_arg6 : W2 m ρ c (Proc.devRef .tc main_arg6) = m ((c : Thread nD τ).loc main_arg6) := by
  refine (W2_of_ne m ρ c main_arg6 (by decide)).trans ?_
  show StableHlo.after (hostOps0 (F := Ideal)) (W0 m ρ c) (Proc.devRef .tc main_arg6) = _
  dsimp only [hostOps0]
  after_results

/-- The second layer's rates likewise. -/
theorem W2_main_arg7 : W2 m ρ c (Proc.devRef .tc main_arg7) = m ((c : Thread nD τ).loc main_arg7) := by
  refine (W2_of_ne m ρ c main_arg7 (by decide)).trans ?_
  show StableHlo.after (hostOps0 (F := Ideal)) (W0 m ρ c) (Proc.devRef .tc main_arg7) = _
  dsimp only [hostOps0]
  after_results

/-- The second layer's directions likewise. -/
theorem W2_main_arg8 : W2 m ρ c (Proc.devRef .tc main_arg8) = m ((c : Thread nD τ).loc main_arg8) := by
  refine (W2_of_ne m ρ c main_arg8 (by decide)).trans ?_
  show StableHlo.after (hostOps0 (F := Ideal)) (W0 m ρ c) (Proc.devRef .tc main_arg8) = _
  dsimp only [hostOps0]
  after_results

/-! ## What the buffers hold when the second launch starts -/

/-- The first launch's output is untouched by the host operations between the launches. -/
theorem V3_main_v17 : V3 m ρ c main_v17 = W2 m ρ c (Proc.devRef .tc main_v17) := by
  show StableHlo.after (hostOps1 (F := Ideal)) (W2 m ρ c) (Proc.devRef .tc main_v17) = _
  dsimp only [hostOps1]
  after_results

/-- The second layer's rates are as launched. -/
theorem V3_main_arg7 : V3 m ρ c main_arg7 = m ((c : Thread nD τ).loc main_arg7) := by
  refine Eq.trans ?_ (W2_main_arg7 m ρ c)
  show StableHlo.after (hostOps1 (F := Ideal)) (W2 m ρ c) (Proc.devRef .tc main_arg7) = _
  dsimp only [hostOps1]
  after_results

/-- The scale buffer holds the specification's fused scale of the first launch's output and the launch's gain. -/
theorem V3_main_v31 : (V3 m ρ c main_v31 : S1024.Idx → EReal)
    = Hmu.fusedScale (W2 m ρ c (Proc.devRef .tc main_v17)) (m ((c : Thread nD τ).loc main_arg4)) := by
  refine Eq.trans ?_ ((congrArg (scaleK (W2 m ρ c (Proc.devRef .tc main_v17))) (W2_main_arg4 m ρ c)).trans (scaleK_eq _ _))
  show StableHlo.after (hostOps1 (F := Ideal)) (W2 m ρ c) (Proc.devRef .tc main_v31) = _
  dsimp only [hostOps1]
  after_results_simp <;> rfl

/-- The shift buffer holds the specification's fused shift. -/
theorem V3_main_v33 : (V3 m ρ c main_v33 : S1024.Idx → EReal)
    = Hmu.fusedShift (W2 m ρ c (Proc.devRef .tc main_v17)) (m ((c : Thread nD τ).loc main_arg4))
        (m ((c : Thread nD τ).loc main_arg5)) := by
  have e : shiftK (W2 m ρ c (Proc.devRef .tc main_v17)) (W2 m ρ c (Proc.devRef .tc main_arg4))
      (W2 m ρ c (Proc.devRef .tc main_arg5))
      = Hmu.fusedShift (W2 m ρ c (Proc.devRef .tc main_v17)) (m ((c : Thread nD τ).loc main_arg4))
        (m ((c : Thread nD τ).loc main_arg5)) := by
    rw [W2_main_arg4, W2_main_arg5, shiftK_eq]
  refine Eq.trans ?_ e
  show StableHlo.after (hostOps1 (F := Ideal)) (W2 m ρ c) (Proc.devRef .tc main_v33) = _
  dsimp only [hostOps1]
  after_results_simp <;> rfl

/-- The stack buffer holds the stack of the second layer's centres and directions. -/
theorem V3_main_v48 : (V3 m ρ c main_v48 : S5x1024x1024.Idx → EReal)
    = prepW (m ((c : Thread nD τ).loc main_arg6)) (m ((c : Thread nD τ).loc main_arg8)) := by
  have e : prepW (W2 m ρ c (Proc.devRef .tc main_arg6)) (W2 m ρ c (Proc.devRef .tc main_arg8))
      = prepW (m ((c : Thread nD τ).loc main_arg6)) (m ((c : Thread nD τ).loc main_arg8)) := by
    rw [W2_main_arg6, W2_main_arg8]
  refine Eq.trans ?_ e
  show StableHlo.after (hostOps1 (F := Ideal)) (W2 m ρ c) (Proc.devRef .tc main_v48) = _
  dsimp only [hostOps1]
  after_results_simp <;> rfl

/-- The squared norms' buffer. -/
theorem V3_main_v39 : (V3 m ρ c main_v39 : S1024.Idx → EReal) = prepMusq (m ((c : Thread nD τ).loc main_arg6)) := by
  refine Eq.trans ?_ (congrArg prepMusq (W2_main_arg6 m ρ c))
  show StableHlo.after (hostOps1 (F := Ideal)) (W2 m ρ c) (Proc.devRef .tc main_v39) = _
  dsimp only [hostOps1]
  after_results_simp <;> rfl

/-- The directions-against-centres buffer. -/
theorem V3_main_v44 : (V3 m ρ c main_v44 : S4x1024.Idx → EReal)
    = prepVmu (m ((c : Thread nD τ).loc main_arg6)) (m ((c : Thread nD τ).loc main_arg8)) := by
  have e : prepVmu (W2 m ρ c (Proc.devRef .tc main_arg6)) (W2 m ρ c (Proc.devRef .tc main_arg8))
      = prepVmu (m ((c : Thread nD τ).loc main_arg6)) (m ((c : Thread nD τ).loc main_arg8)) := by
    rw [W2_main_arg6, W2_main_arg8]
  refine Eq.trans ?_ e
  show StableHlo.after (hostOps1 (F := Ideal)) (W2 m ρ c) (Proc.devRef .tc main_v44) = _
  dsimp only [hostOps1]
  after_results_simp <;> rfl

end Entry

end Cert.KernelIdeal.HostRead

end
-- ==== Proof.KHost2.lean ====
/-
  The kernel program's host operations after its second launch, read at an index.

  After the second launch the host normalises the second layer's output over the batch axis and adds the batch back:
  each column's mean (the column's sum over 4096); the output less its column's mean; each column's variance (the
  squares of the centred output, summed, over 4096); the reciprocal square root of the variance plus the floor; the
  centred output (spelt a second time) times that, times the gain, plus the shift; plus the batch. This module names
  that text as a function of the arrays it reads, reads each piece at an index — a one-axis sum is a finite sum, a
  broadcast reads the coordinate it keeps — and so identifies it with the specification's normalisation plus the
  batch. The gain, the shift and the batch are still the launch's arrays at that point: no host operation and no
  launch writes an argument.
-/
import proofs.«161757_j49520972923445_2_alg».proof.Proof.Gen.KernelIdeal.Frame
import proofs.«161757_j49520972923445_2_alg».proof.Proof.Spec
import proofs.«161757_j49520972923445_2_alg».proof.Proof.LibHostRead

noncomputable section

namespace Cert.KernelIdeal.HostRead2

open Cert.KernelIdeal Cert.KernelIdeal.Gen Idealize.ShloMosaic Idealize.ShloMosaic.ValueIdx Idealize.ShloMosaic.TcCoe
  Idealize.SL.Sem Hmu.Lib

/-! ## The normalisation's text, piece by piece -/

/-- Each column's mean over the batch. -/
def meanT (Y : FVec Ideal S4096x1024 .f32) : FVec Ideal S1024 .f32 :=
  Host.divf (Host.reduceAdd Y (constant S_ .f32 0x00000000#32) reducesTo_S4096x1024_S1024_d0 h_S_)
    (broadcastInDim S1024 ![] bcast_S_S1024 (constant S_ .f32 0x45800000#32))

/-- The output less its column's mean. -/
def centT (Y : FVec Ideal S4096x1024 .f32) : FVec Ideal S4096x1024 .f32 :=
  subf Y (broadcastInDim S4096x1024 ![0, 1] bcast_S1x1024_S4096x1024_0_1
    (broadcastInDim S1x1024 ![1] bcast_S1024_S1x1024_1 (meanT Y)))

/-- Each column's reciprocal standard deviation, the variance floored. -/
def istdT (Y : FVec Ideal S4096x1024 .f32) : FVec Ideal S1024 .f32 :=
  Host.rsqrt (addf
    (Host.divf (Host.reduceAdd (mulf (centT Y) (centT Y)) (constant S_ .f32 0x00000000#32) reducesTo_S4096x1024_S1024_d0 h_S_)
      (broadcastInDim S1024 ![] bcast_S_S1024 (constant S_ .f32 0x45800000#32)))
    (broadcastInDim S1024 ![] bcast_S_S1024 (constant S_ .f32 0x3727C5AC#32)))

/-- The normalisation: centred, scaled by the reciprocal deviation and the gain, shifted. -/
def bnT (Y : FVec Ideal S4096x1024 .f32) (G B : FVec Ideal S1024 .f32) : FVec Ideal S4096x1024 .f32 :=
  addf (mulf (mulf (centT Y)
      (broadcastInDim S4096x1024 ![0, 1] bcast_S1x1024_S4096x1024_0_1
        (broadcastInDim S1x1024 ![1] bcast_S1024_S1x1024_1 (istdT Y))))
    (broadcastInDim S4096x1024 ![0, 1] bcast_S1x1024_S4096x1024_0_1 (broadcastInDim S1x1024 ![1] bcast_S1024_S1x1024_1 G)))
    (broadcastInDim S4096x1024 ![0, 1] bcast_S1x1024_S4096x1024_0_1 (broadcastInDim S1x1024 ![1] bcast_S1024_S1x1024_1 B))

/-! ## The pieces at an index -/

section Norm
variable (Y : FVec Ideal S4096x1024 .f32) (G B : FVec Ideal S1024 .f32)

/-- A column's mean is its sum over the batch size. -/
theorem meanT_apply (n : Fin 1024) : meanT Y (ix1 n) = Hmu.colMean Y n := by
  show Ideal.div (Host.reduceAdd Y (constant S_ .f32 0x00000000#32) reducesTo_S4096x1024_S1024_d0 h_S_ (ix1 n))
    (broadcastInDim S1024 ![] bcast_S_S1024 (constant (F := Ideal) S_ .f32 0x45800000#32) (ix1 n)) = _
  rw [hostReduceAdd_ab_axis0_apply, bcast_const_apply]
  rfl

/-- The centred output at an entry. -/
theorem centT_apply (p : Fin 4096) (n : Fin 1024) : centT Y (ix2 p n) = Y (ix2 p n) - Hmu.colMean Y n := by
  show Y (ix2 p n) - broadcastInDim S4096x1024 ![0, 1] bcast_S1x1024_S4096x1024_0_1
    (broadcastInDim S1x1024 ![1] bcast_S1024_S1x1024_1 (meanT Y)) (ix2 p n) = _
  rw [bcastCols_apply, meanT_apply]

/-- A column's reciprocal standard deviation. -/
theorem istdT_apply (n : Fin 1024) : istdT Y (ix1 n) = Hmu.istd Y n := by
  show Ideal.rsqrt (Ideal.div
      (Host.reduceAdd (mulf (centT Y) (centT Y)) (constant S_ .f32 0x00000000#32) reducesTo_S4096x1024_S1024_d0 h_S_ (ix1 n))
      (broadcastInDim S1024 ![] bcast_S_S1024 (constant (F := Ideal) S_ .f32 0x45800000#32) (ix1 n))
    + broadcastInDim S1024 ![] bcast_S_S1024 (constant (F := Ideal) S_ .f32 0x3727C5AC#32) (ix1 n)) = _
  rw [hostReduceAdd_ab_axis0_apply, bcast_const_apply, bcast_const_apply]
  have hs : ∑ r : Fin 4096, mulf (centT Y) (centT Y) (ix2 r n)
      = ∑ r : Fin 4096, (Y (ix2 r n) - Hmu.colMean Y n) * (Y (ix2 r n) - Hmu.colMean Y n) :=
    Finset.sum_congr rfl fun r _ => by rw [mulf_apply, centT_apply]
  rw [hs]
  rfl

/-- The normalisation at an entry. -/
theorem bnT_apply (p : Fin 4096) (n : Fin 1024) :
    bnT Y G B (ix2 p n) = ((Y (ix2 p n) - Hmu.colMean Y n) * Hmu.istd Y n) * G (ix1 n) + B (ix1 n) := by
  show (centT Y (ix2 p n)
        * broadcastInDim S4096x1024 ![0, 1] bcast_S1x1024_S4096x1024_0_1
            (broadcastInDim S1x1024 ![1] bcast_S1024_S1x1024_1 (istdT Y)) (ix2 p n))
      * broadcastInDim S4096x1024 ![0, 1] bcast_S1x1024_S4096x1024_0_1
          (broadcastInDim S1x1024 ![1] bcast_S1024_S1x1024_1 G) (ix2 p n)
    + broadcastInDim S4096x1024 ![0, 1] bcast_S1x1024_S4096x1024_0_1
        (broadcastInDim S1x1024 ![1] bcast_S1024_S1x1024_1 B) (ix2 p n) = _
  rw [bcastCols_apply, bcastCols_apply, bcastCols_apply, centT_apply, istdT_apply]

/-- The normalisation's text is the specification's normalisation. -/
theorem bnT_eq : bnT Y G B = Hmu.bn Y G B := by
  funext i
  obtain ⟨p, n, rfl⟩ : ∃ p n, i = ix2 p n := ⟨i 0, i 1, eq_ix2 i⟩
  exact bnT_apply Y G B p n

end Norm

/-! ## What the result buffer holds when the program returns -/

section Exit
variable (m : (ℓ : Loc nD τ sig) → Buf (Elt Ideal) ℓ) (ρ : Dev nD → PrngReg) (c : Dev nD)

/-- The result buffer holds the normalisation's text of the second launch's output, the gain and the shift, plus the
    batch, each as the buffers stand after the second launch. -/
theorem W5_main_v75 : (W5 m ρ c (Proc.devRef .tc main_v75) : S4096x1024.Idx → EReal)
    = addf (bnT (W4 m ρ c (Proc.devRef .tc main_v49)) (W4 m ρ c (Proc.devRef .tc main_arg9))
        (W4 m ρ c (Proc.devRef .tc main_arg10))) (W4 m ρ c (Proc.devRef .tc main_arg0)) := by
  show StableHlo.after (hostOps2 (F := Ideal)) (W4 m ρ c) (Proc.devRef .tc main_v75) = _
  dsimp only [hostOps2]
  after_results_simp
  rfl

/-- The last host stretch leaves the gain's buffer alone, … -/
theorem W5_eq_W4_main_arg9 : W5 m ρ c (Proc.devRef .tc main_arg9) = W4 m ρ c (Proc.devRef .tc main_arg9) := by
  show StableHlo.after (hostOps2 (F := Ideal)) (W4 m ρ c) (Proc.devRef .tc main_arg9) = _
  dsimp only [hostOps2]
  after_results_simp <;> rfl

/-- … the shift's, … -/
theorem W5_eq_W4_main_arg10 : W5 m ρ c (Proc.devRef .tc main_arg10) = W4 m ρ c (Proc.devRef .tc main_arg10) := by
  show StableHlo.after (hostOps2 (F := Ideal)) (W4 m ρ c) (Proc.devRef .tc main_arg10) = _
  dsimp only [hostOps2]
  after_results_simp <;> rfl

/-- … and the batch's. -/
theorem W5_eq_W4_main_arg0 : W5 m ρ c (Proc.devRef .tc main_arg0) = W4 m ρ c (Proc.devRef .tc main_arg0) := by
  show StableHlo.after (hostOps2 (F := Ideal)) (W4 m ρ c) (Proc.devRef .tc main_arg0) = _
  dsimp only [hostOps2]
  after_results_simp <;> rfl

/-- After the second launch the gain is as launched. -/
theorem W4_main_arg9 : W4 m ρ c (Proc.devRef .tc main_arg9) = m ((c : Thread nD τ).loc main_arg9) :=
  (W5_eq_W4_main_arg9 m ρ c).symm.trans (W5_main_arg9 m ρ c)

/-- After the second launch the shift is as launched. -/
theorem W4_main_arg10 : W4 m ρ c (Proc.devRef .tc main_arg10) = m ((c : Thread nD τ).loc main_arg10) :=
  (W5_eq_W4_main_arg10 m ρ c).symm.trans (W5_main_arg10 m ρ c)

/-- After the second launch the batch is as launched. -/
theorem W4_main_arg0 : W4 m ρ c (Proc.devRef .tc main_arg0) = m ((c : Thread nD τ).loc main_arg0) :=
  (W5_eq_W4_main_arg0 m ρ c).symm.trans (W5_main_arg0 m ρ c)

/-- The result buffer holds the normalisation of the second launch's output by the launch's gain and shift, plus the
    launch's batch. -/
theorem tail_eq : (W5 m ρ c (Proc.devRef .tc main_v75) : Hmu.Sbd.Idx → EReal)
    = fun i => Hmu.bn (W4 m ρ c (Proc.devRef .tc main_v49)) (m ((c : Thread nD τ).loc main_arg9))
        (m ((c : Thread nD τ).loc main_arg10)) i + m ((c : Thread nD τ).loc main_arg0) i := by
  refine (W5_main_v75 m ρ c).trans ?_
  rw [W4_main_arg9 m ρ c, W4_main_arg10 m ρ c, W4_main_arg0 m ρ c, bnT_eq]
  rfl

end Exit

end Cert.KernelIdeal.HostRead2

end
-- ==== Proof.Body0.lean ====
/-
  What the body of the first launch leaves in its output tile, read entry by entry.

  The body maps its input tile by `x * s + t`, takes the row sums of the squares, multiplies the mapped tile with slab 0
  of the stack (the centres) and with slabs 1 to 4 (the directions), subtracts from each of the four products the
  matching row of the `[4, 1024]` block, squares, adds the four squares one after another to `lam * (‖u‖² - 2 u·mu + ‖mu‖²)`,
  subtracts the total from zero, multiplies by `2⁻¹⁰` and exponentiates. Every reduction is an exact sum here and every
  change of format the identity, so the stored tile is the function `Hmu.tileOut` of the loaded blocks.
-/
import proofs.«161757_j49520972923445_2_alg».proof.Proof.Gen.KernelIdeal.Frame
import proofs.«161757_j49520972923445_2_alg».proof.Proof.BlockSpec
import proofs.«161757_j49520972923445_2_alg».proof.Proof.LibTileOps
import proofs.«161757_j49520972923445_2_alg».proof.Proof.LibPlainDot

noncomputable section

namespace Cert.KernelIdeal.Body0

open Idealize.ShloMosaic Idealize.ShloMosaic.ValueIdx Cert.KernelIdeal Cert.KernelIdeal.Gen

theorem hz2 : (![0, 0] : Fin 2 → Nat) = fun _ => 0 := funext fun a => by fin_cases a <;> rfl
theorem hz1 : (![0] : Fin 1 → Nat) = fun _ => 0 := funext fun a => by fin_cases a; rfl

/-- The mapped tile against one loaded slab: row `r` against column `n`. -/
def slabSum (u : Hmu.Stile.Idx → EReal) (v : S1x1024x1024.Idx → EReal) (r : Fin 512) (n : Fin 1024) : EReal :=
  ∑ d : Fin 1024, u (ix2 r d) * v (ix3 (0 : Fin 1) d n)

/-- The matrix unit, accumulating into zero, of a tile with a loaded slab recast to a matrix. -/
theorem slabDot_apply (u : FVec Ideal S512x1024 .bf16) (v : FVec Ideal S1x1024x1024 .bf16) (r : Fin 512) (n : Fin 1024) :
    matmul dot_S512x1024_S1024x1024_S512x1024_1_0_0_1_n_n none u (shapeCast S1024x1024 v shapeCasts_S1x1024x1024_S1024x1024)
        (constant S512x1024 .f32 0x00000000#32) (ix2 r n)
      = slabSum u v r n := by
  refine (Gcn.Lib.plain_matmul_zero_apply (M := 512) (K := 1024) (N := 1024) u
    (shapeCast S1024x1024 v shapeCasts_S1x1024x1024_S1024x1024) none r n).trans ?_
  exact Finset.sum_congr rfl fun d _ =>
    congrArg (u (ix2 r d) * ·) (shapeCast_1ab_ab_apply v shapeCasts_S1x1024x1024_S1024x1024 d n)

/-- The mapped tile: `x * s + t`, `s` and `t` broadcast down the rows. -/
theorem pay2_eq (v0 : Vec Ideal S512x1024 .f32) (v1 v4 : Vec Ideal S1024 .f32) :
    (k0_pay2 (F := Ideal) v0 v1 v4 : Hmu.Stile.Idx → EReal) = Hmu.tileIn v0 v1 v4 := by
  funext i
  obtain ⟨r, d, rfl⟩ : ∃ (r : Fin 512) (d : Fin 1024), i = ix2 r d := ⟨i 0, i 1, eq_ix2 i⟩
  show v0 (ix2 r d) * (broadcastTo S512x1024 (shapeCast S1x1024 (shapeCast S1024 v1 shapeCasts_S1024_S1024) shapeCasts_S1024_S1x1024) broadcasts_S1x1024_S512x1024 (ix2 r d))
     + (broadcastTo S512x1024 (shapeCast S1x1024 (shapeCast S1024 v4 shapeCasts_S1024_S1024) shapeCasts_S1024_S1x1024) broadcasts_S1x1024_S512x1024 (ix2 r d))
     = v0 (ix2 r d) * v1 (ix1 d) + v4 (ix1 d)
  rw [Hmu.Lib.rowVec_self_apply, Hmu.Lib.rowVec_self_apply]

/-- The narrowed copy the matrix unit reads is the same tile. -/
theorem pay3_eq (v0 : Vec Ideal S512x1024 .f32) (v1 v4 : Vec Ideal S1024 .f32) :
    (k0_pay3 (F := Ideal) v0 v1 v4 : Hmu.Stile.Idx → EReal) = Hmu.tileIn v0 v1 v4 :=
  pay2_eq v0 v1 v4

/-- The first summand: `lam * ((‖u_r‖² - 2 * (u_r · slab)) + msq)`. -/
theorem pay4_apply (v0 : Vec Ideal S512x1024 .f32) (v1 v4 : Vec Ideal S1024 .f32) (v15 : FVec Ideal S1x1024x1024 .bf16)
    (v18 v21 : Vec Ideal S1024 .f32) (r : Fin 512) (n : Fin 1024) :
    k0_pay4 (F := Ideal) v0 v1 v4 v15 v18 v21 (ix2 r n)
      = v21 (ix1 n) * ((Hmu.tileSq (Hmu.tileIn v0 v1 v4) r - Hmu.two * slabSum (Hmu.tileIn v0 v1 v4) v15 r n) + v18 (ix1 n)) := by
  show (broadcastTo S512x1024 (shapeCast S1x1024 v21 shapeCasts_S1024_S1x1024) broadcasts_S1x1024_S512x1024 (ix2 r n))
      * (((broadcastTo S512x1024 (shapeCast S512x1 (multiReduction .add [1] S512 (mulf (k0_pay2 (F := Ideal) v0 v1 v4) (k0_pay2 (F := Ideal) v0 v1 v4)) 0x00000000#32 reduces_S512x1024_S512 (.inl rfl) rfl) shapeCasts_S512_S512x1) broadcasts_S512x1_S512x1024 (ix2 r n))
          - Ideal.ofBits .f32 0x40000000#32 * (matmul dot_S512x1024_S1024x1024_S512x1024_1_0_0_1_n_n none (k0_pay3 (F := Ideal) v0 v1 v4) (shapeCast S1024x1024 v15 shapeCasts_S1x1024x1024_S1024x1024) (constant S512x1024 .f32 0x00000000#32) (ix2 r n)))
         + (broadcastTo S512x1024 (shapeCast S1x1024 (shapeCast S1024 v18 shapeCasts_S1024_S1024) shapeCasts_S1024_S1x1024) broadcasts_S1x1024_S512x1024 (ix2 r n)))
      = _
  rw [Hmu.Lib.rowVec_apply, Hmu.Lib.rowVec_self_apply, slabDot_apply]
  rw [Hmu.Lib.rowSumCol_apply (mulf (k0_pay2 (F := Ideal) v0 v1 v4) (k0_pay2 (F := Ideal) v0 v1 v4)) reduces_S512x1024_S512 (.inl rfl) rfl shapeCasts_S512_S512x1 broadcasts_S512x1_S512x1024 r n]
  rw [pay3_eq]
  have e : (∑ k : Fin 1024, mulf (k0_pay2 (F := Ideal) v0 v1 v4) (k0_pay2 (F := Ideal) v0 v1 v4) (ix2 r k)) = Hmu.tileSq (Hmu.tileIn v0 v1 v4) r := by
    rw [← pay2_eq]; rfl
  rw [e]; rfl

/-- The block of four rows is loaded whole. -/
theorem pay5_eq (v31 : Vec Ideal S4x1024 .f32) : k0_pay5 (F := Ideal) v31 = v31 :=
  shapeCast_self v31 shapeCasts_S4x1024_S4x1024

/-- The first projection: the tile against its slab, less row 0 of the block. -/
theorem pay6_apply (v0 : Vec Ideal S512x1024 .f32) (v1 v4 : Vec Ideal S1024 .f32) (v31 : Vec Ideal S4x1024 .f32)
    (v33 : FVec Ideal S1x1024x1024 .bf16) (r : Fin 512) (n : Fin 1024) :
    k0_pay6 (F := Ideal) v0 v1 v4 v31 v33 (ix2 r n) = slabSum (Hmu.tileIn v0 v1 v4) v33 r n - v31 (ix2 (0 : Fin 4) n) := by
  show (matmul dot_S512x1024_S1024x1024_S512x1024_1_0_0_1_n_n none (k0_pay3 (F := Ideal) v0 v1 v4) (shapeCast S1024x1024 v33 shapeCasts_S1x1024x1024_S1024x1024) (constant S512x1024 .f32 0x00000000#32) (ix2 r n))
      - (broadcastTo S512x1024 (shapeCast S1x1024 (shapeCast S1024 (extractStridedSlice S1x1024 ![0, 0] (k0_pay5 (F := Ideal) v31) slices_S4x1024_o0_0_S1x1024) shapeCasts_S1x1024_S1024) shapeCasts_S1024_S1x1024) broadcasts_S1x1024_S512x1024 (ix2 r n))
      = _
  rw [slabDot_apply, pay3_eq, pay5_eq]
  rw [Hmu.Lib.blockRow_apply v31 0 (0 : Fin 4) rfl slices_S4x1024_o0_0_S1x1024 shapeCasts_S1x1024_S1024 shapeCasts_S1024_S1x1024 broadcasts_S1x1024_S512x1024 r n]

/-- One later projection as the body spells it: the tile against a slab, less a row of the block sliced at offset `o`. -/
def projTerm (v11 : FVec Ideal S512x1024 .bf16) (v32 : FVec Ideal S4x1024 .f32) (v : FVec Ideal S1x1024x1024 .bf16) (o : ℕ)
    (hs : S4x1024.Slices ![o, 0] S1x1024) : FVec Ideal S512x1024 .f32 :=
  subf (matmul dot_S512x1024_S1024x1024_S512x1024_1_0_0_1_n_n none v11 (shapeCast S1024x1024 v shapeCasts_S1x1024x1024_S1024x1024) (constant S512x1024 .f32 0x00000000#32))
    (broadcastTo S512x1024 (shapeCast S1x1024 (shapeCast S1024 (extractStridedSlice S1x1024 ![o, 0] v32 hs) shapeCasts_S1x1024_S1024) shapeCasts_S1024_S1x1024) broadcasts_S1x1024_S512x1024)

theorem projTerm_apply (v11 : FVec Ideal S512x1024 .bf16) (v32 : FVec Ideal S4x1024 .f32) (v : FVec Ideal S1x1024x1024 .bf16) (o : ℕ)
    (hs : S4x1024.Slices ![o, 0] S1x1024) (k : Fin 4) (hk : k.val = o) (r : Fin 512) (n : Fin 1024) :
    projTerm v11 v32 v o hs (ix2 r n) = slabSum v11 v r n - v32 (ix2 k n) := by
  show matmul dot_S512x1024_S1024x1024_S512x1024_1_0_0_1_n_n none v11 (shapeCast S1024x1024 v shapeCasts_S1x1024x1024_S1024x1024) (constant S512x1024 .f32 0x00000000#32) (ix2 r n)
      - broadcastTo S512x1024 (shapeCast S1x1024 (shapeCast S1024 (extractStridedSlice S1x1024 ![o, 0] v32 hs) shapeCasts_S1x1024_S1024) shapeCasts_S1024_S1x1024) broadcasts_S1x1024_S512x1024 (ix2 r n)
      = _
  rw [slabDot_apply, Hmu.Lib.blockRow_apply v32 o k hk hs shapeCasts_S1x1024_S1024 shapeCasts_S1024_S1x1024 broadcasts_S1x1024_S512x1024 r n]

/-- The stored value as the body spells it: the three remaining squared projections added in turn, the total subtracted
    from zero, scaled, exponentiated. -/
theorem pay1_eq (v11 : FVec Ideal S512x1024 .bf16) (v30 : FVec Ideal S512x1024 .f32) (v32 : FVec Ideal S4x1024 .f32)
    (v40 : FVec Ideal S512x1024 .f32) (v43 v53 v63 : FVec Ideal S1x1024x1024 .bf16) :
    k0_pay1 (F := Ideal) v11 v30 v32 v40 v43 v53 v63
      = exp (mulf (subf (broadcast S512x1024 (Scalar.ofBits (F := Ideal) .f32 0x00000000#32))
          (addf (addf (addf (addf v30 (mulf v40 v40))
            (mulf (projTerm v11 v32 v43 1 slices_S4x1024_o1_0_S1x1024) (projTerm v11 v32 v43 1 slices_S4x1024_o1_0_S1x1024)))
            (mulf (projTerm v11 v32 v53 2 slices_S4x1024_o2_0_S1x1024) (projTerm v11 v32 v53 2 slices_S4x1024_o2_0_S1x1024)))
            (mulf (projTerm v11 v32 v63 3 slices_S4x1024_o3_0_S1x1024) (projTerm v11 v32 v63 3 slices_S4x1024_o3_0_S1x1024))))
          (broadcast S512x1024 (Scalar.ofBits (F := Ideal) .f32 0x3A800000#32))) := rfl

/-- The stored value at an entry. -/
theorem pay1_apply (v11 : FVec Ideal S512x1024 .bf16) (v30 : FVec Ideal S512x1024 .f32) (v32 : FVec Ideal S4x1024 .f32)
    (v40 : FVec Ideal S512x1024 .f32) (v43 v53 v63 : FVec Ideal S1x1024x1024 .bf16) (r : Fin 512) (n : Fin 1024) :
    k0_pay1 (F := Ideal) v11 v30 v32 v40 v43 v53 v63 (ix2 r n)
      = Ideal.exp ((0 - ((((v30 (ix2 r n) + v40 (ix2 r n) * v40 (ix2 r n))
          + (slabSum v11 v43 r n - v32 (ix2 (1 : Fin 4) n)) * (slabSum v11 v43 r n - v32 (ix2 (1 : Fin 4) n)))
          + (slabSum v11 v53 r n - v32 (ix2 (2 : Fin 4) n)) * (slabSum v11 v53 r n - v32 (ix2 (2 : Fin 4) n)))
          + (slabSum v11 v63 r n - v32 (ix2 (3 : Fin 4) n)) * (slabSum v11 v63 r n - v32 (ix2 (3 : Fin 4) n)))) * Hmu.invD) := by
  rw [pay1_eq]
  show Ideal.exp ((Ideal.ofBits .f32 0x00000000#32 - ((((v30 (ix2 r n) + v40 (ix2 r n) * v40 (ix2 r n))
      + projTerm v11 v32 v43 1 slices_S4x1024_o1_0_S1x1024 (ix2 r n) * projTerm v11 v32 v43 1 slices_S4x1024_o1_0_S1x1024 (ix2 r n))
      + projTerm v11 v32 v53 2 slices_S4x1024_o2_0_S1x1024 (ix2 r n) * projTerm v11 v32 v53 2 slices_S4x1024_o2_0_S1x1024 (ix2 r n))
      + projTerm v11 v32 v63 3 slices_S4x1024_o3_0_S1x1024 (ix2 r n) * projTerm v11 v32 v63 3 slices_S4x1024_o3_0_S1x1024 (ix2 r n)))
      * Ideal.ofBits .f32 0x3A800000#32) = _
  rw [projTerm_apply v11 v32 v43 1 _ (1 : Fin 4) rfl, projTerm_apply v11 v32 v53 2 _ (2 : Fin 4) rfl,
    projTerm_apply v11 v32 v63 3 _ (3 : Fin 4) rfl, Ideal.ofBits_zero_f32]
  rfl

/-- A loaded slab of the stack against the mapped tile is the stack's slab read in place. -/
theorem slabSum_ld (u : Hmu.Stile.Idx → EReal) (x3 : Vec Ideal S5x1024x1024 .bf16) (o : ℕ) (k : Fin 5) (hk : k.val = o)
    (inb : ∀ ax, (![o, 0, 0] : Fin 3 → ℕ) ax + S1x1024x1024.size ax ≤ S5x1024x1024.size ax) (r : Fin 512) (n : Fin 1024) :
    slabSum u (View.ld x3 (Rect.unit (s := S5x1024x1024) ![o, 0, 0] S1x1024x1024.size inb)) r n = Hmu.tileDot u x3 k r n :=
  Finset.sum_congr rfl fun d _ => congrArg (u (ix2 r d) * ·) (Hmu.Lib.ld_slab x3 o k hk inb d n)

/-- THE TILE A POINT STORES is `Hmu.tileOut` of the blocks it loaded. -/
theorem out_eq (x0 : Vec Ideal S512x1024 .f32) (x1 x2 : Vec Ideal S1024 .f32) (x3 : Vec Ideal S5x1024x1024 .bf16)
    (x4 x5 : Vec Ideal S1024 .f32) (x6 : Vec Ideal S4x1024 .f32) :
    (out0_7 (F := Ideal) x0 x1 x2 x3 x4 x5 x6 : Hmu.Stile.Idx → EReal) = Hmu.tileOut x0 x1 x2 x3 x4 x5 x6 := by
  unfold out0_7
  rw [View.canon_unit_zero hz2]
  simp only [View.ld_unit_zero (S := S512x1024) hz2, View.ld_unit_zero (S := S1024) hz1, View.ld_unit_zero (S := S4x1024) hz2]
  funext i
  obtain ⟨r, n, rfl⟩ : ∃ (r : Fin 512) (n : Fin 1024), i = ix2 r n := ⟨i 0, i 1, eq_ix2 i⟩
  rw [pay1_apply, pay4_apply, pay6_apply, pay3_eq, pay5_eq]
  rw [slabSum_ld _ x3 0 (0 : Fin 5) rfl, slabSum_ld _ x3 1 (1 : Fin 5) rfl, slabSum_ld _ x3 2 (2 : Fin 5) rfl,
    slabSum_ld _ x3 3 (3 : Fin 5) rfl, slabSum_ld _ x3 4 (4 : Fin 5) rfl]
  rfl

end Cert.KernelIdeal.Body0

end
-- ==== Proof.Cover0.lean ====
/-
  The array the first launch leaves behind, as one function of the arrays it found.

  The launch runs eight grid points. Point `t` reads rows `512 t … 512 t + 511` of its input array, the whole of every
  parameter array, and writes the same rows of its output array; the eight row bands fill the output. So when the
  parameter arrays are a layer's parameters laid out for the body, the output array is the layer's chained form of
  the mapped input, entry by entry.
-/
import proofs.«161757_j49520972923445_2_alg».proof.Proof.Body0
import proofs.«161757_j49520972923445_2_alg».proof.Proof.TilePoint
import Idealize.ShloMosaic.Lib.Pipeline.Value

set_option maxRecDepth 16384

noncomputable section

namespace Cert.KernelIdeal.Cover0

open Idealize.ShloMosaic Idealize.ShloMosaic.ValueIdx Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-- The printed index maps, decided over the grid: the input and output tiles move down one band per point, every
    parameter window stays at its array's origin. -/
theorem idx_facts : ∀ t : Fin cfg0.N, win0_0.index t (0 : Fin 2) = t.val ∧ win0_0.index t (1 : Fin 2) = 0
    ∧ win0_7.index t (0 : Fin 2) = t.val ∧ win0_7.index t (1 : Fin 2) = 0
    ∧ win0_1.index t (0 : Fin 1) = 0 ∧ win0_2.index t (0 : Fin 1) = 0
    ∧ win0_3.index t (0 : Fin 3) = 0 ∧ win0_3.index t (1 : Fin 3) = 0 ∧ win0_3.index t (2 : Fin 3) = 0
    ∧ win0_4.index t (0 : Fin 1) = 0 ∧ win0_5.index t (0 : Fin 1) = 0
    ∧ win0_6.index t (0 : Fin 2) = 0 ∧ win0_6.index t (1 : Fin 2) = 0 ∧ t.val < 8 :=
  (by decide +kernel : ∀ t : Fin grid0.N, _)

/-- Every band is some point's. -/
theorem idx_onto : ∀ q : Fin 8, ∃ t : Fin cfg0.N, win0_7.index t = ![q.val, 0] :=
  (by decide +kernel : ∀ q : Fin 8, ∃ t : Fin grid0.N, win0_7.index t = ![q.val, 0])

/-- WHAT POINT `t` WRITES BACK is its band of the layer. -/
theorem flushed_eq (c : Dev nD) (t : Fin cfg0.N) (X : Hmu.Sbd.Idx → EReal) (S T : Hmu.Sn.Idx → EReal)
    (MU : Hmu.Snd.Idx → EReal) (LAM : Hmu.Sn.Idx → EReal) (Vv : Hmu.Snkd.Idx → EReal)
    (hX : ∀ i : Hmu.Sbd.Idx, V c main_arg0 i = X i) (hS : ∀ i : Hmu.Sn.Idx, V c main_v15 i = S i) (hT : ∀ i : Hmu.Sn.Idx, V c main_v16 i = T i)
    (hL : ∀ i : Hmu.Sn.Idx, V c main_arg2 i = LAM i)
    (hW0 : ∀ d n, V c main_v14 (ix3 (0 : Fin 5) d n) = MU (ix2 n d))
    (hW1 : ∀ d n, V c main_v14 (ix3 (1 : Fin 5) d n) = Vv (ix3 n (0 : Fin 4) d))
    (hW2 : ∀ d n, V c main_v14 (ix3 (2 : Fin 5) d n) = Vv (ix3 n (1 : Fin 4) d))
    (hW3 : ∀ d n, V c main_v14 (ix3 (3 : Fin 5) d n) = Vv (ix3 n (2 : Fin 4) d))
    (hW4 : ∀ d n, V c main_v14 (ix3 (4 : Fin 5) d n) = Vv (ix3 n (3 : Fin 4) d))
    (hM : ∀ n, V c main_v5 (ix1 n) = Hmu.musq MU n) (hVm : ∀ k n, V c main_v10 (ix2 k n) = Hmu.vmu MU Vv n k) :
    (dat0 V c).flushed 7 t
      = ((cfg0.win 7).blk t).view.read (Elt Ideal) (Hmu.layerMul (Hmu.affine X S T) MU LAM Vv) := by
  show (cfg0.win 7).cut (grid0.coords t) ((dat0 V c).after 7 t) = _
  rw [after0_7]
  obtain ⟨e00, e01, e70, e71, e1, e2, e30, e31, e32, e4, e5, e60, e61, ht⟩ := idx_facts t
  refine funext fun (y : S512x1024.Idx) => ?_
  obtain ⟨r, n, rfl⟩ : ∃ (r : Fin 512) (n : Fin 1024), y = ix2 r n := ⟨y 0, y 1, eq_ix2 y⟩
  have hr : r.val < 512 := r.isLt
  have hemb : (((cfg0.win 7).blk t).view.emb (ix2 r n) : S4096x1024.Idx) = ix2 (⟨t.val * 512 + r.val, by omega⟩ : Fin 4096) n := by
    funext a; apply Fin.ext
    match a with
    | ⟨0, _⟩ => show win0_7.index t (0 : Fin 2) * 512 + 1 * r.val = t.val * 512 + r.val; omega
    | ⟨1, _⟩ => show win0_7.index t (1 : Fin 2) * 1024 + 1 * n.val = n.val; omega
  show out0_7 (iblk0 V c 0 t) (iblk0 V c 1 t) (iblk0 V c 2 t) (iblk0 V c 3 t) (iblk0 V c 4 t) (iblk0 V c 5 t) (iblk0 V c 6 t) (ix2 r n)
    = Hmu.layerMul (Hmu.affine X S T) MU LAM Vv (((cfg0.win 7).blk t).view.emb (ix2 r n))
  rw [hemb]
  refine (congrFun (Body0.out_eq (iblk0 V c 0 t) (iblk0 V c 1 t) (iblk0 V c 2 t) (iblk0 V c 3 t) (iblk0 V c 4 t) (iblk0 V c 5 t) (iblk0 V c 6 t)) (ix2 r n)).trans ?_
  have emb0 : ∀ d : Fin 1024, (((cfg0.win 0).blk t).view.emb (ix2 r d) : S4096x1024.Idx) = ix2 (⟨t.val * 512 + r.val, by omega⟩ : Fin 4096) d := fun d => by
    funext a; apply Fin.ext
    match a with
    | ⟨0, _⟩ => show win0_0.index t (0 : Fin 2) * 512 + 1 * r.val = t.val * 512 + r.val; omega
    | ⟨1, _⟩ => show win0_0.index t (1 : Fin 2) * 1024 + 1 * d.val = d.val; omega
  have emb1 : ∀ j : S1024.Idx, (((cfg0.win 1).blk t).view.emb j : S1024.Idx) = j := fun j => by
    funext a; apply Fin.ext
    match a with
    | ⟨0, _⟩ => show win0_1.index t (0 : Fin 1) * 1024 + 1 * (j 0).val = (j 0).val; omega
  have emb2 : ∀ j : S1024.Idx, (((cfg0.win 2).blk t).view.emb j : S1024.Idx) = j := fun j => by
    funext a; apply Fin.ext
    match a with
    | ⟨0, _⟩ => show win0_2.index t (0 : Fin 1) * 1024 + 1 * (j 0).val = (j 0).val; omega
  have emb3 : ∀ j : S5x1024x1024.Idx, (((cfg0.win 3).blk t).view.emb j : S5x1024x1024.Idx) = j := fun j => by
    funext a; apply Fin.ext
    match a with
    | ⟨0, _⟩ => show win0_3.index t (0 : Fin 3) * 5 + 1 * (j 0).val = (j 0).val; omega
    | ⟨1, _⟩ => show win0_3.index t (1 : Fin 3) * 1024 + 1 * (j 1).val = (j 1).val; omega
    | ⟨2, _⟩ => show win0_3.index t (2 : Fin 3) * 1024 + 1 * (j 2).val = (j 2).val; omega
  have emb4 : ∀ j : S1024.Idx, (((cfg0.win 4).blk t).view.emb j : S1024.Idx) = j := fun j => by
    funext a; apply Fin.ext
    match a with
    | ⟨0, _⟩ => show win0_4.index t (0 : Fin 1) * 1024 + 1 * (j 0).val = (j 0).val; omega
  have emb5 : ∀ j : S1024.Idx, (((cfg0.win 5).blk t).view.emb j : S1024.Idx) = j := fun j => by
    funext a; apply Fin.ext
    match a with
    | ⟨0, _⟩ => show win0_5.index t (0 : Fin 1) * 1024 + 1 * (j 0).val = (j 0).val; omega
  have emb6 : ∀ j : S4x1024.Idx, (((cfg0.win 6).blk t).view.emb j : S4x1024.Idx) = j := fun j => by
    funext a; apply Fin.ext
    match a with
    | ⟨0, _⟩ => show win0_6.index t (0 : Fin 2) * 4 + 1 * (j 0).val = (j 0).val; omega
    | ⟨1, _⟩ => show win0_6.index t (1 : Fin 2) * 1024 + 1 * (j 1).val = (j 1).val; omega
  refine Hmu.tileOut_point X S T MU LAM Vv (iblk0 V c 0 t) (iblk0 V c 1 t) (iblk0 V c 2 t) (iblk0 V c 3 t) (iblk0 V c 4 t) (iblk0 V c 5 t) (iblk0 V c 6 t) r n ⟨t.val * 512 + r.val, by omega⟩ ?_ ?_ ?_ ?_ ?_ ?_ ?_ ?_ ?_ ?_ ?_
  · intro d
    show V c main_arg0 (((cfg0.win 0).blk t).view.emb (ix2 r d)) = _
    rw [emb0 d]; exact hX _
  · funext j
    show V c main_v15 (((cfg0.win 1).blk t).view.emb j) = _
    rw [emb1 j]; exact hS j
  · funext j
    show V c main_v16 (((cfg0.win 2).blk t).view.emb j) = _
    rw [emb2 j]; exact hT j
  · intro d
    show V c main_v14 (((cfg0.win 3).blk t).view.emb (ix3 (0 : Fin 5) d n)) = _
    rw [emb3]; exact hW0 d n
  · intro d
    show V c main_v14 (((cfg0.win 3).blk t).view.emb (ix3 (1 : Fin 5) d n)) = _
    rw [emb3]; exact hW1 d n
  · intro d
    show V c main_v14 (((cfg0.win 3).blk t).view.emb (ix3 (2 : Fin 5) d n)) = _
    rw [emb3]; exact hW2 d n
  · intro d
    show V c main_v14 (((cfg0.win 3).blk t).view.emb (ix3 (3 : Fin 5) d n)) = _
    rw [emb3]; exact hW3 d n
  · intro d
    show V c main_v14 (((cfg0.win 3).blk t).view.emb (ix3 (4 : Fin 5) d n)) = _
    rw [emb3]; exact hW4 d n
  · funext j
    show V c main_arg2 (((cfg0.win 4).blk t).view.emb j) = _
    rw [emb4 j]; exact hL j
  · show V c main_v5 (((cfg0.win 5).blk t).view.emb (ix1 n)) = _
    rw [emb5]; exact hM n
  · intro k
    show V c main_v10 (((cfg0.win 6).blk t).view.emb (ix2 k n)) = _
    rw [emb6]; exact hVm k n

/-- An entry of the output array is in point `t`'s band iff its row is. -/
theorem mem_blk (t : Fin cfg0.N) (i : S4096x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v17).slice (win0_7.rect t)).set ↔ _
  rw [View.set_slice_whole, Rect.mem_set_unit]
  exact Iff.rfl

/-- The eight bands fill the output array. -/
theorem cover (i : S4096x1024.Idx) : ∃ t : Fin cfg0.N, (cfg0.win 7).flush t = true ∧ i ∈ ((cfg0.win 7).blk t).view.set := by
  have hi0 : (i 0).val < 4096 := (i 0).isLt
  have hi1 : (i 1).val < 1024 := (i 1).isLt
  obtain ⟨t, ht⟩ := idx_onto ⟨(i 0).val / 512, by omega⟩
  have q0 : win0_7.index t (0 : Fin 2) = (i 0).val / 512 := congrFun ht 0
  have q1 : win0_7.index t (1 : Fin 2) = 0 := congrFun ht 1
  refine ⟨t, flush0_7 t, ?_⟩
  rw [mem_blk]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 1024 ≤ (i 1).val ∧ (i 1).val < win0_7.index t (1 : Fin 2) * 1024 + 1024; omega

/-- THE OUTPUT ARRAY after the launch is the layer's chained form of the mapped input. -/
theorem final (c : Dev nD) (X : Hmu.Sbd.Idx → EReal) (S T : Hmu.Sn.Idx → EReal)
    (MU : Hmu.Snd.Idx → EReal) (LAM : Hmu.Sn.Idx → EReal) (Vv : Hmu.Snkd.Idx → EReal)
    (hX : ∀ i : Hmu.Sbd.Idx, V c main_arg0 i = X i) (hS : ∀ i : Hmu.Sn.Idx, V c main_v15 i = S i) (hT : ∀ i : Hmu.Sn.Idx, V c main_v16 i = T i)
    (hL : ∀ i : Hmu.Sn.Idx, V c main_arg2 i = LAM i)
    (hW0 : ∀ d n, V c main_v14 (ix3 (0 : Fin 5) d n) = MU (ix2 n d))
    (hW1 : ∀ d n, V c main_v14 (ix3 (1 : Fin 5) d n) = Vv (ix3 n (0 : Fin 4) d))
    (hW2 : ∀ d n, V c main_v14 (ix3 (2 : Fin 5) d n) = Vv (ix3 n (1 : Fin 4) d))
    (hW3 : ∀ d n, V c main_v14 (ix3 (3 : Fin 5) d n) = Vv (ix3 n (2 : Fin 4) d))
    (hW4 : ∀ d n, V c main_v14 (ix3 (4 : Fin 5) d n) = Vv (ix3 n (3 : Fin 4) d))
    (hM : ∀ n, V c main_v5 (ix1 n) = Hmu.musq MU n) (hVm : ∀ k n, V c main_v10 (ix2 k n) = Hmu.vmu MU Vv n k) :
    (dat0 V c).arrAt 7 cfg0.N = Hmu.layerMul (Hmu.affine X S T) MU LAM Vv :=
  (dat0 V c).arrAt_eq_of_cover 7 (Hmu.layerMul (Hmu.affine X S T) MU LAM Vv)
    (fun t _ => flushed_eq V c t X S T MU LAM Vv hX hS hT hL hW0 hW1 hW2 hW3 hW4 hM hVm) cover

end Cert.KernelIdeal.Cover0

end
-- ==== Proof.KValue0.lean ====
/-
  The array the first launch leaves, as a function of the program's arguments.

  Before the first launch the host lays the layer's parameters out for the body: the stack of transposed centres and
  directions, the squared norms of the centres, the inner products of directions and centres, and an input map with
  scale one and shift zero. The launch's output array is therefore the first layer in its chained form of
  `x * 1 + 0`, with the first layer's parameters.
-/
import proofs.«161757_j49520972923445_2_alg».proof.Proof.Cover0
import proofs.«161757_j49520972923445_2_alg».proof.Proof.KHost0

set_option maxRecDepth 16384

noncomputable section

namespace Cert.KernelIdeal.KValue

open Idealize.ShloMosaic Idealize.ShloMosaic.ValueIdx Idealize.ShloMosaic.TcCoe Idealize.SL.Sem Cert.KernelIdeal Cert.KernelIdeal.Gen
open Cert.KernelIdeal.HostRead

variable (m : (ℓ : Loc nD τ sig) → Buf (Elt Ideal) ℓ) (ρ : Dev nD → PrngReg) (c : Dev nD)

/-- The first layer's output in its chained form, of the launch arrays. -/
def Y1 : Hmu.Sbd.Idx → EReal :=
  Hmu.layerMul (Hmu.affine (m ((c : Thread nD τ).loc main_arg0)) (fun _ => Hmu.one) (fun _ => 0))
    (m ((c : Thread nD τ).loc main_arg1)) (m ((c : Thread nD τ).loc main_arg2)) (m ((c : Thread nD τ).loc main_arg3))

/-- After the first launch its output array holds the first layer's output. -/
theorem W2_main_v17 : (W2 m ρ c (Proc.devRef .tc main_v17) : Hmu.Sbd.Idx → EReal) = Y1 m c := by
  refine (W2_arr m ρ c 7).trans ?_
  exact Cover0.final (V1 m ρ) c (m ((c : Thread nD τ).loc main_arg0)) (fun _ => Hmu.one) (fun _ => 0)
    (m ((c : Thread nD τ).loc main_arg1)) (m ((c : Thread nD τ).loc main_arg2)) (m ((c : Thread nD τ).loc main_arg3))
    (fun i => congrFun (V1_main_arg0 m ρ c) i)
    (fun i => congrFun (V1_main_v15 m ρ c) i)
    (fun i => congrFun (V1_main_v16 m ρ c) i)
    (fun i => congrFun (V1_main_arg2 m ρ c) i)
    (fun d n => (congrFun (V1_main_v14 m ρ c) (ix3 (0 : Fin 5) d n)).trans (prepW_head _ _ d n))
    (fun d n => (congrFun (V1_main_v14 m ρ c) (ix3 (1 : Fin 5) d n)).trans (prepW_1 _ _ d n))
    (fun d n => (congrFun (V1_main_v14 m ρ c) (ix3 (2 : Fin 5) d n)).trans (prepW_2 _ _ d n))
    (fun d n => (congrFun (V1_main_v14 m ρ c) (ix3 (3 : Fin 5) d n)).trans (prepW_3 _ _ d n))
    (fun d n => (congrFun (V1_main_v14 m ρ c) (ix3 (4 : Fin 5) d n)).trans (prepW_4 _ _ d n))
    (fun n => (congrFun (V1_main_v5 m ρ c) (ix1 n)).trans (prepMusq_apply _ n))
    (fun k n => (congrFun (V1_main_v10 m ρ c) (ix2 k n)).trans (prepVmu_apply _ _ k n))

end Cert.KernelIdeal.KValue

end
-- ==== Proof.KValue1.lean ====
/-
  The program's result buffer, as a function of its arguments.

  Between the launches the host computes, from the first launch's output, the column means, variances and reciprocal
  standard deviations, and from them the scale `istd * g` and shift `beta - mean * (istd * g)` that the second launch's
  body applies to its input tile; it lays the second layer's parameters out as before. So the second launch leaves the
  second layer, in its chained form, of the first layer's output under that fused map; the host's last operations
  normalise it and add the input. Altogether the result buffer ends at `Hmu.netFused` of the eleven argument arrays.
-/
import proofs.«161757_j49520972923445_2_alg».proof.Proof.Cover1
import proofs.«161757_j49520972923445_2_alg».proof.Proof.KHost1
import proofs.«161757_j49520972923445_2_alg».proof.Proof.KHost2
import proofs.«161757_j49520972923445_2_alg».proof.Proof.KValue0

set_option maxRecDepth 16384

noncomputable section

namespace Cert.KernelIdeal.KValue

open Idealize.ShloMosaic Idealize.ShloMosaic.ValueIdx Idealize.ShloMosaic.TcCoe Idealize.SL.Sem Cert.KernelIdeal Cert.KernelIdeal.Gen
open Cert.KernelIdeal.HostRead

variable (m : (ℓ : Loc nD τ sig) → Buf (Elt Ideal) ℓ) (ρ : Dev nD → PrngReg) (c : Dev nD)

/-- The second layer's output in its chained form, of the first layer's output under the fused map. -/
def Y2 : Hmu.Sbd.Idx → EReal :=
  Hmu.layerMul (Hmu.affine (Y1 m c) (Hmu.fusedScale (Y1 m c) (m ((c : Thread nD τ).loc main_arg4)))
      (Hmu.fusedShift (Y1 m c) (m ((c : Thread nD τ).loc main_arg4)) (m ((c : Thread nD τ).loc main_arg5))))
    (m ((c : Thread nD τ).loc main_arg6)) (m ((c : Thread nD τ).loc main_arg7)) (m ((c : Thread nD τ).loc main_arg8))

/-- After the second launch its output array holds the second layer's output. -/
theorem W4_main_v49 : (W4 m ρ c (Proc.devRef .tc main_v49) : Hmu.Sbd.Idx → EReal) = Y2 m c := by
  refine (W4_arr m ρ c 7).trans ?_
  exact Cover1.final (V3 m ρ) c (Y1 m c) (Hmu.fusedScale (Y1 m c) (m ((c : Thread nD τ).loc main_arg4)))
    (Hmu.fusedShift (Y1 m c) (m ((c : Thread nD τ).loc main_arg4)) (m ((c : Thread nD τ).loc main_arg5)))
    (m ((c : Thread nD τ).loc main_arg6)) (m ((c : Thread nD τ).loc main_arg7)) (m ((c : Thread nD τ).loc main_arg8))
    (fun i => (congrFun (V3_main_v17 m ρ c) i).trans (congrFun (W2_main_v17 m ρ c) i))
    (fun i => congrFun ((V3_main_v31 m ρ c).trans
      (congrArg (fun y => Hmu.fusedScale y (m ((c : Thread nD τ).loc main_arg4))) (W2_main_v17 m ρ c))) i)
    (fun i => congrFun ((V3_main_v33 m ρ c).trans
      (congrArg (fun y => Hmu.fusedShift y (m ((c : Thread nD τ).loc main_arg4)) (m ((c : Thread nD τ).loc main_arg5))) (W2_main_v17 m ρ c))) i)
    (fun i => congrFun (V3_main_arg7 m ρ c) i)
    (fun d n => (congrFun (V3_main_v48 m ρ c) (ix3 (0 : Fin 5) d n)).trans (prepW_head _ _ d n))
    (fun d n => (congrFun (V3_main_v48 m ρ c) (ix3 (1 : Fin 5) d n)).trans (prepW_1 _ _ d n))
    (fun d n => (congrFun (V3_main_v48 m ρ c) (ix3 (2 : Fin 5) d n)).trans (prepW_2 _ _ d n))
    (fun d n => (congrFun (V3_main_v48 m ρ c) (ix3 (3 : Fin 5) d n)).trans (prepW_3 _ _ d n))
    (fun d n => (congrFun (V3_main_v48 m ρ c) (ix3 (4 : Fin 5) d n)).trans (prepW_4 _ _ d n))
    (fun n => (congrFun (V3_main_v39 m ρ c) (ix1 n)).trans (prepMusq_apply _ n))
    (fun k n => (congrFun (V3_main_v44 m ρ c) (ix2 k n)).trans (prepVmu_apply _ _ k n))

/-- THE RESULT BUFFER ends at the network with the first normalisation fused into the second layer. -/
theorem result_eq : (W5 m ρ c (Proc.devRef .tc main_v75) : Hmu.Sbd.Idx → EReal)
    = Hmu.netFused (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) := by
  refine (Cert.KernelIdeal.HostRead2.tail_eq m ρ c).trans ?_
  refine (congrArg (fun y : Hmu.Sbd.Idx → EReal => fun i => Hmu.bn y (m ((c : Thread nD τ).loc main_arg9)) (m ((c : Thread nD τ).loc main_arg10)) i
    + m ((c : Thread nD τ).loc main_arg0) i) (W4_main_v49 m ρ c)).trans ?_
  rfl

end Cert.KernelIdeal.KValue

end
-- ==== Proof.PreReal.lean ====
/-
  The precondition read back: every entry of the first six arguments is a real number.

  The precondition is the conjunction, over the eleven argument arrays, of "every entry x satisfies |x| < +∞", where
  |x| is max x (-x) on the extended reals and +∞ is spelt by the word 0x7F800000. An extended real whose absolute value
  is below ⊤ is neither ⊤ (then max x (-x) = ⊤) nor ⊥ (then -x = ⊤), so it is a real. The conjunction is a chain of
  one-bit "and"s of reductions by "and" over all axes; a chain that is 1 has every link 1, and a reduction by "and"
  that is 1 met only 1s.
-/
import proofs.«161757_j49520972923445_2_alg».proof.Defs
import proofs.«161757_j49520972923445_2_alg».proof.Proof.Gen.Pre_finite_inputs
import proofs.«161757_j49520972923445_2_alg».proof.Proof.Spec
import Idealize.ShloMosaic.Lib.ReduceAll

noncomputable section

namespace Cert.KernelIdeal.PreReal

open Idealize.ShloMosaic Idealize.ShloMosaic.ValueIdx Idealize.SL.Sem

/-- A one-bit word built from a Boolean is 1 exactly when the Boolean is true. -/
theorem ofBool_eq_one (b : Bool) : BitVec.ofBool b = 1#1 ↔ b = true := by cases b <;> decide

/-- An extended real whose absolute value max x (-x) compares below ⊤ is a real number. -/
theorem real_of_abs_lt_top (x : EReal) (h : Ideal.cmp .olt (max x (-x)) ⊤ = 1#1) : ∃ r : ℝ, x = (r : EReal) := by
  unfold Ideal.cmp at h
  rw [ofBool_eq_one] at h
  have h' : max x (-x) < ⊤ := of_decide_eq_true h
  induction x with
  | bot => simp at h'
  | top => simp at h'
  | coe r => exact ⟨r, rfl⟩

/-- The word 0x7F800000 denotes +∞. -/
theorem inf_word : Ideal.ofBits .f32 0x7F800000#32 = (⊤ : EReal) := by simp [Ideal.ofBits, Ideal.ieee]

/-- The scalar shape has one index. -/
instance : Subsingleton Cert.Pre_finite_inputs.S_.Idx := ⟨fun a b => funext fun d => d.elim0⟩

/-- One array's finiteness test, read at an entry: if the comparison of |x| with the broadcast +∞ is 1 at i, then x i is real. -/
theorem real_of_cmp {s : Shape} (hb : Cert.Pre_finite_inputs.S_.BroadcastsInDim s (![] : Fin 0 → Fin s.rank))
    (x : FVec Ideal s .f32) (i : s.Idx)
    (e : cmpf .olt (Host.absf x) (broadcastInDim s ![] hb (constant Cert.Pre_finite_inputs.S_ .f32 0x7F800000#32)) i = 1#1) :
    ∃ r : ℝ, x i = (r : EReal) := by
  have e' : Ideal.cmp .olt (max (x i) (-(x i))) (Ideal.ofBits .f32 0x7F800000#32) = 1#1 := e
  rw [inf_word] at e'
  exact real_of_abs_lt_top _ e'

/-- One array's jnp.all of the finiteness test: if the reduction by "and" over all axes is 1, every entry is real. -/
theorem real_of_all {s : Shape} {axes : List (Fin s.rank)} (hb : Cert.Pre_finite_inputs.S_.BroadcastsInDim s (![] : Fin 0 → Fin s.rank))
    (hr : s.ReducesTo axes Cert.Pre_finite_inputs.S_) (hu : 0 < Cert.Pre_finite_inputs.S_.numel)
    (x : FVec Ideal s .f32) (init : IVec Cert.Pre_finite_inputs.S_ 1)
    (e : Host.reduce IntOp.andi
          (cmpf .olt (Host.absf x) (broadcastInDim s ![] hb (constant Cert.Pre_finite_inputs.S_ .f32 0x7F800000#32)))
          init hr hu ix0 = 1#1) :
    ∀ i, ∃ r : ℝ, x i = (r : EReal) :=
  fun i => real_of_cmp hb x i (Host.reduce_andi_all _ init hr hu ix0 e i)

/-- The vector "and" read at an index is 1 exactly when both operands are 1 there. -/
theorem andi_apply_eq_one {s : Shape} (x y : IVec s 1) (i : s.Idx) : andi x y i = 1#1 ↔ x i = 1#1 ∧ y i = 1#1 :=
  IntOp.andi_eq_one

/-- THE PRECONDITION DECODED: on every device, arguments 0 to 5 hold real numbers only. -/
theorem real_args [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Hmu.IsReal (s := Hmu.Sbd) (m ((c.tc : Thread Cert.KernelIdeal.nD Cert.KernelIdeal.τ).loc Cert.KernelIdeal.main_arg0))
    ∧ Hmu.IsReal (s := Hmu.Snd) (m ((c.tc : Thread Cert.KernelIdeal.nD Cert.KernelIdeal.τ).loc Cert.KernelIdeal.main_arg1))
    ∧ Hmu.IsReal (s := Hmu.Sn) (m ((c.tc : Thread Cert.KernelIdeal.nD Cert.KernelIdeal.τ).loc Cert.KernelIdeal.main_arg2))
    ∧ Hmu.IsReal (s := Hmu.Snkd) (m ((c.tc : Thread Cert.KernelIdeal.nD Cert.KernelIdeal.τ).loc Cert.KernelIdeal.main_arg3))
    ∧ Hmu.IsReal (s := Hmu.Sn) (m ((c.tc : Thread Cert.KernelIdeal.nD Cert.KernelIdeal.τ).loc Cert.KernelIdeal.main_arg4))
    ∧ Hmu.IsReal (s := Hmu.Sn) (m ((c.tc : Thread Cert.KernelIdeal.nD Cert.KernelIdeal.τ).loc Cert.KernelIdeal.main_arg5)) := by
  have e := congrFun (h c) ix0
  dsimp only [Cert.Pre_finite_inputs.fn, Cert.Pre_finite_inputs.fn_part1, Cert.Pre_finite_inputs.fn_part2,
    Cert.Pre_finite_inputs.fn_part3] at e
  simp only [andi_apply_eq_one] at e
  obtain ⟨⟨⟨⟨⟨⟨⟨⟨⟨⟨h0, h1⟩, h2⟩, h3⟩, h4⟩, h5⟩, -⟩, -⟩, -⟩, -⟩, -⟩ := e
  exact ⟨real_of_all _ _ _ _ _ h0, real_of_all _ _ _ _ _ h1, real_of_all _ _ _ _ _ h2, real_of_all _ _ _ _ _ h3,
    real_of_all _ _ _ _ _ h4, real_of_all _ _ _ _ _ h5⟩

end Cert.KernelIdeal.PreReal

end
-- ==== Proof.Consts.lean ====
/-
  The six literal words of the specification, as the numbers they denote on the extended reals.
  Each word is an IEEE single-precision pattern; unfolding the pattern reading gives a closed form in ℝ.
-/
import proofs.«161757_j49520972923445_2_alg».proof.Proof.Spec

noncomputable section

namespace Hmu

open Idealize.ShloMosaic

/-- `0x40000000` is `2.0`. -/
theorem two_eq : two = ((2 : ℝ) : EReal) := by
  simp [two, Ideal.ofBits, Ideal.ieee, -EReal.coe_mul]; norm_num

/-- `0x45800000` is `4096.0`. -/
theorem nB_eq : nB = ((4096 : ℝ) : EReal) := by
  simp [nB, Ideal.ofBits, Ideal.ieee, -EReal.coe_mul]; norm_num

/-- `0x44800000` is `1024.0`. -/
theorem nD_eq : nD = ((1024 : ℝ) : EReal) := by
  simp [nD, Ideal.ofBits, Ideal.ieee, -EReal.coe_mul]; norm_num

/-- `0x3A800000` is `2⁻¹⁰ = 1/1024` exactly. -/
theorem invD_eq : invD = ((1 / 1024 : ℝ) : EReal) := by
  simp [invD, Ideal.ofBits, Ideal.ieee, -EReal.coe_mul]; norm_num

/-- `0x3F800000` is `1.0`. -/
theorem one_eq : one = 1 := by
  simp [one, Ideal.ofBits, Ideal.ieee, -EReal.coe_mul]; norm_num

/-- `0x3727C5AC` is a positive normal number (the variance floor). -/
theorem eps_pos : ∃ e : ℝ, 0 < e ∧ eps = (e : EReal) := by
  refine ⟨_, ?_, by simp [eps, Ideal.ofBits, Ideal.ieee, -EReal.coe_mul]; rfl⟩
  positivity

end Hmu

end
-- ==== Proof.Algebra1.lean ====
/-
  Two rewritings of a layer that hold for every extended-real input.

  The chained quadratic form is the summed one: a sum over four terms, written out, differs from the chain only by
  re-association of `+`, which is associative on the extended reals. Subtracting from zero is negation, and multiplying
  by `2⁻¹⁰` is dividing by `1024` (division by a nonzero real is the product with its reciprocal, at the infinities
  too). The identity input map `x * 1 + 0` is `x`.
-/
import proofs.«161757_j49520972923445_2_alg».proof.Proof.Consts

noncomputable section

namespace Hmu

open Idealize.ShloMosaic Idealize.ShloMosaic.ValueIdx

/-- Adding the four squared projections one after another is adding their sum. -/
theorem quadChain_eq_quadSum (X : Sbd.Idx → EReal) (MU : Snd.Idx → EReal) (LAM : Sn.Idx → EReal) (V : Snkd.Idx → EReal)
    (b : Fin 4096) (n : Fin 1024) : quadChain X MU LAM V b n = quadSum X MU LAM V b n := by
  simp only [quadChain, quadSum, Fin.sum_univ_four, add_assoc]

/-- `(0 - q) * 2⁻¹⁰ = -q / 1024`, for every extended real `q`. -/
theorem zero_sub_mul_invD (q : EReal) : (0 - q) * invD = Ideal.div (-q) nD := by
  rw [zero_sub, invD_eq, nD_eq, Ideal.div_coe (by norm_num)]

/-- `exp ((0 - q) * 2⁻¹⁰) = exp (-q / 1024)`, for every extended-real input. -/
theorem layerMul_eq_layerDiv (X : Sbd.Idx → EReal) (MU : Snd.Idx → EReal) (LAM : Sn.Idx → EReal) (V : Snkd.Idx → EReal) :
    layerMul X MU LAM V = layerDiv X MU LAM V := by
  funext i
  exact (congrArg (fun q => Ideal.exp ((0 - q) * invD)) (quadChain_eq_quadSum X MU LAM V (i 0) (i 1))).trans
    (congrArg Ideal.exp (zero_sub_mul_invD _))

/-- `x * 1 + 0 = x`. -/
theorem affine_one_zero (X : Sbd.Idx → EReal) : affine X (fun _ => one) (fun _ => 0) = X := by
  funext i
  simp only [affine, one_eq, mul_one, add_zero]

end Hmu

end
-- ==== Proof.Algebra2.lean ====
/-
  Finiteness. Sums, differences and products of real numbers are real, the exponential of a real is real, and a real
  divided by a nonzero real is real; so a layer of real inputs has real outputs. For a real batch, a column's mean is
  real, its variance is a sum of squares divided by `4096`, hence a nonnegative real, and adding the positive floor
  makes the argument of the reciprocal square root a positive real, where that function is the real `1 / √·`.
-/
import proofs.«161757_j49520972923445_2_alg».proof.Proof.Consts

noncomputable section

namespace Hmu

open Idealize.ShloMosaic Idealize.ShloMosaic.ValueIdx

/-- A finite sum of (coerced) reals is the coerced real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- An extended real that is a real number. -/
def IsR (x : EReal) : Prop := ∃ r : ℝ, x = (r : EReal)

theorem IsReal.app {s : Shape} {f : s.Idx → EReal} (h : IsReal f) (i : s.Idx) : IsR (f i) := h i

theorem IsR.add {x y : EReal} (hx : IsR x) (hy : IsR y) : IsR (x + y) := by
  obtain ⟨a, rfl⟩ := hx; obtain ⟨b, rfl⟩ := hy; exact ⟨a + b, (EReal.coe_add a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.neg {x : EReal} (hx : IsR x) : IsR (-x) := by
  obtain ⟨a, rfl⟩ := hx; exact ⟨-a, (EReal.coe_neg a).symm⟩

theorem IsR.sum {ι : Type*} {s : Finset ι} {f : ι → EReal} (h : ∀ i, IsR (f i)) : IsR (∑ i ∈ s, f i) := by
  choose g hg using h
  exact ⟨∑ i ∈ s, g i, by simp only [hg]; exact coe_sum s g⟩

theorem IsR.exp {x : EReal} (hx : IsR x) : IsR (Ideal.exp x) := by
  obtain ⟨a, rfl⟩ := hx; exact ⟨Real.exp a, rfl⟩

theorem IsR.div_coe {x : EReal} {y : ℝ} (hy : y ≠ 0) (hx : IsR x) : IsR (Ideal.div x (y : EReal)) := by
  rw [Ideal.div_coe hy]; exact hx.mul ⟨_, rfl⟩

theorem isR_two : IsR two := ⟨2, two_eq⟩

section Layer
variable {X : Sbd.Idx → EReal} {MU : Snd.Idx → EReal} {LAM : Sn.Idx → EReal} {V : Snkd.Idx → EReal}

theorem isR_sq (hX : IsReal X) (hMU : IsReal MU) (b : Fin 4096) (n : Fin 1024) : IsR (sq X MU b n) := by
  unfold sq xsq xmu musq
  exact ((IsR.sum fun d => (hX.app _).mul (hX.app _)).sub
    (isR_two.mul (IsR.sum fun d => (hX.app _).mul (hMU.app _)))).add (IsR.sum fun d => (hMU.app _).mul (hMU.app _))

theorem isR_proj (hX : IsReal X) (hMU : IsReal MU) (hV : IsReal V) (b : Fin 4096) (n : Fin 1024) (k : Fin 4) :
    IsR (proj X MU V b n k) := by
  unfold proj xv vmu
  exact (IsR.sum fun d => (hX.app _).mul (hV.app _)).sub (IsR.sum fun d => (hV.app _).mul (hMU.app _))

theorem isR_quadSum (hX : IsReal X) (hMU : IsReal MU) (hL : IsReal LAM) (hV : IsReal V) (b : Fin 4096) (n : Fin 1024) :
    IsR (quadSum X MU LAM V b n) := by
  unfold quadSum
  exact ((hL.app _).mul (isR_sq hX hMU b n)).add
    (IsR.sum fun k => (isR_proj hX hMU hV b n k).mul (isR_proj hX hMU hV b n k))

/-- A layer of real inputs has real outputs. -/
theorem isReal_layerDiv (hX : IsReal X) (hMU : IsReal MU) (hL : IsReal LAM) (hV : IsReal V) :
    IsReal (layerDiv X MU LAM V) := by
  intro i
  show IsR (Ideal.exp (Ideal.div (-(quadSum X MU LAM V (i 0) (i 1))) nD))
  rw [nD_eq]
  exact ((isR_quadSum hX hMU hL hV (i 0) (i 1)).neg.div_coe (by norm_num)).exp

end Layer

section Norm
variable {Y : Sbd.Idx → EReal}

/-- A real batch's column mean is real. -/
theorem isR_colMean (hY : IsReal Y) (n : Fin 1024) : IsR (colMean Y n) := by
  unfold colMean
  rw [nB_eq]
  exact (IsR.sum fun b => hY.app _).div_coe (by norm_num)

/-- A real batch's column variance is a nonnegative real: a sum of squares over `4096`. -/
theorem colVar_nonneg (hY : IsReal Y) (n : Fin 1024) : ∃ v : ℝ, 0 ≤ v ∧ colVar Y n = (v : EReal) := by
  obtain ⟨m, hm⟩ := isR_colMean hY n
  choose y hy using hY
  refine ⟨(∑ b : Fin 4096, (y (ix2 b n) - m) * (y (ix2 b n) - m)) * (1 / 4096), ?_, ?_⟩
  · exact mul_nonneg (Finset.sum_nonneg fun b _ => mul_self_nonneg _) (by norm_num)
  · unfold colVar
    rw [nB_eq, Ideal.div_coe (by norm_num), hm]
    simp only [hy, ← EReal.coe_sub, ← EReal.coe_mul, coe_sum]

/-- A real batch's floored reciprocal standard deviation is real. -/
theorem isR_istd (hY : IsReal Y) (n : Fin 1024) : IsR (istd Y n) := by
  obtain ⟨v, hv, hvar⟩ := colVar_nonneg hY n
  obtain ⟨e, he, heps⟩ := eps_pos
  have hpos : 0 < v + e := by linarith
  unfold istd
  rw [hvar, heps, ← EReal.coe_add, Ideal.rsqrt_coe, if_neg (not_lt.mpr hpos.le), if_neg hpos.ne']
  exact ⟨_, rfl⟩

end Norm

end Hmu

end
-- ==== Proof.Algebra.lean ====
/-
  The fused network is the direct one.

  On reals, `y * (s * g) + (β - m * (s * g)) = ((y - m) * s) * g + β` (a ring identity), so the fused input map of the
  second layer is the batch normalisation of the first layer's output whenever that output, the scale and the shift are
  real. The first layer's output is real because its inputs are; its chained form is its summed form and its input map
  is the identity. The second layer's chained form is its summed form for every input, so nothing is asked of the
  second layer's parameters.
-/
import proofs.«161757_j49520972923445_2_alg».proof.Proof.Algebra1
import proofs.«161757_j49520972923445_2_alg».proof.Proof.Algebra2

noncomputable section

namespace Hmu

open Idealize.ShloMosaic Idealize.ShloMosaic.ValueIdx

/-- The fused scale-and-shift is the normalisation applied directly, on a real batch with real scale and shift. -/
theorem affine_fused_eq_bn {Y : Sbd.Idx → EReal} {G B : Sn.Idx → EReal} (hY : IsReal Y) (hG : IsReal G) (hB : IsReal B) :
    affine Y (fusedScale Y G) (fusedShift Y G B) = bn Y G B := by
  funext i
  obtain ⟨y, hy⟩ := hY i
  obtain ⟨m, hm⟩ := isR_colMean hY (i 1)
  obtain ⟨s, hs⟩ := isR_istd hY (i 1)
  obtain ⟨g, hg⟩ := hG (ix1 (i 1))
  obtain ⟨β, hβ⟩ := hB (ix1 (i 1))
  change Y i * (istd Y (i 1) * G (ix1 (i 1))) + (B (ix1 (i 1)) - colMean Y (i 1) * (istd Y (i 1) * G (ix1 (i 1))))
    = ((Y i - colMean Y (i 1)) * istd Y (i 1)) * G (ix1 (i 1)) + B (ix1 (i 1))
  rw [hy, hm, hs, hg, hβ]
  simp only [← EReal.coe_mul, ← EReal.coe_sub, ← EReal.coe_add]
  congr 1
  ring

/-- The fused, chained network equals the direct, summed one when the input batch and the first layer's parameters are
    real. -/
theorem netFused_eq_netDirect {X : Sbd.Idx → EReal} {MU1 : Snd.Idx → EReal} {L1 : Sn.Idx → EReal} {V1 : Snkd.Idx → EReal}
    {G1 B1 : Sn.Idx → EReal} {MU2 : Snd.Idx → EReal} {L2 : Sn.Idx → EReal} {V2 : Snkd.Idx → EReal} {G2 B2 : Sn.Idx → EReal}
    (hX : IsReal X) (hMU1 : IsReal MU1) (hL1 : IsReal L1) (hV1 : IsReal V1) (hG1 : IsReal G1) (hB1 : IsReal B1) :
    netFused X MU1 L1 V1 G1 B1 MU2 L2 V2 G2 B2 = netDirect X MU1 L1 V1 G1 B1 MU2 L2 V2 G2 B2 := by
  have h1 : layerMul (affine X (fun _ => one) (fun _ => 0)) MU1 L1 V1 = layerDiv X MU1 L1 V1 := by
    rw [affine_one_zero, layerMul_eq_layerDiv]
  have hY1 : IsReal (layerDiv X MU1 L1 V1) := isReal_layerDiv hX hMU1 hL1 hV1
  simp only [netFused]
  rw [h1, affine_fused_eq_bn hY1 hG1 hB1, layerMul_eq_layerDiv]
  rfl

end Hmu

end
-- ==== Proof.RefRead.lean ====
/-
  The reference program read at an index.

  The reference's result buffer is a composed term of host operations over its eleven arguments. Its text is a
  layer applied to the batch, a batch normalisation of the layer's output, the same layer text applied to the
  normalised output, a second normalisation, and the batch added back. This module names the two repeated texts as
  functions of the arrays they read (the layer of four arrays, the normalisation of three), reads each at an index
  with the host-operation lemmas — a one-axis sum is a finite sum, a broadcast reads the coordinates it keeps, a
  transposed operand swaps its coordinates, a contraction is a sum of products — and so identifies them with the
  specification's layer and normalisation. The reference spells the centred output twice (once for the variance, once
  for the normalised value); both read as the entry minus its column's mean.
-/
import proofs.«161757_j49520972923445_2_alg».proof.Proof.Gen.ReferenceIdeal.Run
import proofs.«161757_j49520972923445_2_alg».proof.Proof.Spec
import proofs.«161757_j49520972923445_2_alg».proof.Proof.LibHostRead
import proofs.«161757_j49520972923445_2_alg».proof.Proof.LibPlainDot

noncomputable section

namespace Cert.ReferenceIdeal.RefValue

open Cert.ReferenceIdeal Cert.ReferenceIdeal.Gen Cert.ReferenceIdeal.Value Idealize.ShloMosaic Idealize.ShloMosaic.ValueIdx
  Idealize.SL.Sem Hmu.Lib

/-! ## The layer's text, piece by piece -/

/-- Each batch row's squared norm. -/
def xsqT (X : FVec Ideal S4096x1024 .f32) : FVec Ideal S4096 .f32 :=
  Host.reduceAdd (mulf X X) (constant S_ .f32 0x00000000#32) reducesTo_S4096x1024_S4096_d1 h_S_

/-- Each centre's squared norm. -/
def musqT (MU : FVec Ideal S1024x1024 .f32) : FVec Ideal S1024 .f32 :=
  Host.reduceAdd (mulf MU MU) (constant S_ .f32 0x00000000#32) reducesTo_S1024x1024_S1024_d1 h_S_

/-- The batch against the transposed centres. -/
def xmuT (X : FVec Ideal S4096x1024 .f32) (MU : FVec Ideal S1024x1024 .f32) : FVec Ideal S4096x1024 .f32 :=
  Host.dotGeneral dot_S4096x1024_S1024x1024_S4096x1024_1_0_0_1_n_n none X
    (transpose S1024x1024 [1, 0] MU transposes_S1024x1024_S1024x1024_1_0)

/-- Each direction against its unit's centre. -/
def vmuT (MU : FVec Ideal S1024x1024 .f32) (V : FVec Ideal S1024x4x1024 .f32) : FVec Ideal S1024x4 .f32 :=
  Host.reduceAdd (mulf V (broadcastInDim S1024x4x1024 ![0, 1, 2] bcast_S1024x1x1024_S1024x4x1024_0_1_2
    (broadcastInDim S1024x1x1024 ![0, 2] bcast_S1024x1024_S1024x1x1024_0_2 MU)))
    (constant S_ .f32 0x00000000#32) reducesTo_S1024x4x1024_S1024x4_d2 h_S_

/-- The batch against every direction, less the direction against its centre: the projections. -/
def projT (X : FVec Ideal S4096x1024 .f32) (MU : FVec Ideal S1024x1024 .f32) (V : FVec Ideal S1024x4x1024 .f32) :
    FVec Ideal S4096x1024x4 .f32 :=
  subf (Host.dotGeneral dot_S4096x1024_S1024x4x1024_S4096x1024x4_1_2_0_01_n_n none X V)
    (broadcastInDim S4096x1024x4 ![0, 1, 2] bcast_S1x1024x4_S4096x1024x4_0_1_2
      (broadcastInDim S1x1024x4 ![1, 2] bcast_S1024x4_S1x1024x4_1_2 (vmuT MU V)))

/-- The squared-distance term. -/
def sqT (X : FVec Ideal S4096x1024 .f32) (MU : FVec Ideal S1024x1024 .f32) : FVec Ideal S4096x1024 .f32 :=
  addf (subf (broadcastInDim S4096x1024 ![0, 1] bcast_S4096x1_S4096x1024_0_1
      (broadcastInDim S4096x1 ![0] bcast_S4096_S4096x1_0 (xsqT X)))
    (mulf (broadcastInDim S4096x1024 ![] bcast_S_S4096x1024 (constant S_ .f32 0x40000000#32)) (xmuT X MU)))
    (broadcastInDim S4096x1024 ![0, 1] bcast_S1x1024_S4096x1024_0_1
      (broadcastInDim S1x1024 ![1] bcast_S1024_S1x1024_1 (musqT MU)))

/-- The layer: the exponential of minus the quadratic form over the feature count. -/
def layerTerm (X : FVec Ideal S4096x1024 .f32) (MU : FVec Ideal S1024x1024 .f32) (LAM : FVec Ideal S1024 .f32)
    (V : FVec Ideal S1024x4x1024 .f32) : FVec Ideal S4096x1024 .f32 :=
  Host.exp (Host.divf (Host.negf (addf
      (mulf (broadcastInDim S4096x1024 ![0, 1] bcast_S1x1024_S4096x1024_0_1
        (broadcastInDim S1x1024 ![1] bcast_S1024_S1x1024_1 LAM)) (sqT X MU))
      (Host.reduceAdd (mulf (projT X MU V) (projT X MU V)) (constant S_ .f32 0x00000000#32)
        reducesTo_S4096x1024x4_S4096x1024_d2 h_S_)))
    (broadcastInDim S4096x1024 ![] bcast_S_S4096x1024 (constant S_ .f32 0x44800000#32)))

/-- The reference's first layer is this text of its first four arguments. -/
theorem res_main_v31_eq (V0 : Valuation τ sig (Elt Ideal)) :
    res_main_v31 (F := Ideal) V0 = layerTerm (V0 (Proc.devRef .tc main_arg0)) (V0 (Proc.devRef .tc main_arg1))
      (V0 (Proc.devRef .tc main_arg2)) (V0 (Proc.devRef .tc main_arg3)) := rfl

/-! ## The pieces at an index -/

variable (X : FVec Ideal S4096x1024 .f32) (MU : FVec Ideal S1024x1024 .f32) (LAM : FVec Ideal S1024 .f32)
  (V : FVec Ideal S1024x4x1024 .f32)

/-- A row's squared norm is the sum of its squared entries. -/
theorem xsqT_apply (p : Fin 4096) : xsqT X (ix1 p) = Hmu.xsq X p :=
  hostReduceAdd_ab_axis1_apply (mulf X X) reducesTo_S4096x1024_S4096_d1 h_S_ p

/-- A centre's squared norm likewise. -/
theorem musqT_apply (n : Fin 1024) : musqT MU (ix1 n) = Hmu.musq MU n :=
  hostReduceAdd_ab_axis1_apply (mulf MU MU) reducesTo_S1024x1024_S1024_d1 h_S_ n

/-- The batch against the transposed centres is the inner product of the row and the centre. -/
theorem xmuT_apply (p : Fin 4096) (n : Fin 1024) : xmuT X MU (ix2 p n) = Hmu.xmu X MU p n := by
  refine (Gcn.Lib.plain_dotGeneral_apply (M := 4096) (K := 1024) (N := 1024) X
    (transpose S1024x1024 [1, 0] MU transposes_S1024x1024_S1024x1024_1_0) none .single p n).trans ?_
  refine Finset.sum_congr rfl fun d _ => ?_
  rw [transpose_ix2_apply]

/-- A direction against its unit's centre. -/
theorem vmuT_apply (n : Fin 1024) (j : Fin 4) : vmuT MU V (ix2 n j) = Hmu.vmu MU V n j := by
  refine (hostReduceAdd_abc_axis2_apply _ reducesTo_S1024x4x1024_S1024x4_d2 h_S_ n j).trans ?_
  refine Finset.sum_congr rfl fun d _ => ?_
  show V (ix3 n j d) * _ = V (ix3 n j d) * MU (ix2 n d)
  rw [bcastMiddle_apply]

/-- A projection: the row against the direction, less the direction against the centre. -/
theorem projT_apply (p : Fin 4096) (n : Fin 1024) (j : Fin 4) : projT X MU V (ix3 p n j) = Hmu.proj X MU V p n j := by
  show Host.dotGeneral dot_S4096x1024_S1024x4x1024_S4096x1024x4_1_2_0_01_n_n none X V (ix3 p n j)
    - broadcastInDim S4096x1024x4 ![0, 1, 2] bcast_S1x1024x4_S4096x1024x4_0_1_2
        (broadcastInDim S1x1024x4 ![1, 2] bcast_S1024x4_S1x1024x4_1_2 (vmuT MU V)) (ix3 p n j) = _
  rw [bcastLeading_apply, vmuT_apply]
  exact congrArg (· - Hmu.vmu MU V n j)
    (dotBDxNKD_apply dot_S4096x1024_S1024x4x1024_S4096x1024x4_1_2_0_01_n_n_wf X V none .single p n j)

/-- The squared-distance term. -/
theorem sqT_apply (p : Fin 4096) (n : Fin 1024) : sqT X MU (ix2 p n) = Hmu.sq X MU p n := by
  show (broadcastInDim S4096x1024 ![0, 1] bcast_S4096x1_S4096x1024_0_1
        (broadcastInDim S4096x1 ![0] bcast_S4096_S4096x1_0 (xsqT X)) (ix2 p n)
      - broadcastInDim S4096x1024 ![] bcast_S_S4096x1024 (constant S_ .f32 0x40000000#32) (ix2 p n) * xmuT X MU (ix2 p n))
    + broadcastInDim S4096x1024 ![0, 1] bcast_S1x1024_S4096x1024_0_1
        (broadcastInDim S1x1024 ![1] bcast_S1024_S1x1024_1 (musqT MU)) (ix2 p n) = _
  rw [bcastRows_apply, bcastCols_apply, bcast_const_apply, xsqT_apply, xmuT_apply, musqT_apply]
  rfl

/-- The layer at an entry. -/
theorem layerTerm_apply (p : Fin 4096) (n : Fin 1024) :
    layerTerm X MU LAM V (ix2 p n) = Ideal.exp (Ideal.div (-(Hmu.quadSum X MU LAM V p n)) Hmu.nD) := by
  show Ideal.exp (Ideal.div (-(broadcastInDim S4096x1024 ![0, 1] bcast_S1x1024_S4096x1024_0_1
        (broadcastInDim S1x1024 ![1] bcast_S1024_S1x1024_1 LAM) (ix2 p n) * sqT X MU (ix2 p n)
      + Host.reduceAdd (mulf (projT X MU V) (projT X MU V)) (constant S_ .f32 0x00000000#32)
        reducesTo_S4096x1024x4_S4096x1024_d2 h_S_ (ix2 p n)))
    (broadcastInDim S4096x1024 ![] bcast_S_S4096x1024 (constant (F := Ideal) S_ .f32 0x44800000#32) (ix2 p n))) = _
  rw [bcastCols_apply, bcast_const_apply, sqT_apply, hostReduceAdd_abc_axis2_apply]
  have hs : ∑ j : Fin 4, mulf (projT X MU V) (projT X MU V) (ix3 p n j)
      = ∑ j : Fin 4, Hmu.proj X MU V p n j * Hmu.proj X MU V p n j :=
    Finset.sum_congr rfl fun j _ => by rw [mulf_apply, projT_apply]
  rw [hs]
  rfl

/-- The layer's text is the specification's layer. -/
theorem layerTerm_eq : layerTerm X MU LAM V = Hmu.layerDiv X MU LAM V := by
  funext i
  obtain ⟨p, n, rfl⟩ : ∃ p n, i = ix2 p n := ⟨i 0, i 1, eq_ix2 i⟩
  exact layerTerm_apply X MU LAM V p n

/-! ## The normalisation's text, piece by piece -/

/-- Each column's mean over the batch. -/
def meanT (Y : FVec Ideal S4096x1024 .f32) : FVec Ideal S1024 .f32 :=
  Host.divf (Host.reduceAdd Y (constant S_ .f32 0x00000000#32) reducesTo_S4096x1024_S1024_d0 h_S_)
    (broadcastInDim S1024 ![] bcast_S_S1024 (constant S_ .f32 0x45800000#32))

/-- The output less its column's mean. -/
def centT (Y : FVec Ideal S4096x1024 .f32) : FVec Ideal S4096x1024 .f32 :=
  subf Y (broadcastInDim S4096x1024 ![0, 1] bcast_S1x1024_S4096x1024_0_1
    (broadcastInDim S1x1024 ![1] bcast_S1024_S1x1024_1 (meanT Y)))

/-- Each column's reciprocal standard deviation, the variance floored. -/
def istdT (Y : FVec Ideal S4096x1024 .f32) : FVec Ideal S1024 .f32 :=
  Host.rsqrt (addf
    (Host.divf (Host.reduceAdd (mulf (centT Y) (centT Y)) (constant S_ .f32 0x00000000#32) reducesTo_S4096x1024_S1024_d0 h_S_)
      (broadcastInDim S1024 ![] bcast_S_S1024 (constant S_ .f32 0x45800000#32)))
    (broadcastInDim S1024 ![] bcast_S_S1024 (constant S_ .f32 0x3727C5AC#32)))

/-- The normalisation: centred, scaled by the reciprocal deviation and the gain, shifted. -/
def bnTerm (Y : FVec Ideal S4096x1024 .f32) (G B : FVec Ideal S1024 .f32) : FVec Ideal S4096x1024 .f32 :=
  addf (mulf (mulf (centT Y)
      (broadcastInDim S4096x1024 ![0, 1] bcast_S1x1024_S4096x1024_0_1
        (broadcastInDim S1x1024 ![1] bcast_S1024_S1x1024_1 (istdT Y))))
    (broadcastInDim S4096x1024 ![0, 1] bcast_S1x1024_S4096x1024_0_1 (broadcastInDim S1x1024 ![1] bcast_S1024_S1x1024_1 G)))
    (broadcastInDim S4096x1024 ![0, 1] bcast_S1x1024_S4096x1024_0_1 (broadcastInDim S1x1024 ![1] bcast_S1024_S1x1024_1 B))

/-- The reference's first normalisation is this text of its first layer and the next two arguments. -/
theorem res_main_v56_eq (V0 : Valuation τ sig (Elt Ideal)) :
    res_main_v56 (F := Ideal) V0 = bnTerm (res_main_v31 V0) (V0 (Proc.devRef .tc main_arg4)) (V0 (Proc.devRef .tc main_arg5)) := rfl

/-- The reference's second layer is the layer's text of the normalised first layer and the next three arguments. -/
theorem res_main_v88_eq (V0 : Valuation τ sig (Elt Ideal)) :
    res_main_v88 (F := Ideal) V0 = layerTerm (res_main_v56 V0) (V0 (Proc.devRef .tc main_arg6))
      (V0 (Proc.devRef .tc main_arg7)) (V0 (Proc.devRef .tc main_arg8)) := rfl

section Norm
variable (Y : FVec Ideal S4096x1024 .f32) (G B : FVec Ideal S1024 .f32)

/-- A column's mean is its sum over the batch size. -/
theorem meanT_apply (n : Fin 1024) : meanT Y (ix1 n) = Hmu.colMean Y n := by
  show Ideal.div (Host.reduceAdd Y (constant S_ .f32 0x00000000#32) reducesTo_S4096x1024_S1024_d0 h_S_ (ix1 n))
    (broadcastInDim S1024 ![] bcast_S_S1024 (constant (F := Ideal) S_ .f32 0x45800000#32) (ix1 n)) = _
  rw [hostReduceAdd_ab_axis0_apply, bcast_const_apply]
  rfl

/-- The centred output at an entry. -/
theorem centT_apply (p : Fin 4096) (n : Fin 1024) : centT Y (ix2 p n) = Y (ix2 p n) - Hmu.colMean Y n := by
  show Y (ix2 p n) - broadcastInDim S4096x1024 ![0, 1] bcast_S1x1024_S4096x1024_0_1
    (broadcastInDim S1x1024 ![1] bcast_S1024_S1x1024_1 (meanT Y)) (ix2 p n) = _
  rw [bcastCols_apply, meanT_apply]

/-- A column's reciprocal standard deviation. -/
theorem istdT_apply (n : Fin 1024) : istdT Y (ix1 n) = Hmu.istd Y n := by
  show Ideal.rsqrt (Ideal.div
      (Host.reduceAdd (mulf (centT Y) (centT Y)) (constant S_ .f32 0x00000000#32) reducesTo_S4096x1024_S1024_d0 h_S_ (ix1 n))
      (broadcastInDim S1024 ![] bcast_S_S1024 (constant (F := Ideal) S_ .f32 0x45800000#32) (ix1 n))
    + broadcastInDim S1024 ![] bcast_S_S1024 (constant (F := Ideal) S_ .f32 0x3727C5AC#32) (ix1 n)) = _
  rw [hostReduceAdd_ab_axis0_apply, bcast_const_apply, bcast_const_apply]
  have hs : ∑ r : Fin 4096, mulf (centT Y) (centT Y) (ix2 r n)
      = ∑ r : Fin 4096, (Y (ix2 r n) - Hmu.colMean Y n) * (Y (ix2 r n) - Hmu.colMean Y n) :=
    Finset.sum_congr rfl fun r _ => by rw [mulf_apply, centT_apply]
  rw [hs]
  rfl

/-- The normalisation at an entry. -/
theorem bnTerm_apply (p : Fin 4096) (n : Fin 1024) :
    bnTerm Y G B (ix2 p n) = ((Y (ix2 p n) - Hmu.colMean Y n) * Hmu.istd Y n) * G (ix1 n) + B (ix1 n) := by
  show (centT Y (ix2 p n)
        * broadcastInDim S4096x1024 ![0, 1] bcast_S1x1024_S4096x1024_0_1
            (broadcastInDim S1x1024 ![1] bcast_S1024_S1x1024_1 (istdT Y)) (ix2 p n))
      * broadcastInDim S4096x1024 ![0, 1] bcast_S1x1024_S4096x1024_0_1
          (broadcastInDim S1x1024 ![1] bcast_S1024_S1x1024_1 G) (ix2 p n)
    + broadcastInDim S4096x1024 ![0, 1] bcast_S1x1024_S4096x1024_0_1
        (broadcastInDim S1x1024 ![1] bcast_S1024_S1x1024_1 B) (ix2 p n) = _
  rw [bcastCols_apply, bcastCols_apply, bcastCols_apply, centT_apply, istdT_apply]

/-- The normalisation's text is the specification's normalisation. -/
theorem bnTerm_eq : bnTerm Y G B = Hmu.bn Y G B := by
  funext i
  obtain ⟨p, n, rfl⟩ : ∃ p n, i = ix2 p n := ⟨i 0, i 1, eq_ix2 i⟩
  exact bnTerm_apply Y G B p n

end Norm

/-! ## The whole reference -/

/-- The reference's result buffer, as the generated run states it over any contents of the arguments, is the
    specification's network with every normalisation applied directly and every layer in the summed form. -/
theorem result_eq (V0 : Valuation τ sig (Elt Ideal)) :
    addf (addf (mulf (mulf (subf (res_main_v88 V0) (broadcastInDim S4096x1024 ![0, 1] bcast_S1x1024_S4096x1024_0_1 (broadcastInDim S1x1024 ![1] bcast_S1024_S1x1024_1 (res_main_v91 V0)))) (broadcastInDim S4096x1024 ![0, 1] bcast_S1x1024_S4096x1024_0_1 (broadcastInDim S1x1024 ![1] bcast_S1024_S1x1024_1 (Host.rsqrt (addf (Host.divf (Host.reduceAdd (mulf (res_main_v94 V0) (res_main_v94 V0)) (constant S_ .f32 0x00000000#32) reducesTo_S4096x1024_S1024_d0 h_S_) (broadcastInDim S1024 ![] bcast_S_S1024 (constant S_ .f32 0x45800000#32))) (broadcastInDim S1024 ![] bcast_S_S1024 (constant S_ .f32 0x3727C5AC#32))))))) (broadcastInDim S4096x1024 ![0, 1] bcast_S1x1024_S4096x1024_0_1 (broadcastInDim S1x1024 ![1] bcast_S1024_S1x1024_1 (V0 (Proc.devRef .tc main_arg9))))) (broadcastInDim S4096x1024 ![0, 1] bcast_S1x1024_S4096x1024_0_1 (broadcastInDim S1x1024 ![1] bcast_S1024_S1x1024_1 (V0 (Proc.devRef .tc main_arg10))))) (V0 (Proc.devRef .tc main_arg0))
      = Hmu.netDirect (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5))
          (V0 (Proc.devRef .tc main_arg6)) (V0 (Proc.devRef .tc main_arg7)) (V0 (Proc.devRef .tc main_arg8))
          (V0 (Proc.devRef .tc main_arg9)) (V0 (Proc.devRef .tc main_arg10)) := by
  show addf (bnTerm (res_main_v88 V0) (V0 (Proc.devRef .tc main_arg9)) (V0 (Proc.devRef .tc main_arg10)))
    (V0 (Proc.devRef .tc main_arg0)) = _
  rw [res_main_v88_eq, res_main_v56_eq, res_main_v31_eq, layerTerm_eq, bnTerm_eq, layerTerm_eq, bnTerm_eq]
  rfl

end Cert.ReferenceIdeal.RefValue

end
-- ==== Proof.lean ====
/-
  Two stacked layers `x ↦ exp (-(lam ‖x - mu‖² + ∑ₖ ⟨v_k, x - mu⟩²) / 1024)`, each followed by a batch normalisation over the
  4096 rows, with the input added at the end: a kernel program of two launches against a plain reference.

  Read on the extended reals, with every operation exact and every change of float format the identity, the two
  programs differ in three ways only. (1) The kernel adds the four squared projections to the first summand one after
  another where the reference sums them first; it subtracts from zero where the reference negates, and multiplies by
  `2⁻¹⁰` where the reference divides by `1024`: associativity and commutativity of `+`, and the exactness of `2⁻¹⁰`, so this
  holds for all extended reals. (2) The first launch maps its input by `x * 1 + 0`. (3) The first normalisation is not
  applied by the host but fused into the second launch's input map: `y * (istd * g) + (beta - mean * (istd * g))` in
  place of `((y - mean) * istd) * g + beta`. That is distributivity, which fails at the infinities; it is here that the
  precondition is used: finite inputs make the first layer's output an exponential of a real, hence the column means
  real, the variances real and non-negative, the floored reciprocal deviations real, and then the two forms agree
  in ℝ.

  The kernel's value is read off its run: the result buffer ends at the last host stretch's contents
  (`RunValue.run_result`), the host stretches are opened operation by operation (`HostRead`), and each launch's output
  array is the layer of its input array because the eight row bands its grid points write tile it (`Cover0`, `Cover1`
  over the bodies read in `Body0`, `Body1`). The reference's value is its generated run read at an index (`RefValue`).
-/
import proofs.«161757_j49520972923445_2_alg».proof.Defs
import proofs.«161757_j49520972923445_2_alg».proof.Proof.Gen.Kernel
import proofs.«161757_j49520972923445_2_alg».proof.Proof.Gen.Kernel.Skeleton
import proofs.«161757_j49520972923445_2_alg».proof.Proof.Gen.Kernel.Launch
import proofs.«161757_j49520972923445_2_alg».proof.Proof.Gen.Kernel.Points
import proofs.«161757_j49520972923445_2_alg».proof.Proof.Gen.Kernel.Frame
import proofs.«161757_j49520972923445_2_alg».proof.Proof.Gen.KernelIdeal
import proofs.«161757_j49520972923445_2_alg».proof.Proof.Gen.KernelIdeal.Skeleton
import proofs.«161757_j49520972923445_2_alg».proof.Proof.Gen.KernelIdeal.Launch
import proofs.«161757_j49520972923445_2_alg».proof.Proof.Gen.KernelIdeal.Points
import proofs.«161757_j49520972923445_2_alg».proof.Proof.Gen.KernelIdeal.Frame
import proofs.«161757_j49520972923445_2_alg».proof.Proof.Gen.ReferenceIdeal
import proofs.«161757_j49520972923445_2_alg».proof.Proof.Gen.ReferenceIdeal.Run
import proofs.«161757_j49520972923445_2_alg».proof.Proof.Gen.Pre_finite_inputs
import proofs.«161757_j49520972923445_2_alg».proof.Proof.KRun
import proofs.«161757_j49520972923445_2_alg».proof.Proof.KValue1
import proofs.«161757_j49520972923445_2_alg».proof.Proof.PreReal
import proofs.«161757_j49520972923445_2_alg».proof.Proof.Algebra
import proofs.«161757_j49520972923445_2_alg».proof.Proof.RefRead
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, both programs end with the result buffer at the network with every
    normalisation applied directly, of the kernel's arguments: the kernel's own value is the fused form, equal to it
    because the precondition makes the arguments real; the reference's is that network of its own arguments. -/
theorem algebraic : Cert.algebraic_KernelIdeal_ReferenceIdeal := by
  intro m ρ m' ρ' hpre hagree
  refine ⟨fun c => Hmu.netDirect (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · refine (θ_run Cert.KernelIdeal.defs _ _).mono (fun r h c => ⟨(h c).1.trans ?_, (h c).2⟩)
      (Cert.KernelIdeal.RunValue.run_result (F := Ideal) m ρ)
    obtain ⟨h0, h1, h2, h3, h4, h5⟩ := Cert.KernelIdeal.PreReal.real_args m hpre c
    exact (Cert.KernelIdeal.KValue.result_eq m ρ c).trans (Hmu.netFused_eq_netDirect h0 h1 h2 h3 h4 h5)
  · refine (θ_run Cert.ReferenceIdeal.defs _ _).mono (fun _ h c => ⟨(h c).1.trans ?_, (h c).2⟩)
      (Cert.ReferenceIdeal.Value.run (F := Ideal) m' ρ')
    refine (Cert.ReferenceIdeal.RefValue.result_eq (StableHlo.launchContents m' c)).trans ?_
    obtain ⟨a0, a1, a2, a3, a4, a5, a6, a7, a8, a9, a10⟩ := hagree c
    show Hmu.netDirect (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10))
      = Hmu.netDirect (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
    rw [a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
